-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x3 : Shape := ⟨3, ![2, 4096, 3]⟩
abbrev S2x4096 : Shape := ⟨2, ![2, 4096]⟩
abbrev S1 : Shape := ⟨1, ![1]⟩
abbrev S_ : Shape := ⟨0, ![]⟩

class Facts : Prop where
  bcast_S_S2x4096x3 : S_.BroadcastsInDim S2x4096x3 (![] : Fin 0 → Fin S2x4096x3.rank)
  reducesTo_S2x4096x3_S_d0_1_2 : S2x4096x3.ReducesTo [0, 1, 2] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S2x4096x3 .f32) (main_arg1 : IVec S2x4096 1) (main_arg2 : FVec F S1 .f32) (main_arg3 : FVec F S1 .f32) : IVec S_ 1 :=
  let main_v0 : FVec F S2x4096x3 .f32 := Host.absf main_arg0
  let main_cst : FVec F S_ .f32 := constant S_ .f32 0x7F800000#32
  let main_v1 : FVec F S2x4096x3 .f32 := broadcastInDim S2x4096x3 ![] bcast_S_S2x4096x3 main_cst
  let main_v2 : IVec S2x4096x3 1 := cmpf .olt main_v0 main_v1
  let main_c : IVec S_ 1 := constantI S_ 1 1#1
  let main_v3 : IVec S_ 1 := (fun x v => Host.reduce IntOp.andi x v reducesTo_S2x4096x3_S_d0_1_2 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S2x4096x3 : Shape := ⟨3, ![2, 4096, 3]⟩
abbrev S2x4096 : Shape := ⟨2, ![2, 4096]⟩
abbrev S1 : Shape := ⟨1, ![1]⟩
abbrev S2x4096x1 : Shape := ⟨3, ![2, 4096, 1]⟩
abbrev S_ : Shape := ⟨0, ![]⟩
abbrev S2x4096x4 : Shape := ⟨3, ![2, 4096, 4]⟩
abbrev S2x4096x8 : Shape := ⟨3, ![2, 4096, 8]⟩
abbrev S2x8x4096 : Shape := ⟨3, ![2, 8, 4096]⟩
abbrev S2 : Shape := ⟨1, ![2]⟩
abbrev S1x2 : Shape := ⟨2, ![1, 2]⟩
abbrev S2x1x1 : Shape := ⟨3, ![2, 1, 1]⟩
abbrev S1x512x8 : Shape := ⟨3, ![1, 512, 8]⟩
abbrev S1x8x4096 : Shape := ⟨3, ![1, 8, 4096]⟩
abbrev S1x1x1 : Shape := ⟨3, ![1, 1, 1]⟩
abbrev S1x1 : Shape := ⟨2, ![1, 1]⟩
abbrev S512x4096 : Shape := ⟨2, ![512, 4096]⟩
abbrev S1x512x1 : Shape := ⟨3, ![1, 512, 1]⟩
abbrev S512x1 : Shape := ⟨2, ![512, 1]⟩
abbrev S1x1x4096 : Shape := ⟨3, ![1, 1, 4096]⟩
abbrev S1x4096 : Shape := ⟨2, ![1, 4096]⟩
abbrev S1x512x4096 : Shape := ⟨3, ![1, 512, 4096]⟩

abbrev nBuf : Space → Nat
  | .hbm => 32
  | .vmem => 7
  | .smem => 0
  | _ => 0

abbrev bufTy : (tb : Table) → Fin (tcTables nBuf tb) → BufTy
  | .hbm, ⟨0, _⟩ => ⟨S2x4096x3, .f32⟩
  | .hbm, ⟨1, _⟩ => ⟨S2x4096, .i1⟩
  | .hbm, ⟨2, _⟩ => ⟨S1, .f32⟩
  | .hbm, ⟨3, _⟩ => ⟨S1, .f32⟩
  | .hbm, ⟨4, _⟩ => ⟨S2x4096, .f32⟩
  | .hbm, ⟨5, _⟩ => ⟨S2x4096x1, .f32⟩
  | .hbm, ⟨6, _⟩ => ⟨S_, .f32⟩
  | .hbm, ⟨7, _⟩ => ⟨S2x4096x4, .f32⟩
  | .hbm, ⟨8, _⟩ => ⟨S2x4096x8, .f32⟩
  | .hbm, ⟨9, _⟩ => ⟨S2x8x4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1, .f32⟩
  | .hbm, ⟨24, _⟩ => ⟨S1, .f32⟩
  | .hbm, ⟨25, _⟩ => ⟨S2, .f32⟩
  | .hbm, ⟨26, _⟩ => ⟨S1x2, .f32⟩
  | .hbm, ⟨27, _⟩ => ⟨S2x1x1, .f32⟩
  | .hbm, ⟨28, _⟩ => ⟨S2, .f32⟩
  | .hbm, ⟨29, _⟩ => ⟨S_, .f32⟩
  | .hbm, ⟨30, _⟩ => ⟨S2, .f32⟩
  | .hbm, ⟨31, _⟩ => ⟨S2, .f32⟩
  | .local _ .vmem, ⟨0, _⟩ => ⟨S1x2, .f32⟩
  | .local _ .vmem, ⟨1, _⟩ => ⟨S1x512x8, .f32⟩
  | .local _ .vmem, ⟨2, _⟩ => ⟨S1x512x8, .f32⟩
  | .local _ .vmem, ⟨3, _⟩ => ⟨S1x8x4096, .f32⟩
  | .local _ .vmem, ⟨4, _⟩ => ⟨S1x8x4096, .f32⟩
  | .local _ .vmem, ⟨5, _⟩ => ⟨S1x1x1, .f32⟩
  | .local _ .vmem, ⟨6, _⟩ => ⟨S1x1x1, .f32⟩
  | _, _ => ⟨S2x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S2x4096_S2x4096x1_0_1 : S2x4096.BroadcastsInDim S2x4096x1 (![0, 1] : Fin 2 → Fin S2x4096x1.rank)
  bcast_S_S2x4096x4 : S_.BroadcastsInDim S2x4096x4 (![] : Fin 0 → Fin S2x4096x4.rank)
  concatenates_S2x4096x3_S2x4096x1_S2x4096x4_S2x4096x8_d2 : Shape.Concatenates [S2x4096x3, S2x4096x1, S2x4096x4] S2x4096x8 2
  transposes_S2x4096x8_S2x8x4096_0_2_1 : S2x4096x8.Transposes [0, 2, 1] S2x8x4096
  shapeCasts_S1_S_ : S1.ShapeCasts S_
  bcast_S_S1 : S_.BroadcastsInDim S1 (![] : Fin 0 → Fin S1.rank)
  concatenates_S1_S1_S2_d0 : Shape.Concatenates [S1, S1] S2 0
  shapeCasts_S2_S1x2 : S2.ShapeCasts S1x2
  inb_S1x2_S1x1_0_0 : ∀ a, (![0, 0] : Fin 2 → Nat) a + S1x1.size a ≤ S1x2.size a
  h_S1x1 : 0 < S1x1.numel
  inpos_S1x1_p0_0 : ∀ a, (![0, 0] : Fin 2 → Nat) a < S1x1.size a
  inb_S1x2_S1x1_0_1 : ∀ a, (![0, 1] : Fin 2 → Nat) a + S1x1.size a ≤ S1x2.size a
  inb_S1x512x8_S1x512x1_0_0_0 : ∀ a, (![0, 0, 0] : Fin 3 → Nat) a + S1x512x1.size a ≤ S1x512x8.size a
  h_S1x512x1 : 0 < S1x512x1.numel
  shapeCasts_S1x512x1_S512x1 : S1x512x1.ShapeCasts S512x1
  inb_S1x8x4096_S1x1x4096_0_0_0 : ∀ a, (![0, 0, 0] : Fin 3 → Nat) a + S1x1x4096.size a ≤ S1x8x4096.size a
  h_S1x1x4096 : 0 < S1x1x4096.numel
  shapeCasts_S1x1x4096_S1x4096 : S1x1x4096.ShapeCasts S1x4096
  broadcasts_S512x1_S512x4096 : S512x1.Broadcasts S512x4096
  broadcasts_S1x4096_S512x4096 : S1x4096.Broadcasts S512x4096
  inb_S1x512x8_S1x512x1_0_0_1 : ∀ a, (![0, 0, 1] : Fin 3 → Nat) a + S1x512x1.size a ≤ S1x512x8.size a
  inb_S1x8x4096_S1x1x4096_0_1_0 : ∀ a, (![0, 1, 0] : Fin 3 → Nat) a + S1x1x4096.size a ≤ S1x8x4096.size a
  inb_S1x512x8_S1x512x1_0_0_2 : ∀ a, (![0, 0, 2] : Fin 3 → Nat) a + S1x512x1.size a ≤ S1x512x8.size a
  inb_S1x8x4096_S1x1x4096_0_2_0 : ∀ a, (![0, 2, 0] : Fin 3 → Nat) a + S1x1x4096.size a ≤ S1x8x4096.size a
  inb_S1x512x8_S1x512x1_0_0_3 : ∀ a, (![0, 0, 3] : Fin 3 → Nat) a + S1x512x1.size a ≤ S1x512x8.size a
  inb_S1x8x4096_S1x1x4096_0_3_0 : ∀ a, (![0, 3, 0] : Fin 3 → Nat) a + S1x1x4096.size a ≤ S1x8x4096.size a
  iota_S512x4096_d0_w32 : S512x4096.Iotas .tc 32 [0]
  iota_S512x4096_d1_w32 : S512x4096.Iotas .tc 32 [1]
  shapeCasts_S512x4096_S1x512x4096 : S512x4096.ShapeCasts S1x512x4096
  reduces_S1x512x4096_S1 : S1x512x4096.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S2x1x1_S2 : S2x1x1.ShapeCasts S2
  bcast_S_S2 : S_.BroadcastsInDim S2 (![] : Fin 0 → Fin S2.rank)
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2.size a ≤ S1x2.size a
  hwx0_0 : ∀ i : grid0.Coords, EltTy.bits .f32 = 32 ∨ (Rect.block (s := S1x2) S1x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x8.size a ≤ S2x4096x8.size a
  hwx0_1 : ∀ i : grid0.Coords, EltTy.bits .f32 = 32 ∨ (Rect.block (s := S2x4096x8) S1x512x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x4096.size a ≤ S2x8x4096.size a
  hwx0_2 : ∀ i : grid0.Coords, EltTy.bits .f32 = 32 ∨ (Rect.block (s := S2x8x4096) S1x8x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_v17) S1x2.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x512x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x8x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x4096x3 : Shape := ⟨3, ![2, 4096, 3]⟩
abbrev S2x4096 : Shape := ⟨2, ![2, 4096]⟩
abbrev S1 : Shape := ⟨1, ![1]⟩
abbrev S_ : Shape := ⟨0, ![]⟩
abbrev S4096x4096 : Shape := ⟨2, ![4096, 4096]⟩
abbrev S16777216 : Shape := ⟨1, ![16777216]⟩
abbrev S8386560 : Shape := ⟨1, ![8386560]⟩
abbrev S16777216x1 : Shape := ⟨2, ![16777216, 1]⟩
abbrev S8386560x1 : Shape := ⟨2, ![8386560, 1]⟩
abbrev S2x8386560x3 : Shape := ⟨3, ![2, 8386560, 3]⟩
abbrev S2x8386560 : Shape := ⟨2, ![2, 8386560]⟩
abbrev S1x1 : Shape := ⟨2, ![1, 1]⟩
abbrev S2 : Shape := ⟨1, ![2]⟩

abbrev nBuf : Space → Nat
  | .hbm => 191
  | .vmem => 0
  | .smem => 0
  | _ => 0

abbrev hbmTy0_0 (i : Nat) : BufTy := match i % 128 with
  | 0 => ⟨S2x4096x3, .f32⟩
  | 1 => ⟨S2x4096, .i1⟩
  | 2 => ⟨S1, .f32⟩
  | 3 => ⟨S1, .f32⟩
  | 4 => ⟨S_, .f32⟩
  | 5 => ⟨S4096x4096, .f32⟩
  | 6 => ⟨S4096x4096, .i32⟩
  | 7 => ⟨S_, .i32⟩
  | 8 => ⟨S4096x4096, .i32⟩
  | 9 => ⟨S4096x4096, .i32⟩
  | 10 => ⟨S4096x4096, .i32⟩
  | 11 => ⟨S4096x4096, .i1⟩
  | 12 => ⟨S_, .f32⟩
  | 13 => ⟨S4096x4096, .f32⟩
  | 14 => ⟨S4096x4096, .f32⟩
  | 15 => ⟨S_, .f32⟩
  | 16 => ⟨S4096x4096, .f32⟩
  | 17 => ⟨S4096x4096, .i1⟩
  | 18 => ⟨S16777216, .i1⟩
  | 19 => ⟨S16777216, .i32⟩
  | 20 => ⟨S_, .i32⟩
  | 21 => ⟨S_, .i32⟩
  | 22 => ⟨S16777216, .i32⟩
  | 23 => ⟨S_, .i32⟩
  | 24 => ⟨S8386560, .i32⟩
  | 25 => ⟨S_, .i32⟩
  | 26 => ⟨S_, .i32⟩
  | 27 => ⟨S16777216, .i32⟩
  | 28 => ⟨S16777216, .i32⟩
  | 29 => ⟨S_, .i32⟩
  | 30 => ⟨S16777216, .i32⟩
  | 31 => ⟨S16777216, .i1⟩
  | 32 => ⟨S_, .i32⟩
  | 33 => ⟨S16777216, .i32⟩
  | 34 => ⟨S16777216, .i32⟩
  | 35 => ⟨S16777216, .i32⟩
  | 36 => ⟨S16777216x1, .i32⟩
  | 37 => ⟨S_, .i32⟩
  | 38 => ⟨S16777216, .i32⟩
  | 39 => ⟨S8386560, .i32⟩
  | 40 => ⟨S_, .i32⟩
  | 41 => ⟨S_, .i32⟩
  | 42 => ⟨S8386560, .i32⟩
  | 43 => ⟨S_, .i32⟩
  | 44 => ⟨S8386560, .i32⟩
  | 45 => ⟨S8386560, .i32⟩
  | 46 => ⟨S8386560, .i32⟩
  | 47 => ⟨S_, .i32⟩
  | 48 => ⟨S8386560, .i32⟩
  | 49 => ⟨S8386560, .i1⟩
  | 50 => ⟨S8386560, .i32⟩
  | 51 => ⟨S8386560, .i32⟩
  | 52 => ⟨S_, .i32⟩
  | 53 => ⟨S8386560, .i32⟩
  | 54 => ⟨S8386560, .i1⟩
  | 55 => ⟨S8386560, .i1⟩
  | 56 => ⟨S_, .i32⟩
  | 57 => ⟨S8386560, .i32⟩
  | 58 => ⟨S8386560, .i32⟩
  | 59 => ⟨S8386560, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S8386560, .i32⟩
  | 67 => ⟨S8386560, .i32⟩
  | 68 => ⟨S_, .i32⟩
  | 69 => ⟨S8386560, .i32⟩
  | 70 => ⟨S8386560, .i1⟩
  | 71 => ⟨S_, .i32⟩
  | 72 => ⟨S8386560, .i32⟩
  | 73 => ⟨S8386560, .i1⟩
  | 74 => ⟨S_, .i32⟩
  | 75 => ⟨S_, .i1⟩
  | 76 => ⟨S8386560, .i1⟩
  | 77 => ⟨S8386560, .i1⟩
  | 78 => ⟨S8386560, .i1⟩
  | 79 => ⟨S8386560, .i32⟩
  | 80 => ⟨S8386560, .i32⟩
  | 81 => ⟨S8386560, .i32⟩
  | 82 => ⟨S_, .i32⟩
  | 83 => ⟨S8386560, .i32⟩
  | 84 => ⟨S8386560, .i32⟩
  | 85 => ⟨S8386560, .i32⟩
  | 86 => ⟨S_, .i32⟩
  | 87 => ⟨S8386560, .i32⟩
  | 88 => ⟨S8386560, .i1⟩
  | 89 => ⟨S8386560, .i32⟩
  | 90 => ⟨S8386560, .i32⟩
  | 91 => ⟨S_, .i32⟩
  | 92 => ⟨S8386560, .i32⟩
  | 93 => ⟨S8386560, .i1⟩
  | 94 => ⟨S8386560, .i1⟩
  | 95 => ⟨S_, .i32⟩
  | 96 => ⟨S8386560, .i32⟩
  | 97 => ⟨S8386560, .i32⟩
  | 98 => ⟨S8386560, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S8386560, .i32⟩
  | 106 => ⟨S8386560, .i32⟩
  | 107 => ⟨S_, .i32⟩
  | 108 => ⟨S8386560, .i32⟩
  | 109 => ⟨S8386560, .i1⟩
  | 110 => ⟨S_, .i32⟩
  | 111 => ⟨S8386560, .i32⟩
  | 112 => ⟨S8386560, .i1⟩
  | 113 => ⟨S_, .i32⟩
  | 114 => ⟨S_, .i1⟩
  | 115 => ⟨S8386560, .i1⟩
  | 116 => ⟨S8386560, .i1⟩
  | 117 => ⟨S8386560, .i1⟩
  | 118 => ⟨S8386560, .i32⟩
  | 119 => ⟨S8386560, .i32⟩
  | 120 => ⟨S8386560, .i32⟩
  | 121 => ⟨S_, .i32⟩
  | 122 => ⟨S8386560, .i32⟩
  | 123 => ⟨S8386560, .i1⟩
  | 124 => ⟨S_, .i32⟩
  | 125 => ⟨S8386560, .i32⟩
  | 126 => ⟨S8386560, .i32⟩
  | 127 => ⟨S8386560, .i32⟩
  | _ => ⟨S2x4096x3, .f32⟩

abbrev hbmTy0_1 (i : Nat) : BufTy := match i % 128 with
  | 0 => ⟨S8386560x1, .i32⟩
  | 1 => ⟨S2x8386560x3, .f32⟩
  | 2 => ⟨S_, .i32⟩
  | 3 => ⟨S8386560, .i32⟩
  | 4 => ⟨S8386560, .i1⟩
  | 5 => ⟨S_, .i32⟩
  | 6 => ⟨S8386560, .i32⟩
  | 7 => ⟨S8386560, .i32⟩
  | 8 => ⟨S8386560, .i32⟩
  | 9 => ⟨S8386560x1, .i32⟩
  | 10 => ⟨S2x8386560x3, .f32⟩
  | 11 => ⟨S2x8386560x3, .f32⟩
  | 12 => ⟨S2x8386560x3, .f32⟩
  | 13 => ⟨S_, .f32⟩
  | 14 => ⟨S2x8386560, .f32⟩
  | 15 => ⟨S_, .f32⟩
  | 16 => ⟨S2x8386560, .f32⟩
  | 17 => ⟨S2x8386560, .f32⟩
  | 18 => ⟨S2x8386560, .f32⟩
  | 19 => ⟨S_, .i32⟩
  | 20 => ⟨S8386560, .i32⟩
  | 21 => ⟨S8386560, .i1⟩
  | 22 => ⟨S_, .i32⟩
  | 23 => ⟨S8386560, .i32⟩
  | 24 => ⟨S8386560, .i32⟩
  | 25 => ⟨S8386560, .i32⟩
  | 26 => ⟨S8386560x1, .i32⟩
  | 27 => ⟨S2x8386560, .i1⟩
  | 28 => ⟨S_, .i32⟩
  | 29 => ⟨S8386560, .i32⟩
  | 30 => ⟨S8386560, .i1⟩
  | 31 => ⟨S_, .i32⟩
  | 32 => ⟨S8386560, .i32⟩
  | 33 => ⟨S8386560, .i32⟩
  | 34 => ⟨S8386560, .i32⟩
  | 35 => ⟨S8386560x1, .i32⟩
  | 36 => ⟨S2x8386560, .i1⟩
  | 37 => ⟨S2x8386560, .i1⟩
  | 38 => ⟨S1, .f32⟩
  | 39 => ⟨S1, .f32⟩
  | 40 => ⟨S1, .f32⟩
  | 41 => ⟨S_, .f32⟩
  | 42 => ⟨S1, .f32⟩
  | 43 => ⟨S1, .f32⟩
  | 44 => ⟨S_, .f32⟩
  | 45 => ⟨S1, .f32⟩
  | 46 => ⟨S1, .f32⟩
  | 47 => ⟨S1x1, .f32⟩
  | 48 => ⟨S2x8386560, .f32⟩
  | 49 => ⟨S2x8386560, .f32⟩
  | 50 => ⟨S_, .f32⟩
  | 51 => ⟨S1, .f32⟩
  | 52 => ⟨S1, .f32⟩
  | 53 => ⟨S1x1, .f32⟩
  | 54 => ⟨S2x8386560, .f32⟩
  | 55 => ⟨S2x8386560, .f32⟩
  | 56 => ⟨S_, .f32⟩
  | 57 => ⟨S_, .f32⟩
  | 58 => ⟨S2x8386560, .f32⟩
  | 59 => ⟨S2x8386560, .f32⟩
  | 60 => ⟨S_, .f32⟩
  | 61 => ⟨S2, .f32⟩
  | 62 => ⟨S2, .f32⟩
  | _ => ⟨S2x4096x3, .f32⟩

abbrev hbmTy (i : Nat) : BufTy := match i / 128 with
  | 0 => hbmTy0_0 i
  | 1 => hbmTy0_1 i
  | _ => ⟨S2x4096x3, .f32⟩

abbrev bufTy : (tb : Table) → Fin (tcTables nBuf tb) → BufTy
  | .hbm, ⟨i, _⟩ => hbmTy i
  | _, _ => ⟨S2x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_call1_v0 : Ref sig .tc := ⟨.hbm, 18, rfl⟩
abbrev main_call1_v1 : Ref sig .tc := ⟨.hbm, 19, rfl⟩
abbrev main_call1_call0_c : Ref sig .tc := ⟨.hbm, 20, rfl⟩
abbrev main_call1_call0_v0 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_c_1 : Ref sig .tc := ⟨.hbm, 25, rfl⟩
abbrev main_call2_v0 : Ref sig .tc := ⟨.hbm, 26, rfl⟩
abbrev main_call2_v1 : Ref sig .tc := ⟨.hbm, 27, rfl⟩
abbrev main_v6 : Ref sig .tc := ⟨.hbm, 28, rfl⟩
abbrev main_c_2 : Ref sig .tc := ⟨.hbm, 29, rfl⟩
abbrev main_v7 : Ref sig .tc := ⟨.hbm, 30, rfl⟩
abbrev main_v8 : Ref sig .tc := ⟨.hbm, 31, rfl⟩
abbrev main_c_3 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c_4 : Ref sig .tc := ⟨.hbm, 37, rfl⟩
abbrev main_v13 : Ref sig .tc := ⟨.hbm, 38, rfl⟩
abbrev main_v14 : Ref sig .tc := ⟨.hbm, 39, rfl⟩
abbrev main_call3_call0_c : Ref sig .tc := ⟨.hbm, 40, rfl⟩
abbrev main_call3_call0_v0 : Ref sig .tc := ⟨.hbm, 41, rfl⟩
abbrev main_v15 : Ref sig .tc := ⟨.hbm, 42, rfl⟩
abbrev main_c_5 : Ref sig .tc := ⟨.hbm, 43, rfl⟩
abbrev main_call4_v0 : Ref sig .tc := ⟨.hbm, 44, rfl⟩
abbrev main_call4_v1 : Ref sig .tc := ⟨.hbm, 45, rfl⟩
abbrev main_call4_v2 : Ref sig .tc := ⟨.hbm, 46, rfl⟩
abbrev main_call4_v3 : Ref sig .tc := ⟨.hbm, 47, rfl⟩
abbrev main_call4_v4 : Ref sig .tc := ⟨.hbm, 48, rfl⟩
abbrev main_call4_v5 : Ref sig .tc := ⟨.hbm, 49, rfl⟩
abbrev main_call4_v6 : Ref sig .tc := ⟨.hbm, 50, rfl⟩
abbrev main_call4_v7 : Ref sig .tc := ⟨.hbm, 51, rfl⟩
abbrev main_call4_c : Ref sig .tc := ⟨.hbm, 52, rfl⟩
abbrev main_call4_v8 : Ref sig .tc := ⟨.hbm, 53, rfl⟩
abbrev main_call4_v9 : Ref sig .tc := ⟨.hbm, 54, rfl⟩
abbrev main_call4_v10 : Ref sig .tc := ⟨.hbm, 55, rfl⟩
abbrev main_call4_c_0 : Ref sig .tc := ⟨.hbm, 56, rfl⟩
abbrev main_call4_v11 : Ref sig .tc := ⟨.hbm, 57, rfl⟩
abbrev main_call4_v12 : Ref sig .tc := ⟨.hbm, 58, rfl⟩
abbrev main_v16 : Ref sig .tc := ⟨.hbm, 59, rfl⟩
abbrev main_c_6 : Ref sig .tc := ⟨.hbm, 60, rfl⟩
abbrev main_call5_v0 : Ref sig .tc := ⟨.hbm, 61, rfl⟩
abbrev main_call5_c : Ref sig .tc := ⟨.hbm, 62, rfl⟩
abbrev main_call5_v1 : Ref sig .tc := ⟨.hbm, 63, rfl⟩
abbrev main_call5_c_0 : Ref sig .tc := ⟨.hbm, 64, rfl⟩
abbrev main_call5_v2 : Ref sig .tc := ⟨.hbm, 65, rfl⟩
abbrev main_call5_v3 : Ref sig .tc := ⟨.hbm, 66, rfl⟩
abbrev main_call5_v4 : Ref sig .tc := ⟨.hbm, 67, rfl⟩
abbrev main_call5_c_1 : Ref sig .tc := ⟨.hbm, 68, rfl⟩
abbrev main_call5_v5 : Ref sig .tc := ⟨.hbm, 69, rfl⟩
abbrev main_call5_v6 : Ref sig .tc := ⟨.hbm, 70, rfl⟩
abbrev main_call5_c_2 : Ref sig .tc := ⟨.hbm, 71, rfl⟩
abbrev main_call5_v7 : Ref sig .tc := ⟨.hbm, 72, rfl⟩
abbrev main_call5_v8 : Ref sig .tc := ⟨.hbm, 73, rfl⟩
abbrev main_call5_c_3 : Ref sig .tc := ⟨.hbm, 74, rfl⟩
abbrev main_call5_v9 : Ref sig .tc := ⟨.hbm, 75, rfl⟩
abbrev main_call5_v10 : Ref sig .tc := ⟨.hbm, 76, rfl⟩
abbrev main_call5_v11 : Ref sig .tc := ⟨.hbm, 77, rfl⟩
abbrev main_call5_v12 : Ref sig .tc := ⟨.hbm, 78, rfl⟩
abbrev main_call5_v13 : Ref sig .tc := ⟨.hbm, 79, rfl⟩
abbrev main_call5_v14 : Ref sig .tc := ⟨.hbm, 80, rfl⟩
abbrev main_v17 : Ref sig .tc := ⟨.hbm, 81, rfl⟩
abbrev main_c_7 : Ref sig .tc := ⟨.hbm, 82, rfl⟩
abbrev main_call6_v0 : Ref sig .tc := ⟨.hbm, 83, rfl⟩
abbrev main_call6_v1 : Ref sig .tc := ⟨.hbm, 84, rfl⟩
abbrev main_call6_v2 : Ref sig .tc := ⟨.hbm, 85, rfl⟩
abbrev main_call6_v3 : Ref sig .tc := ⟨.hbm, 86, rfl⟩
abbrev main_call6_v4 : Ref sig .tc := ⟨.hbm, 87, rfl⟩
abbrev main_call6_v5 : Ref sig .tc := ⟨.hbm, 88, rfl⟩
abbrev main_call6_v6 : Ref sig .tc := ⟨.hbm, 89, rfl⟩
abbrev main_call6_v7 : Ref sig .tc := ⟨.hbm, 90, rfl⟩
abbrev main_call6_c : Ref sig .tc := ⟨.hbm, 91, rfl⟩
abbrev main_call6_v8 : Ref sig .tc := ⟨.hbm, 92, rfl⟩
abbrev main_call6_v9 : Ref sig .tc := ⟨.hbm, 93, rfl⟩
abbrev main_call6_v10 : Ref sig .tc := ⟨.hbm, 94, rfl⟩
abbrev main_call6_c_0 : Ref sig .tc := ⟨.hbm, 95, rfl⟩
abbrev main_call6_v11 : Ref sig .tc := ⟨.hbm, 96, rfl⟩
abbrev main_call6_v12 : Ref sig .tc := ⟨.hbm, 97, rfl⟩
abbrev main_v18 : Ref sig .tc := ⟨.hbm, 98, rfl⟩
abbrev main_c_8 : Ref sig .tc := ⟨.hbm, 99, rfl⟩
abbrev main_call7_v0 : Ref sig .tc := ⟨.hbm, 100, rfl⟩
abbrev main_call7_c : Ref sig .tc := ⟨.hbm, 101, rfl⟩
abbrev main_call7_v1 : Ref sig .tc := ⟨.hbm, 102, rfl⟩
abbrev main_call7_c_0 : Ref sig .tc := ⟨.hbm, 103, rfl⟩
abbrev main_call7_v2 : Ref sig .tc := ⟨.hbm, 104, rfl⟩
abbrev main_call7_v3 : Ref sig .tc := ⟨.hbm, 105, rfl⟩
abbrev main_call7_v4 : Ref sig .tc := ⟨.hbm, 106, rfl⟩
abbrev main_call7_c_1 : Ref sig .tc := ⟨.hbm, 107, rfl⟩
abbrev main_call7_v5 : Ref sig .tc := ⟨.hbm, 108, rfl⟩
abbrev main_call7_v6 : Ref sig .tc := ⟨.hbm, 109, rfl⟩
abbrev main_call7_c_2 : Ref sig .tc := ⟨.hbm, 110, rfl⟩
abbrev main_call7_v7 : Ref sig .tc := ⟨.hbm, 111, rfl⟩
abbrev main_call7_v8 : Ref sig .tc := ⟨.hbm, 112, rfl⟩
abbrev main_call7_c_3 : Ref sig .tc := ⟨.hbm, 113, rfl⟩
abbrev main_call7_v9 : Ref sig .tc := ⟨.hbm, 114, rfl⟩
abbrev main_call7_v10 : Ref sig .tc := ⟨.hbm, 115, rfl⟩
abbrev main_call7_v11 : Ref sig .tc := ⟨.hbm, 116, rfl⟩
abbrev main_call7_v12 : Ref sig .tc := ⟨.hbm, 117, rfl⟩
abbrev main_call7_v13 : Ref sig .tc := ⟨.hbm, 118, rfl⟩
abbrev main_call7_v14 : Ref sig .tc := ⟨.hbm, 119, rfl⟩
abbrev main_v19 : Ref sig .tc := ⟨.hbm, 120, rfl⟩
abbrev main_c_9 : Ref sig .tc := ⟨.hbm, 121, rfl⟩
abbrev main_v20 : Ref sig .tc := ⟨.hbm, 122, rfl⟩
abbrev main_v21 : Ref sig .tc := ⟨.hbm, 123, rfl⟩
abbrev main_c_10 : Ref sig .tc := ⟨.hbm, 124, rfl⟩
abbrev main_v22 : Ref sig .tc := ⟨.hbm, 125, rfl⟩
abbrev main_v23 : Ref sig .tc := ⟨.hbm, 126, rfl⟩
abbrev main_v24 : Ref sig .tc := ⟨.hbm, 127, rfl⟩
abbrev main_v25 : Ref sig .tc := ⟨.hbm, 128, rfl⟩
abbrev main_v26 : Ref sig .tc := ⟨.hbm, 129, rfl⟩
abbrev main_c_11 : Ref sig .tc := ⟨.hbm, 130, rfl⟩
abbrev main_v27 : Ref sig .tc := ⟨.hbm, 131, rfl⟩
abbrev main_v28 : Ref sig .tc := ⟨.hbm, 132, rfl⟩
abbrev main_c_12 : Ref sig .tc := ⟨.hbm, 133, rfl⟩
abbrev main_v29 : Ref sig .tc := ⟨.hbm, 134, rfl⟩
abbrev main_v30 : Ref sig .tc := ⟨.hbm, 135, rfl⟩
abbrev main_v31 : Ref sig .tc := ⟨.hbm, 136, rfl⟩
abbrev main_v32 : Ref sig .tc := ⟨.hbm, 137, rfl⟩
abbrev main_v33 : Ref sig .tc := ⟨.hbm, 138, rfl⟩
abbrev main_v34 : Ref sig .tc := ⟨.hbm, 139, rfl⟩
abbrev main_v35 : Ref sig .tc := ⟨.hbm, 140, rfl⟩
abbrev main_cst_13 : Ref sig .tc := ⟨.hbm, 141, rfl⟩
abbrev main_v36 : Ref sig .tc := ⟨.hbm, 142, rfl⟩
abbrev main_cst_14 : Ref sig .tc := ⟨.hbm, 143, rfl⟩
abbrev main_v37 : Ref sig .tc := ⟨.hbm, 144, rfl⟩
abbrev main_v38 : Ref sig .tc := ⟨.hbm, 145, rfl⟩
abbrev main_v39 : Ref sig .tc := ⟨.hbm, 146, rfl⟩
abbrev main_c_15 : Ref sig .tc := ⟨.hbm, 147, rfl⟩
abbrev main_v40 : Ref sig .tc := ⟨.hbm, 148, rfl⟩
abbrev main_v41 : Ref sig .tc := ⟨.hbm, 149, rfl⟩
abbrev main_c_16 : Ref sig .tc := ⟨.hbm, 150, rfl⟩
abbrev main_v42 : Ref sig .tc := ⟨.hbm, 151, rfl⟩
abbrev main_v43 : Ref sig .tc := ⟨.hbm, 152, rfl⟩
abbrev main_v44 : Ref sig .tc := ⟨.hbm, 153, rfl⟩
abbrev main_v45 : Ref sig .tc := ⟨.hbm, 154, rfl⟩
abbrev main_v46 : Ref sig .tc := ⟨.hbm, 155, rfl⟩
abbrev main_c_17 : Ref sig .tc := ⟨.hbm, 156, rfl⟩
abbrev main_v47 : Ref sig .tc := ⟨.hbm, 157, rfl⟩
abbrev main_v48 : Ref sig .tc := ⟨.hbm, 158, rfl⟩
abbrev main_c_18 : Ref sig .tc := ⟨.hbm, 159, rfl⟩
abbrev main_v49 : Ref sig .tc := ⟨.hbm, 160, rfl⟩
abbrev main_v50 : Ref sig .tc := ⟨.hbm, 161, rfl⟩
abbrev main_v51 : Ref sig .tc := ⟨.hbm, 162, rfl⟩
abbrev main_v52 : Ref sig .tc := ⟨.hbm, 163, rfl⟩
abbrev main_v53 : Ref sig .tc := ⟨.hbm, 164, rfl⟩
abbrev main_v54 : Ref sig .tc := ⟨.hbm, 165, rfl⟩
abbrev main_v55 : Ref sig .tc := ⟨.hbm, 166, rfl⟩
abbrev main_v56 : Ref sig .tc := ⟨.hbm, 167, rfl⟩
abbrev main_v57 : Ref sig .tc := ⟨.hbm, 168, rfl⟩
abbrev main_cst_19 : Ref sig .tc := ⟨.hbm, 169, rfl⟩
abbrev main_v58 : Ref sig .tc := ⟨.hbm, 170, rfl⟩
abbrev main_v59 : Ref sig .tc := ⟨.hbm, 171, rfl⟩
abbrev main_cst_20 : Ref sig .tc := ⟨.hbm, 172, rfl⟩
abbrev main_v60 : Ref sig .tc := ⟨.hbm, 173, rfl⟩
abbrev main_v61 : Ref sig .tc := ⟨.hbm, 174, rfl⟩
abbrev main_v62 : Ref sig .tc := ⟨.hbm, 175, rfl⟩
abbrev main_v63 : Ref sig .tc := ⟨.hbm, 176, rfl⟩
abbrev main_v64 : Ref sig .tc := ⟨.hbm, 177, rfl⟩
abbrev main_cst_21 : Ref sig .tc := ⟨.hbm, 178, rfl⟩
abbrev main_v65 : Ref sig .tc := ⟨.hbm, 179, rfl⟩
abbrev main_v66 : Ref sig .tc := ⟨.hbm, 180, rfl⟩
abbrev main_v67 : Ref sig .tc := ⟨.hbm, 181, rfl⟩
abbrev main_v68 : Ref sig .tc := ⟨.hbm, 182, rfl⟩
abbrev main_v69 : Ref sig .tc := ⟨.hbm, 183, rfl⟩
abbrev main_cst_22 : Ref sig .tc := ⟨.hbm, 184, rfl⟩
abbrev main_call8_v0 : Ref sig .tc := ⟨.hbm, 185, rfl⟩
abbrev main_call8_v1 : Ref sig .tc := ⟨.hbm, 186, rfl⟩
abbrev main_v70 : Ref sig .tc := ⟨.hbm, 187, rfl⟩
abbrev main_cst_23 : Ref sig .tc := ⟨.hbm, 188, rfl⟩
abbrev main_v71 : Ref sig .tc := ⟨.hbm, 189, rfl⟩
abbrev main_v72 : Ref sig .tc := ⟨.hbm, 190, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  shapeCasts_S4096x4096_S16777216 : S4096x4096.ShapeCasts S16777216
  natLt_1_32 : 1 < 32
  bcast_S_S_ : S_.BroadcastsInDim S_ (![] : Fin 0 → Fin S_.rank)
  reduceWindows_S16777216_S16777216_w16777216s1p16777215_0 : S16777216.ReduceWindows (![16777216] : Fin 1 → Nat) ![1] ![16777215] ![0] S16777216
  h_S_ : 0 < S_.numel
  bcast_S_S8386560 : S_.BroadcastsInDim S8386560 (![] : Fin 0 → Fin S8386560.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  reduceWindows_S8386560_S8386560_w8386560s1p8386559_0 : S8386560.ReduceWindows (![8386560] : Fin 1 → Nat) ![1] ![8386559] ![0] S8386560
  bcast_S8386560_S8386560x1_0 : S8386560.BroadcastsInDim S8386560x1 (![0] : Fin 1 → Fin S8386560x1.rank)
  reducesTo_S2x8386560x3_S2x8386560_d2 : S2x8386560x3.ReducesTo [2] S2x8386560
  bcast_S_S2x8386560 : S_.BroadcastsInDim S2x8386560 (![] : Fin 0 → Fin S2x8386560.rank)
  bcast_S_S1 : S_.BroadcastsInDim S1 (![] : Fin 0 → Fin S1.rank)
  bcast_S1_S1x1_1 : S1.BroadcastsInDim S1x1 (![1] : Fin 1 → Fin S1x1.rank)
  bcast_S1x1_S2x8386560_0_1 : S1x1.BroadcastsInDim S2x8386560 (![0, 1] : Fin 2 → Fin S2x8386560.rank)
  reducesTo_S2x8386560_S2_d1 : S2x8386560.ReducesTo [1] S2
  scatter_S8386560_S16777216x1_S16777216_n_0_0_1_wf : ScatterDims.WF S8386560 S16777216x1 S16777216 [] [0] [0] 1
  gather_S2x4096x3_S8386560x1_S2x8386560x3_02_1_n_n_1_1_213_wf : GatherDims.WF S2x4096x3 S8386560x1 S2x8386560x3 [0, 2] [1] [] [1] [] 1 ![2, 1, 3]
  gather_S2x4096_S8386560x1_S2x8386560_0_1_n_n_1_1_21_wf : GatherDims.WF S2x4096 S8386560x1 S2x8386560 [0] [1] [] [1] [] 1 ![2, 1]

variable [Facts₀]

def scatter_S8386560_S16777216x1_S16777216_n_0_0_1 : ScatterDims S8386560 S16777216x1 S16777216 where
  updateWindowDims := []
  insertedWindowDims := [0]
  scatterDimsToOperandDims := [0]
  indexVectorDim := 1
  wf := scatter_S8386560_S16777216x1_S16777216_n_0_0_1_wf
def gather_S2x4096x3_S8386560x1_S2x8386560x3_02_1_n_n_1_1_213 : GatherDims S2x4096x3 S8386560x1 S2x8386560x3 where
  offsetDims := [0, 2]
  collapsedSliceDims := [1]
  operandBatchingDims := []
  startIndicesBatchingDims := []
  startIndexMap := [1]
  indexVectorDim := 1
  sliceSizes := ![2, 1, 3]
  wf := gather_S2x4096x3_S8386560x1_S2x8386560x3_02_1_n_n_1_1_213_wf
def gather_S2x4096_S8386560x1_S2x8386560_0_1_n_n_1_1_21 : GatherDims S2x4096 S8386560x1 S2x8386560 where
  offsetDims := [0]
  collapsedSliceDims := [1]
  operandBatchingDims := []
  startIndicesBatchingDims := []
  startIndexMap := [1]
  indexVectorDim := 1
  sliceSizes := ![2, 1]
  wf := gather_S2x4096_S8386560x1_S2x8386560_0_1_n_n_1_1_21_wf

class Facts : Prop extends Facts₀ where

variable [Facts]
-- ==== Proof.KFrameBitsRuns.lean ====
import proofs.«154192_g34583076667753_cont_8to1_b_861_5_alg».proof.Proof.Gen.Kernel.Launch
import proofs.«154192_g34583076667753_cont_8to1_b_861_5_alg».proof.Proof.Gen.Kernel.Skeleton
import proofs.«154192_g34583076667753_cont_8to1_b_861_5_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region -/

/-- The contents of every TensorCore buffer of core `c` when the region is entered: the fold of the host operations
    that precede it over the launch contents. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is host operations, the region, host operations: it reduces to the region continued by the later
    operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the pipeline's arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-- No host operation before the region writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's conditional, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The output window is never idle. -/
theorem liveAt0_3 : ∀ i, cfg0.idle 3 i = false := fun _ => rfl

/-! ## The staging memrefs at a point -/

abbrev ms0_0 (t : Fin cfg0.N) : Memref sig .tc .vmem S1x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1 .f32 := win0_3.stage (cfg0.slots t 3)
abbrev hs0_3 (t : Fin cfg0.N) : (ms0_3 t).IsWhole := hstage0_3 ((cfg0.slots t 3).cast nbuf0_3)

end Cert.Kernel.KF

end
-- ==== Proof.KFrameBitsRunA.lean ====
import proofs.«154192_g34583076667753_cont_8to1_b_861_5_alg».proof.Proof.KFrameBitsRuns

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole staging memrefs, the three inputs' at contents read `x0`, `x1`, `x2`, in the case where the
    conditional is taken: it runs to a continuation that holds the inputs' as they were and the output's
    with the pieces its stores wrote (the witness, last store first). -/
noncomputable def kernelRun0_A (c : Dev nD) (i : grid0.Coords) (arg2 : Memref sig .tc .vmem S1x2 .f32) (harg2 : arg2.IsWhole) (arg3 : Memref sig .tc .vmem S1x512x8 .f32) (harg3 : arg3.IsWhole) (arg4 : Memref sig .tc .vmem S1x8x4096 .f32) (harg4 : arg4.IsWhole) (arg5 : Memref sig .tc .vmem S1x1x1 .f32) (harg5 : arg5.IsWhole) (hc0 : cond0_0 i)
    (x0 : Vec F S1x2 .f32) (x1 : Vec F S1x512x8 .f32) (x2 : Vec F S1x8x4096 .f32) :
    { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__pair_energy_kernel i arg2 harg2 arg3 harg3 arg4 harg4 arg5 harg5) K } := by
  refine ⟨?_, fun E K => ?run⟩
  case run =>
    simp only [cc0__pair_energy_kernel_eq_skeleton]; unfold cc0__pair_energy_kernel_skel
    simp only [k0_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.KF

end
-- ==== Proof.KFrameBitsRunB.lean ====
import proofs.«154192_g34583076667753_cont_8to1_b_861_5_alg».proof.Proof.KFrameBitsRunA

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole staging memrefs, the three inputs' at contents read `x0`, `x1`, `x2`, in the case where the
    conditional is not taken: it runs to a continuation that holds the inputs' as they were and the output's
    with the pieces its stores wrote (the witness, last store first). -/
noncomputable def kernelRun0_B (c : Dev nD) (i : grid0.Coords) (arg2 : Memref sig .tc .vmem S1x2 .f32) (harg2 : arg2.IsWhole) (arg3 : Memref sig .tc .vmem S1x512x8 .f32) (harg3 : arg3.IsWhole) (arg4 : Memref sig .tc .vmem S1x8x4096 .f32) (harg4 : arg4.IsWhole) (arg5 : Memref sig .tc .vmem S1x1x1 .f32) (harg5 : arg5.IsWhole) (hc0 : ¬cond0_0 i)
    (x0 : Vec F S1x2 .f32) (x1 : Vec F S1x512x8 .f32) (x2 : Vec F S1x8x4096 .f32) (xo3 : Vec F S1x1x1 .f32) :
    { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__pair_energy_kernel i arg2 harg2 arg3 harg3 arg4 harg4 arg5 harg5) K } := by
  refine ⟨?_, fun E K => ?run⟩
  case run =>
    simp only [cc0__pair_energy_kernel_eq_skeleton]; unfold cc0__pair_energy_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.KF

end
-- ==== Proof.KFrameBits.lean ====
import proofs.«154192_g34583076667753_cont_8to1_b_861_5_alg».proof.Proof.KFrameBitsRunB
import Idealize.ShloMosaic.Lib.Pipeline.Value

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window, through which its contents are stated (the choice does not matter). -/
abbrev VO0_3 : View sig .tc .vmem S1x1x1 .f32 := (Memref.whole cc0_stg3_0 : Memref sig .tc .vmem S1x1x1 .f32).view

/-- The pieces of the case where the conditional is taken cover the output block. -/
theorem cover0_A_3 (c : Dev nD) (i : grid0.Coords) (arg2 : Memref sig .tc .vmem S1x2 .f32) (harg2 : arg2.IsWhole) (arg3 : Memref sig .tc .vmem S1x512x8 .f32) (harg3 : arg3.IsWhole) (arg4 : Memref sig .tc .vmem S1x8x4096 .f32) (harg4 : arg4.IsWhole) (arg5 : Memref sig .tc .vmem S1x1x1 .f32) (harg5 : arg5.IsWhole) (hc0 : cond0_0 i)
    (x0 : Vec F S1x2 .f32) (x1 : Vec F S1x512x8 .f32) (x2 : Vec F S1x8x4096 .f32) (y : S1x1x1.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S1x1x1.size (by sl_kernel_rfl) y

/-- What that case leaves in the output's staging buffer: its pieces read back. -/
def out0_A_3 (c : Dev nD) (i : grid0.Coords) (arg2 : Memref sig .tc .vmem S1x2 .f32) (harg2 : arg2.IsWhole) (arg3 : Memref sig .tc .vmem S1x512x8 .f32) (harg3 : arg3.IsWhole) (arg4 : Memref sig .tc .vmem S1x8x4096 .f32) (harg4 : arg4.IsWhole) (arg5 : Memref sig .tc .vmem S1x1x1 .f32) (harg5 : arg5.IsWhole) (hc0 : cond0_0 i)
    (x0 : Vec F S1x2 .f32) (x1 : Vec F S1x512x8 .f32) (x2 : Vec F S1x8x4096 .f32) : Vec F S1x1x1 .f32 :=
  VO0_3.read (Elt F) (VO0_3.writes (Elt F) VO0_3.junk (kernelRun0_A c i arg2 harg2 arg3 harg3 arg4 harg4 arg5 harg5 hc0 x0 x1 x2).1)

/-- The pieces of the case where the conditional is not taken cover the output block. -/
theorem cover0_B_3 (c : Dev nD) (i : grid0.Coords) (arg2 : Memref sig .tc .vmem S1x2 .f32) (harg2 : arg2.IsWhole) (arg3 : Memref sig .tc .vmem S1x512x8 .f32) (harg3 : arg3.IsWhole) (arg4 : Memref sig .tc .vmem S1x8x4096 .f32) (harg4 : arg4.IsWhole) (arg5 : Memref sig .tc .vmem S1x1x1 .f32) (harg5 : arg5.IsWhole) (hc0 : ¬cond0_0 i)
    (x0 : Vec F S1x2 .f32) (x1 : Vec F S1x512x8 .f32) (x2 : Vec F S1x8x4096 .f32) (xo3 : Vec F S1x1x1 .f32) (y : S1x1x1.Idx) :
    ∃ pc ∈ (kernelRun0_B c i arg2 harg2 arg3 harg3 arg4 harg4 arg5 harg5 hc0 x0 x1 x2 xo3).1, y ∈ pc.1.set :=
  View.cover_of_tiledL (kernelRun0_B c i arg2 harg2 arg3 harg3 arg4 harg4 arg5 harg5 hc0 x0 x1 x2 xo3).1 S1x1x1.size (by sl_kernel_rfl) y

/-- What that case leaves in the output's staging buffer, found at `xo3`: its pieces read back. -/
def out0_B_3 (c : Dev nD) (i : grid0.Coords) (arg2 : Memref sig .tc .vmem S1x2 .f32) (harg2 : arg2.IsWhole) (arg3 : Memref sig .tc .vmem S1x512x8 .f32) (harg3 : arg3.IsWhole) (arg4 : Memref sig .tc .vmem S1x8x4096 .f32) (harg4 : arg4.IsWhole) (arg5 : Memref sig .tc .vmem S1x1x1 .f32) (harg5 : arg5.IsWhole) (hc0 : ¬cond0_0 i)
    (x0 : Vec F S1x2 .f32) (x1 : Vec F S1x512x8 .f32) (x2 : Vec F S1x8x4096 .f32) (xo3 : Vec F S1x1x1 .f32) : Vec F S1x1x1 .f32 :=
  VO0_3.read (Elt F) (VO0_3.writes (Elt F) VO0_3.junk (kernelRun0_B c i arg2 harg2 arg3 harg3 arg4 harg4 arg5 harg5 hc0 x0 x1 x2 xo3).1)

/-! ## The value the body stores, through the payloads -/

/-- What the body stores into the output block at grid coordinates `i`, through the payloads: their arguments are the
    loads of the three input blocks `x0`, `x1`, `x2` through the literal rectangles (the cells (0,1) and (0,0) of the
    parameter block; the columns 0, 1, 2, 3 of the row block; the rows 0, 1, 2, 3 of the column block) and the output
    block's contents `acc` read just before the store. -/
def pay (i : grid0.Coords) (x0 : Vec F S1x2 .f32) (x1 : Vec F S1x512x8 .f32) (x2 : Vec F S1x8x4096 .f32) (acc : Vec F S1x1x1 .f32) : Vec F S1x1x1 .f32 :=
  k0_pay2 (BitVec.ofNat 32 (i 1).val)
    (k0_pay3 (View.ld x0 (Rect.unit (s := S1x2) ![0, 1] S1x1.size inb_S1x2_S1x1_0_1)))
    (k0_pay4 (View.ld x0 (Rect.unit (s := S1x2) ![0, 0] S1x1.size inb_S1x2_S1x1_0_0))
      (View.ld x1 (Rect.unit (s := S1x512x8) ![0, 0, 0] S1x512x1.size inb_S1x512x8_S1x512x1_0_0_0))
      (View.ld x2 (Rect.unit (s := S1x8x4096) ![0, 0, 0] S1x1x4096.size inb_S1x8x4096_S1x1x4096_0_0_0))
      (View.ld x1 (Rect.unit (s := S1x512x8) ![0, 0, 1] S1x512x1.size inb_S1x512x8_S1x512x1_0_0_1))
      (View.ld x2 (Rect.unit (s := S1x8x4096) ![0, 1, 0] S1x1x4096.size inb_S1x8x4096_S1x1x4096_0_1_0))
      (View.ld x1 (Rect.unit (s := S1x512x8) ![0, 0, 2] S1x512x1.size inb_S1x512x8_S1x512x1_0_0_2))
      (View.ld x2 (Rect.unit (s := S1x8x4096) ![0, 2, 0] S1x1x4096.size inb_S1x8x4096_S1x1x4096_0_2_0)))
    (View.ld x1 (Rect.unit (s := S1x512x8) ![0, 0, 3] S1x512x1.size inb_S1x512x8_S1x512x1_0_0_3))
    (View.ld x2 (Rect.unit (s := S1x8x4096) ![0, 3, 0] S1x1x4096.size inb_S1x8x4096_S1x1x4096_0_3_0))
    acc

theorem hz3 : (![0, 0, 0] : Fin 3 → Nat) = fun _ => 0 := funext fun a => by fin_cases a <;> rfl

/-- Where the conditional is taken the body zeroes the block and adds to the zero block. -/
theorem out_A (c : Dev nD) (i : grid0.Coords) (arg2 : Memref sig .tc .vmem S1x2 .f32) (harg2 : arg2.IsWhole) (arg3 : Memref sig .tc .vmem S1x512x8 .f32) (harg3 : arg3.IsWhole) (arg4 : Memref sig .tc .vmem S1x8x4096 .f32) (harg4 : arg4.IsWhole) (arg5 : Memref sig .tc .vmem S1x1x1 .f32) (harg5 : arg5.IsWhole) (hc0 : cond0_0 i) (x0 : Vec F S1x2 .f32) (x1 : Vec F S1x512x8 .f32) (x2 : Vec F S1x8x4096 .f32) :
    out0_A_3 c i arg2 harg2 arg3 harg3 arg4 harg4 arg5 harg5 hc0 x0 x1 x2 = pay i x0 x1 x2 (k0_pay1 (F := F)) := by
  unfold out0_A_3
  rw [View.read_writes_eq_canon _ _ _ (cover0_A_3 c i arg2 harg2 arg3 harg3 arg4 harg4 arg5 harg5 hc0 x0 x1 x2)]
  unfold kernelRun0_A
  dsimp only
  sl_unfold_run_names
  rw [View.canon_cons_unit_zero (S := S1x1x1) hz3, View.readCov_unit_zero (S := S1x1x1) _ hz3]
  unfold pay
  simp only [View.readAt_eq_ld, harg2.read_unread, harg3.read_unread, harg4.read_unread]

/-- Where it is not taken the body adds to what the block held. -/
theorem out_B (c : Dev nD) (i : grid0.Coords) (arg2 : Memref sig .tc .vmem S1x2 .f32) (harg2 : arg2.IsWhole) (arg3 : Memref sig .tc .vmem S1x512x8 .f32) (harg3 : arg3.IsWhole) (arg4 : Memref sig .tc .vmem S1x8x4096 .f32) (harg4 : arg4.IsWhole) (arg5 : Memref sig .tc .vmem S1x1x1 .f32) (harg5 : arg5.IsWhole) (hc0 : ¬cond0_0 i) (x0 : Vec F S1x2 .f32) (x1 : Vec F S1x512x8 .f32) (x2 : Vec F S1x8x4096 .f32) (xo3 : Vec F S1x1x1 .f32) :
    out0_B_3 c i arg2 harg2 arg3 harg3 arg4 harg4 arg5 harg5 hc0 x0 x1 x2 xo3 = pay i x0 x1 x2 xo3 := by
  unfold out0_B_3
  rw [View.read_writes_eq_canon _ _ _ (cover0_B_3 c i arg2 harg2 arg3 harg3 arg4 harg4 arg5 harg5 hc0 x0 x1 x2 xo3)]
  unfold kernelRun0_B
  dsimp only
  sl_unfold_run_names
  rw [View.canon_unit_zero (S := S1x1x1) hz3]
  unfold pay
  simp only [View.readAt_eq_ld, harg2.read_unread, harg3.read_unread, harg4.read_unread, harg5.read_unread, View.ld_unit_zero (S := S1x1x1) hz3]

/-! ## What the output block holds after each point -/

/-- The accumulation. What the output's staging buffer holds after the body at position `n`: at a position
    ≡ 0 (mod 8) the reset case's contents, otherwise the other case's over what position `n - 1` left (the buffer is
    not written back in between). -/
def outsAt0 (c : Dev nD) : (n : ℕ) → n < cfg0.N → Vec F S1x1x1 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 8 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

theorem outsAt0_A (c : Dev nD) (t : Fin cfg0.N) (h0 : t.val % 8 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point
    `t` each input's buffer at its block and the output's at `outsAt0`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

/-- After a point ≡ 0 (mod 8) the output block holds the stored value over the zero block; -/
theorem after3_reset (c : Dev nD) (t : Fin cfg0.N) (h0 : t.val % 8 = 0) :
    (dats m 0 c).after 3 t = pay (grid0.coords t) (iblk m c 0 t) (iblk m c 1 t) (iblk m c 2 t) (k0_pay1 (F := F)) := by
  rw [after0_3, outsAt0_A m c t h0, out_A]

/-- after any other point, over what the point before left. -/
theorem after3_acc (c : Dev nD) (t : Fin cfg0.N) (h0 : ¬t.val % 8 = 0) :
    (dats m 0 c).after 3 t = pay (grid0.coords t) (iblk m c 0 t) (iblk m c 1 t) (iblk m c 2 t)
      ((dats m 0 c).after 3 ⟨t.val - 1, Nat.lt_of_le_of_lt (Nat.sub_le _ _) t.isLt⟩) := by
  rw [after0_3, outsAt0_B m c t h0, out_B, after0_3]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a point not ≡ 0 (mod 8) the output's current staging buffer holds what the body left at the point before:
    the point is not the first and the buffer was not written back in between. -/
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)) := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]

/-- The output window is uncut: what a write-back writes is all of what the body left. -/
theorem flushed3 (c : Dev nD) (t : Fin cfg0.N) : (dats m 0 c).flushed 3 t = (dats m 0 c).after 3 t := rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: the inputs' memrefs hold their blocks; the closed form says which case the point is in;
    where the conditional is not taken the output's buffer holds what the point before left; so the case's run
    applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 16 := lt_of_lt_of_eq t.isLt (show cfg0.N = 16 from N_0)
  by_cases h0 : t.val % 8 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program on the TensorCores terminates, and every final state has every array
    of the pipeline at what the library computes from the proof data and every other unscoped buffer as the operations
    after the region leave it. -/
theorem run_frame : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The run read at the result and at the arguments -/

theorem mem_rest_v21 : main_v21 ∈ Pipeline.restRefs sig spec0 := Pipeline.mem_restRefs_of main_v21 rfl (by decide)
theorem mem_rest_arg0 : main_arg0 ∈ Pipeline.restRefs sig spec0 := Pipeline.mem_restRefs_of main_arg0 rfl (by decide)
theorem mem_rest_arg1 : main_arg1 ∈ Pipeline.restRefs sig spec0 := Pipeline.mem_restRefs_of main_arg1 rfl (by decide)
theorem mem_rest_arg2 : main_arg2 ∈ Pipeline.restRefs sig spec0 := Pipeline.mem_restRefs_of main_arg2 rfl (by decide)
theorem mem_rest_arg3 : main_arg3 ∈ Pipeline.restRefs sig spec0 := Pipeline.mem_restRefs_of main_arg3 rfl (by decide)

/-- The result buffer after the operations that follow the region: they reshape the output array the region left,
    and scale it. -/
theorem tail_v21 (c : Dev nD) :
    Pipeline.afterTail₀ cfgs (dats m) 0 (V0 m) [hostOps1] c main_v21
      = mulf (broadcastInDim S2 ![] bcast_S_S2 (constant S_ .f32 0xBF000000#32))
          (shapeCast S2 ((dats m 0 c).arrAt 3 cfg0.N) shapeCasts_S2x1x1_S2) := by
  unfold Pipeline.afterTail₀
  have hA : Pipeline.withArrays (cfgs 0).spec c (V0 m c) (fun w => (dats m 0 c).arrAt w (cfgs 0).N) (Proc.devRef .tc main_v18)
      = (dats m 0 c).arrAt 3 cfg0.N := Pipeline.withArrays_arr spec0 winFacts0.arr_inj c (V0 m c) _ 3
  generalize Pipeline.withArrays (cfgs 0).spec c (V0 m c) (fun w => (dats m 0 c).arrAt w (cfgs 0).N) = W at hA
  generalize (dats m 0 c).arrAt 3 cfg0.N = X at hA
  simp only [List.flatten_cons, List.flatten_nil, List.append_nil]
  open StableHlo in after_results
  rw [hA]
  rfl

/-- An argument after the operations that follow the region: none of them, and no operation before it, writes it. -/
theorem tail_arg0 (c : Dev nD) : Pipeline.afterTail₀ cfgs (dats m) 0 (V0 m) [hostOps1] c main_arg0 = m ((c.tc : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))),
    Pipeline.withArrays_of_ne _ c (V0 m c) _ main_arg0 (by decide)]
  exact V_main_arg0 m c
theorem tail_arg1 (c : Dev nD) : Pipeline.afterTail₀ cfgs (dats m) 0 (V0 m) [hostOps1] c main_arg1 = m ((c.tc : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))),
    Pipeline.withArrays_of_ne _ c (V0 m c) _ main_arg1 (by decide)]
  exact V_main_arg1 m c
theorem tail_arg2 (c : Dev nD) : Pipeline.afterTail₀ cfgs (dats m) 0 (V0 m) [hostOps1] c main_arg2 = m ((c.tc : Thread nD τ).loc main_arg2) := by
  unfold Pipeline.afterTail₀
  rw [StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))),
    Pipeline.withArrays_of_ne _ c (V0 m c) _ main_arg2 (by decide)]
  exact V_main_arg2 m c
theorem tail_arg3 (c : Dev nD) : Pipeline.afterTail₀ cfgs (dats m) 0 (V0 m) [hostOps1] c main_arg3 = m ((c.tc : Thread nD τ).loc main_arg3) := by
  unfold Pipeline.afterTail₀
  rw [StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))),
    Pipeline.withArrays_of_ne _ c (V0 m c) _ main_arg3 (by decide)]
  exact V_main_arg3 m c

/-- THE RUN. Every weakly fair execution of the program on the TensorCores terminates; on every core the result
    buffer ends at the scaled reshape of the output array the region leaves, and the four arguments end unchanged. -/
theorem run_main : θ_run defs (onTc (τ := τ) (main (F := F))) ⟨m, fun _ => 0, ρ⟩ (fun r => ∀ c : Dev nD,
      r.2.mem ((c.tc : Thread nD τ).loc main_v21)
        = mulf (broadcastInDim S2 ![] bcast_S_S2 (constant S_ .f32 0xBF000000#32))
            (shapeCast S2 ((dats m 0 c).arrAt 3 cfg0.N) shapeCasts_S2x1x1_S2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v21 mem_rest_v21).trans (tail_v21 m c),
     ((h c).2 main_arg0 mem_rest_arg0).trans (tail_arg0 m c),
     ((h c).2 main_arg1 mem_rest_arg1).trans (tail_arg1 m c),
     ((h c).2 main_arg2 mem_rest_arg2).trans (tail_arg2 m c),
     ((h c).2 main_arg3 mem_rest_arg3).trans (tail_arg3 m c)⟩) (run_frame m ρ)

/-- THE FRAME: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.KF

end
-- ==== Proof.KFrameIdealRuns.lean ====
import proofs.«154192_g34583076667753_cont_8to1_b_861_5_alg».proof.Proof.Gen.KernelIdeal.Launch
import proofs.«154192_g34583076667753_cont_8to1_b_861_5_alg».proof.Proof.Gen.KernelIdeal.Skeleton
import proofs.«154192_g34583076667753_cont_8to1_b_861_5_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region -/

/-- The contents of every TensorCore buffer of core `c` when the region is entered: the fold of the host operations
    that precede it over the launch contents. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is host operations, the region, host operations: it reduces to the region continued by the later
    operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the pipeline's arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-- No host operation before the region writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's conditional, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The output window is never idle. -/
theorem liveAt0_3 : ∀ i, cfg0.idle 3 i = false := fun _ => rfl

/-! ## The staging memrefs at a point -/

abbrev ms0_0 (t : Fin cfg0.N) : Memref sig .tc .vmem S1x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1 .f32 := win0_3.stage (cfg0.slots t 3)
abbrev hs0_3 (t : Fin cfg0.N) : (ms0_3 t).IsWhole := hstage0_3 ((cfg0.slots t 3).cast nbuf0_3)

end Cert.KernelIdeal.KF

end
-- ==== Proof.KFrameIdealRunA.lean ====
import proofs.«154192_g34583076667753_cont_8to1_b_861_5_alg».proof.Proof.KFrameIdealRuns

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole staging memrefs, the three inputs' at contents read `x0`, `x1`, `x2`, in the case where the
    conditional is taken: it runs to a continuation that holds the inputs' as they were and the output's
    with the pieces its stores wrote (the witness, last store first). -/
noncomputable def kernelRun0_A (c : Dev nD) (i : grid0.Coords) (arg2 : Memref sig .tc .vmem S1x2 .f32) (harg2 : arg2.IsWhole) (arg3 : Memref sig .tc .vmem S1x512x8 .f32) (harg3 : arg3.IsWhole) (arg4 : Memref sig .tc .vmem S1x8x4096 .f32) (harg4 : arg4.IsWhole) (arg5 : Memref sig .tc .vmem S1x1x1 .f32) (harg5 : arg5.IsWhole) (hc0 : cond0_0 i)
    (x0 : Vec F S1x2 .f32) (x1 : Vec F S1x512x8 .f32) (x2 : Vec F S1x8x4096 .f32) :
    { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__pair_energy_kernel i arg2 harg2 arg3 harg3 arg4 harg4 arg5 harg5) K } := by
  refine ⟨?_, fun E K => ?run⟩
  case run =>
    simp only [cc0__pair_energy_kernel_eq_skeleton]; unfold cc0__pair_energy_kernel_skel
    simp only [k0_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.KF

end
-- ==== Proof.KFrameIdealRunB.lean ====
import proofs.«154192_g34583076667753_cont_8to1_b_861_5_alg».proof.Proof.KFrameIdealRunA

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole staging memrefs, the three inputs' at contents read `x0`, `x1`, `x2`, in the case where the
    conditional is not taken: it runs to a continuation that holds the inputs' as they were and the output's
    with the pieces its stores wrote (the witness, last store first). -/
noncomputable def kernelRun0_B (c : Dev nD) (i : grid0.Coords) (arg2 : Memref sig .tc .vmem S1x2 .f32) (harg2 : arg2.IsWhole) (arg3 : Memref sig .tc .vmem S1x512x8 .f32) (harg3 : arg3.IsWhole) (arg4 : Memref sig .tc .vmem S1x8x4096 .f32) (harg4 : arg4.IsWhole) (arg5 : Memref sig .tc .vmem S1x1x1 .f32) (harg5 : arg5.IsWhole) (hc0 : ¬cond0_0 i)
    (x0 : Vec F S1x2 .f32) (x1 : Vec F S1x512x8 .f32) (x2 : Vec F S1x8x4096 .f32) (xo3 : Vec F S1x1x1 .f32) :
    { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__pair_energy_kernel i arg2 harg2 arg3 harg3 arg4 harg4 arg5 harg5) K } := by
  refine ⟨?_, fun E K => ?run⟩
  case run =>
    simp only [cc0__pair_energy_kernel_eq_skeleton]; unfold cc0__pair_energy_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.KF

end
-- ==== Proof.KFrameIdeal.lean ====
import proofs.«154192_g34583076667753_cont_8to1_b_861_5_alg».proof.Proof.KFrameIdealRunB
import Idealize.ShloMosaic.Lib.Pipeline.Value

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window, through which its contents are stated (the choice does not matter). -/
abbrev VO0_3 : View sig .tc .vmem S1x1x1 .f32 := (Memref.whole cc0_stg3_0 : Memref sig .tc .vmem S1x1x1 .f32).view

/-- The pieces of the case where the conditional is taken cover the output block. -/
theorem cover0_A_3 (c : Dev nD) (i : grid0.Coords) (arg2 : Memref sig .tc .vmem S1x2 .f32) (harg2 : arg2.IsWhole) (arg3 : Memref sig .tc .vmem S1x512x8 .f32) (harg3 : arg3.IsWhole) (arg4 : Memref sig .tc .vmem S1x8x4096 .f32) (harg4 : arg4.IsWhole) (arg5 : Memref sig .tc .vmem S1x1x1 .f32) (harg5 : arg5.IsWhole) (hc0 : cond0_0 i)
    (x0 : Vec F S1x2 .f32) (x1 : Vec F S1x512x8 .f32) (x2 : Vec F S1x8x4096 .f32) (y : S1x1x1.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S1x1x1.size (by sl_kernel_rfl) y

/-- What that case leaves in the output's staging buffer: its pieces read back. -/
def out0_A_3 (c : Dev nD) (i : grid0.Coords) (arg2 : Memref sig .tc .vmem S1x2 .f32) (harg2 : arg2.IsWhole) (arg3 : Memref sig .tc .vmem S1x512x8 .f32) (harg3 : arg3.IsWhole) (arg4 : Memref sig .tc .vmem S1x8x4096 .f32) (harg4 : arg4.IsWhole) (arg5 : Memref sig .tc .vmem S1x1x1 .f32) (harg5 : arg5.IsWhole) (hc0 : cond0_0 i)
    (x0 : Vec F S1x2 .f32) (x1 : Vec F S1x512x8 .f32) (x2 : Vec F S1x8x4096 .f32) : Vec F S1x1x1 .f32 :=
  VO0_3.read (Elt F) (VO0_3.writes (Elt F) VO0_3.junk (kernelRun0_A c i arg2 harg2 arg3 harg3 arg4 harg4 arg5 harg5 hc0 x0 x1 x2).1)

/-- The pieces of the case where the conditional is not taken cover the output block. -/
theorem cover0_B_3 (c : Dev nD) (i : grid0.Coords) (arg2 : Memref sig .tc .vmem S1x2 .f32) (harg2 : arg2.IsWhole) (arg3 : Memref sig .tc .vmem S1x512x8 .f32) (harg3 : arg3.IsWhole) (arg4 : Memref sig .tc .vmem S1x8x4096 .f32) (harg4 : arg4.IsWhole) (arg5 : Memref sig .tc .vmem S1x1x1 .f32) (harg5 : arg5.IsWhole) (hc0 : ¬cond0_0 i)
    (x0 : Vec F S1x2 .f32) (x1 : Vec F S1x512x8 .f32) (x2 : Vec F S1x8x4096 .f32) (xo3 : Vec F S1x1x1 .f32) (y : S1x1x1.Idx) :
    ∃ pc ∈ (kernelRun0_B c i arg2 harg2 arg3 harg3 arg4 harg4 arg5 harg5 hc0 x0 x1 x2 xo3).1, y ∈ pc.1.set :=
  View.cover_of_tiledL (kernelRun0_B c i arg2 harg2 arg3 harg3 arg4 harg4 arg5 harg5 hc0 x0 x1 x2 xo3).1 S1x1x1.size (by sl_kernel_rfl) y

/-- What that case leaves in the output's staging buffer, found at `xo3`: its pieces read back. -/
def out0_B_3 (c : Dev nD) (i : grid0.Coords) (arg2 : Memref sig .tc .vmem S1x2 .f32) (harg2 : arg2.IsWhole) (arg3 : Memref sig .tc .vmem S1x512x8 .f32) (harg3 : arg3.IsWhole) (arg4 : Memref sig .tc .vmem S1x8x4096 .f32) (harg4 : arg4.IsWhole) (arg5 : Memref sig .tc .vmem S1x1x1 .f32) (harg5 : arg5.IsWhole) (hc0 : ¬cond0_0 i)
    (x0 : Vec F S1x2 .f32) (x1 : Vec F S1x512x8 .f32) (x2 : Vec F S1x8x4096 .f32) (xo3 : Vec F S1x1x1 .f32) : Vec F S1x1x1 .f32 :=
  VO0_3.read (Elt F) (VO0_3.writes (Elt F) VO0_3.junk (kernelRun0_B c i arg2 harg2 arg3 harg3 arg4 harg4 arg5 harg5 hc0 x0 x1 x2 xo3).1)

/-! ## The value the body stores, through the payloads -/

/-- What the body stores into the output block at grid coordinates `i`, through the payloads: their arguments are the
    loads of the three input blocks `x0`, `x1`, `x2` through the literal rectangles (the cells (0,1) and (0,0) of the
    parameter block; the columns 0, 1, 2, 3 of the row block; the rows 0, 1, 2, 3 of the column block) and the output
    block's contents `acc` read just before the store. -/
def pay (i : grid0.Coords) (x0 : Vec F S1x2 .f32) (x1 : Vec F S1x512x8 .f32) (x2 : Vec F S1x8x4096 .f32) (acc : Vec F S1x1x1 .f32) : Vec F S1x1x1 .f32 :=
  k0_pay2 (BitVec.ofNat 32 (i 1).val)
    (k0_pay3 (View.ld x0 (Rect.unit (s := S1x2) ![0, 1] S1x1.size inb_S1x2_S1x1_0_1)))
    (k0_pay4 (View.ld x0 (Rect.unit (s := S1x2) ![0, 0] S1x1.size inb_S1x2_S1x1_0_0))
      (View.ld x1 (Rect.unit (s := S1x512x8) ![0, 0, 0] S1x512x1.size inb_S1x512x8_S1x512x1_0_0_0))
      (View.ld x2 (Rect.unit (s := S1x8x4096) ![0, 0, 0] S1x1x4096.size inb_S1x8x4096_S1x1x4096_0_0_0))
      (View.ld x1 (Rect.unit (s := S1x512x8) ![0, 0, 1] S1x512x1.size inb_S1x512x8_S1x512x1_0_0_1))
      (View.ld x2 (Rect.unit (s := S1x8x4096) ![0, 1, 0] S1x1x4096.size inb_S1x8x4096_S1x1x4096_0_1_0))
      (View.ld x1 (Rect.unit (s := S1x512x8) ![0, 0, 2] S1x512x1.size inb_S1x512x8_S1x512x1_0_0_2))
      (View.ld x2 (Rect.unit (s := S1x8x4096) ![0, 2, 0] S1x1x4096.size inb_S1x8x4096_S1x1x4096_0_2_0)))
    (View.ld x1 (Rect.unit (s := S1x512x8) ![0, 0, 3] S1x512x1.size inb_S1x512x8_S1x512x1_0_0_3))
    (View.ld x2 (Rect.unit (s := S1x8x4096) ![0, 3, 0] S1x1x4096.size inb_S1x8x4096_S1x1x4096_0_3_0))
    acc

theorem hz3 : (![0, 0, 0] : Fin 3 → Nat) = fun _ => 0 := funext fun a => by fin_cases a <;> rfl

/-- Where the conditional is taken the body zeroes the block and adds to the zero block. -/
theorem out_A (c : Dev nD) (i : grid0.Coords) (arg2 : Memref sig .tc .vmem S1x2 .f32) (harg2 : arg2.IsWhole) (arg3 : Memref sig .tc .vmem S1x512x8 .f32) (harg3 : arg3.IsWhole) (arg4 : Memref sig .tc .vmem S1x8x4096 .f32) (harg4 : arg4.IsWhole) (arg5 : Memref sig .tc .vmem S1x1x1 .f32) (harg5 : arg5.IsWhole) (hc0 : cond0_0 i) (x0 : Vec F S1x2 .f32) (x1 : Vec F S1x512x8 .f32) (x2 : Vec F S1x8x4096 .f32) :
    out0_A_3 c i arg2 harg2 arg3 harg3 arg4 harg4 arg5 harg5 hc0 x0 x1 x2 = pay i x0 x1 x2 (k0_pay1 (F := F)) := by
  unfold out0_A_3
  rw [View.read_writes_eq_canon _ _ _ (cover0_A_3 c i arg2 harg2 arg3 harg3 arg4 harg4 arg5 harg5 hc0 x0 x1 x2)]
  unfold kernelRun0_A
  dsimp only
  sl_unfold_run_names
  rw [View.canon_cons_unit_zero (S := S1x1x1) hz3, View.readCov_unit_zero (S := S1x1x1) _ hz3]
  unfold pay
  simp only [View.readAt_eq_ld, harg2.read_unread, harg3.read_unread, harg4.read_unread]

/-- Where it is not taken the body adds to what the block held. -/
theorem out_B (c : Dev nD) (i : grid0.Coords) (arg2 : Memref sig .tc .vmem S1x2 .f32) (harg2 : arg2.IsWhole) (arg3 : Memref sig .tc .vmem S1x512x8 .f32) (harg3 : arg3.IsWhole) (arg4 : Memref sig .tc .vmem S1x8x4096 .f32) (harg4 : arg4.IsWhole) (arg5 : Memref sig .tc .vmem S1x1x1 .f32) (harg5 : arg5.IsWhole) (hc0 : ¬cond0_0 i) (x0 : Vec F S1x2 .f32) (x1 : Vec F S1x512x8 .f32) (x2 : Vec F S1x8x4096 .f32) (xo3 : Vec F S1x1x1 .f32) :
    out0_B_3 c i arg2 harg2 arg3 harg3 arg4 harg4 arg5 harg5 hc0 x0 x1 x2 xo3 = pay i x0 x1 x2 xo3 := by
  unfold out0_B_3
  rw [View.read_writes_eq_canon _ _ _ (cover0_B_3 c i arg2 harg2 arg3 harg3 arg4 harg4 arg5 harg5 hc0 x0 x1 x2 xo3)]
  unfold kernelRun0_B
  dsimp only
  sl_unfold_run_names
  rw [View.canon_unit_zero (S := S1x1x1) hz3]
  unfold pay
  simp only [View.readAt_eq_ld, harg2.read_unread, harg3.read_unread, harg4.read_unread, harg5.read_unread, View.ld_unit_zero (S := S1x1x1) hz3]

/-! ## What the output block holds after each point -/

/-- The accumulation. What the output's staging buffer holds after the body at position `n`: at a position
    ≡ 0 (mod 8) the reset case's contents, otherwise the other case's over what position `n - 1` left (the buffer is
    not written back in between). -/
def outsAt0 (c : Dev nD) : (n : ℕ) → n < cfg0.N → Vec F S1x1x1 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 8 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

theorem outsAt0_A (c : Dev nD) (t : Fin cfg0.N) (h0 : t.val % 8 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point
    `t` each input's buffer at its block and the output's at `outsAt0`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

/-- After a point ≡ 0 (mod 8) the output block holds the stored value over the zero block; -/
theorem after3_reset (c : Dev nD) (t : Fin cfg0.N) (h0 : t.val % 8 = 0) :
    (dats m 0 c).after 3 t = pay (grid0.coords t) (iblk m c 0 t) (iblk m c 1 t) (iblk m c 2 t) (k0_pay1 (F := F)) := by
  rw [after0_3, outsAt0_A m c t h0, out_A]

/-- after any other point, over what the point before left. -/
theorem after3_acc (c : Dev nD) (t : Fin cfg0.N) (h0 : ¬t.val % 8 = 0) :
    (dats m 0 c).after 3 t = pay (grid0.coords t) (iblk m c 0 t) (iblk m c 1 t) (iblk m c 2 t)
      ((dats m 0 c).after 3 ⟨t.val - 1, Nat.lt_of_le_of_lt (Nat.sub_le _ _) t.isLt⟩) := by
  rw [after0_3, outsAt0_B m c t h0, out_B, after0_3]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a point not ≡ 0 (mod 8) the output's current staging buffer holds what the body left at the point before:
    the point is not the first and the buffer was not written back in between. -/
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)) := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]

/-- The output window is uncut: what a write-back writes is all of what the body left. -/
theorem flushed3 (c : Dev nD) (t : Fin cfg0.N) : (dats m 0 c).flushed 3 t = (dats m 0 c).after 3 t := rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: the inputs' memrefs hold their blocks; the closed form says which case the point is in;
    where the conditional is not taken the output's buffer holds what the point before left; so the case's run
    applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 16 := lt_of_lt_of_eq t.isLt (show cfg0.N = 16 from N_0)
  by_cases h0 : t.val % 8 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program on the TensorCores terminates, and every final state has every array
    of the pipeline at what the library computes from the proof data and every other unscoped buffer as the operations
    after the region leave it. -/
theorem run_frame : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The run read at the result and at the arguments -/

theorem mem_rest_v21 : main_v21 ∈ Pipeline.restRefs sig spec0 := Pipeline.mem_restRefs_of main_v21 rfl (by decide)
theorem mem_rest_arg0 : main_arg0 ∈ Pipeline.restRefs sig spec0 := Pipeline.mem_restRefs_of main_arg0 rfl (by decide)
theorem mem_rest_arg1 : main_arg1 ∈ Pipeline.restRefs sig spec0 := Pipeline.mem_restRefs_of main_arg1 rfl (by decide)
theorem mem_rest_arg2 : main_arg2 ∈ Pipeline.restRefs sig spec0 := Pipeline.mem_restRefs_of main_arg2 rfl (by decide)
theorem mem_rest_arg3 : main_arg3 ∈ Pipeline.restRefs sig spec0 := Pipeline.mem_restRefs_of main_arg3 rfl (by decide)

/-- The result buffer after the operations that follow the region: they reshape the output array the region left,
    and scale it. -/
theorem tail_v21 (c : Dev nD) :
    Pipeline.afterTail₀ cfgs (dats m) 0 (V0 m) [hostOps1] c main_v21
      = mulf (broadcastInDim S2 ![] bcast_S_S2 (constant S_ .f32 0xBF000000#32))
          (shapeCast S2 ((dats m 0 c).arrAt 3 cfg0.N) shapeCasts_S2x1x1_S2) := by
  unfold Pipeline.afterTail₀
  have hA : Pipeline.withArrays (cfgs 0).spec c (V0 m c) (fun w => (dats m 0 c).arrAt w (cfgs 0).N) (Proc.devRef .tc main_v18)
      = (dats m 0 c).arrAt 3 cfg0.N := Pipeline.withArrays_arr spec0 winFacts0.arr_inj c (V0 m c) _ 3
  generalize Pipeline.withArrays (cfgs 0).spec c (V0 m c) (fun w => (dats m 0 c).arrAt w (cfgs 0).N) = W at hA
  generalize (dats m 0 c).arrAt 3 cfg0.N = X at hA
  simp only [List.flatten_cons, List.flatten_nil, List.append_nil]
  open StableHlo in after_results
  rw [hA]
  rfl

/-- An argument after the operations that follow the region: none of them, and no operation before it, writes it. -/
theorem tail_arg0 (c : Dev nD) : Pipeline.afterTail₀ cfgs (dats m) 0 (V0 m) [hostOps1] c main_arg0 = m ((c.tc : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))),
    Pipeline.withArrays_of_ne _ c (V0 m c) _ main_arg0 (by decide)]
  exact V_main_arg0 m c
theorem tail_arg1 (c : Dev nD) : Pipeline.afterTail₀ cfgs (dats m) 0 (V0 m) [hostOps1] c main_arg1 = m ((c.tc : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))),
    Pipeline.withArrays_of_ne _ c (V0 m c) _ main_arg1 (by decide)]
  exact V_main_arg1 m c
theorem tail_arg2 (c : Dev nD) : Pipeline.afterTail₀ cfgs (dats m) 0 (V0 m) [hostOps1] c main_arg2 = m ((c.tc : Thread nD τ).loc main_arg2) := by
  unfold Pipeline.afterTail₀
  rw [StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))),
    Pipeline.withArrays_of_ne _ c (V0 m c) _ main_arg2 (by decide)]
  exact V_main_arg2 m c
theorem tail_arg3 (c : Dev nD) : Pipeline.afterTail₀ cfgs (dats m) 0 (V0 m) [hostOps1] c main_arg3 = m ((c.tc : Thread nD τ).loc main_arg3) := by
  unfold Pipeline.afterTail₀
  rw [StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))),
    Pipeline.withArrays_of_ne _ c (V0 m c) _ main_arg3 (by decide)]
  exact V_main_arg3 m c

/-- THE RUN. Every weakly fair execution of the program on the TensorCores terminates; on every core the result
    buffer ends at the scaled reshape of the output array the region leaves, and the four arguments end unchanged. -/
theorem run_main : θ_run defs (onTc (τ := τ) (main (F := F))) ⟨m, fun _ => 0, ρ⟩ (fun r => ∀ c : Dev nD,
      r.2.mem ((c.tc : Thread nD τ).loc main_v21)
        = mulf (broadcastInDim S2 ![] bcast_S_S2 (constant S_ .f32 0xBF000000#32))
            (shapeCast S2 ((dats m 0 c).arrAt 3 cfg0.N) shapeCasts_S2x1x1_S2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v21 mem_rest_v21).trans (tail_v21 m c),
     ((h c).2 main_arg0 mem_rest_arg0).trans (tail_arg0 m c),
     ((h c).2 main_arg1 mem_rest_arg1).trans (tail_arg1 m c),
     ((h c).2 main_arg2 mem_rest_arg2).trans (tail_arg2 m c),
     ((h c).2 main_arg3 mem_rest_arg3).trans (tail_arg3 m c)⟩) (run_frame m ρ)

/-- THE FRAME: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.KF

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.KPayload.lean ====
/-
  What the kernel body's stored values are, element by element, on the extended reals.

  A tile of 512 rows against all 4096 columns: the body reads, for each of the three coordinates and for the mask
  channel, one column slice [1,512,1] of the row block and one row slice [1,1,4096] of the column block, forms
  d2(r,c) = eps + sum over the coordinates of (row − column)², then  w(r,c) = exp (c0 − ik · log d2(r,c)) · (mask r · mask c),
  zero on the diagonal of the whole matrix (row number ib·512 + r equal to column number c), and adds the sum of
  w over the tile to the accumulator cell it loaded.
-/
import proofs.«154192_g34583076667753_cont_8to1_b_861_5_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«154192_g34583076667753_cont_8to1_b_861_5_alg».proof.Proof.LibUnitAxes

noncomputable section

namespace Cert.KernelIdeal.KPay

open Idealize.ShloMosaic Idealize.ShloMosaic.ValueIdx Cert.KernelIdeal

variable [Cert.KernelIdeal.Facts]

/-- A column slice [1,512,1] spread over the tile reads its row's entry. -/
theorem colSpread_apply (v : Vec Ideal S1x512x1 .f32) (h1 : S1x512x1.ShapeCasts S512x1) (h2 : S512x1.Broadcasts S512x4096)
    (r : Fin 512) (c : Fin 4096) :
    broadcastTo S512x4096 (shapeCast S512x1 v h1) h2 (ix2 r c)
      = v (ix3 (0 : Fin 1) r (0 : Fin 1)) := by
  rw [Cert.LibUnitAxes.broadcastTo_a1_ab_apply, shapeCast_1ab_ab_apply]

/-- A row slice [1,1,4096] spread over the tile reads its column's entry. -/
theorem rowSpread_apply (v : Vec Ideal S1x1x4096 .f32) (h1 : S1x1x4096.ShapeCasts S1x4096) (h2 : S1x4096.Broadcasts S512x4096)
    (r : Fin 512) (c : Fin 4096) :
    broadcastTo S512x4096 (shapeCast S1x4096 v h1) h2 (ix2 r c)
      = v (ix3 (0 : Fin 1) (0 : Fin 1) c) := by
  rw [broadcastTo_1b_ab_apply, shapeCast_1ab_ab_apply]

/-- A logarithm at an index is the logarithm of the element. -/
theorem log_apply {s : Shape} {φ : FTy} (a : FVec Ideal s φ) (i : s.Idx) : log a i = Ideal.log (a i) := rfl
/-- An exponential at an index is the exponential of the element. -/
theorem exp_apply {s : Shape} {φ : FTy} (a : FVec Ideal s φ) (i : s.Idx) : exp a i = Ideal.exp (a i) := rfl

/-- The one element of a [1,1] vector, however its index is spelt. -/
theorem extractAt_11 {α : Type} (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) :=
  congrArg v (funext fun a => by match a with | ⟨0, _⟩ => rfl | ⟨1, _⟩ => rfl)

/-- The softened squared distance, in the order the body adds it up. -/
def d2 (ax bx ay by' az bz : EReal) : EReal :=
  ((Ideal.ofBits .f32 0x2EDBE6FF#32 + (ax - bx) * (ax - bx)) + (ay - by') * (ay - by')) + (az - bz) * (az - bz)

/-- The first part's value at (r, c): ik · log d2. -/
theorem pay4_apply (v0 : Vec Ideal S1x1 .f32) (v5 v14 v23 : Vec Ideal S1x512x1 .f32) (v7 v16 v25 : Vec Ideal S1x1x4096 .f32)
    (r : Fin 512) (c : Fin 4096) :
    Gen.k0_pay4 (F := Ideal) v0 v5 v7 v14 v16 v23 v25 (ix2 r c)
      = v0 (ix2 (0 : Fin 1) (0 : Fin 1)) * Ideal.log (d2 (v5 (ix3 (0 : Fin 1) r (0 : Fin 1))) (v7 (ix3 (0 : Fin 1) (0 : Fin 1) c))
          (v14 (ix3 (0 : Fin 1) r (0 : Fin 1))) (v16 (ix3 (0 : Fin 1) (0 : Fin 1) c))
          (v23 (ix3 (0 : Fin 1) r (0 : Fin 1))) (v25 (ix3 (0 : Fin 1) (0 : Fin 1) c))) := by
  unfold Gen.k0_pay4 d2
  simp only [mulf_apply, addf_apply, subf_apply, broadcast_apply, log_apply, extractAt_11]
  rw [colSpread_apply v5, colSpread_apply v14, colSpread_apply v23, rowSpread_apply v7, rowSpread_apply v16, rowSpread_apply v25]
  rfl

/-- The sum of a [512,4096] tile cast to [1,512,4096], over all its indices, is the double sum over rows and columns. -/
theorem sum_tile (v : (⟨2, ![512, 4096]⟩ : Shape).Idx → EReal) (h : (⟨2, ![512, 4096]⟩ : Shape).ShapeCasts ⟨3, ![1, 512, 4096]⟩) :
    ∑ i : (⟨3, ![1, 512, 4096]⟩ : Shape).Idx, shapeCast ⟨3, ![1, 512, 4096]⟩ v h i = ∑ r : Fin 512, ∑ c : Fin 4096, v (ix2 r c) := by
  rw [← sum_idx2]
  exact Equiv.sum_comp (Shape.reshapeEquiv h) v

/-- The one element of a [1,1,1] vector, however its index is spelt. -/
theorem extractAt_111 {α : Type} (v : (⟨3, ![1, 1, 1]⟩ : Shape).Idx → α) (h : ∀ a, (![0, 0, 0] : Fin 3 → Nat) a < (⟨3, ![1, 1, 1]⟩ : Shape).size a) :
    extractAt ![0, 0, 0] v h = v (ix3 (0 : Fin 1) (0 : Fin 1) (0 : Fin 1)) :=
  congrArg v (funext fun a => by match a with | ⟨0, _⟩ => rfl | ⟨1, _⟩ => rfl | ⟨2, _⟩ => rfl)

/-- The accumulator step on any tile: the loaded cell plus the sum of the tile over its rows and columns. -/
theorem accum_apply (W : FVec Ideal S512x4096 .f32) (v62 : Vec Ideal S1x1x1 .f32)
    (h1 : S1x1x1.ShapeCasts S1x1) (h2 : S512x4096.ShapeCasts S1x512x4096) (h3 : S1x512x4096.Reduces [1, 2] S1)
    (hφ : FKind.Formats .f32) (hacc : (0x00000000#32 : BitVec 32) = FKind.add.neutral .f32 hφ)
    (h6 : S1.ShapeCasts S1x1x1) (h7 : ∀ a, (![0, 0, 0] : Fin 3 → Nat) a < S1x1x1.size a) (h8 : S1x1.ShapeCasts S1x1x1) :
    shapeCast S1x1x1 (addf (shapeCast S1x1 v62 h1)
        (broadcast S1x1 (extractAt ![0, 0, 0] (shapeCast S1x1x1 (multiReduction .add [1, 2] S1 (shapeCast S1x512x4096 W h2) 0x00000000#32 h3 hφ hacc) h6) h7))) h8
      (ix3 (0 : Fin 1) (0 : Fin 1) (0 : Fin 1))
      = v62 (ix3 (0 : Fin 1) (0 : Fin 1) (0 : Fin 1)) + ∑ r : Fin 512, ∑ c : Fin 4096, W (ix2 r c) := by
  rw [shapeCast_ab_1ab_apply, addf_apply, broadcast_apply, shapeCast_1ab_ab_apply, extractAt_111]
  congr 1
  rw [shapeCast_apply _ h6 (ix3 (0 : Fin 1) (0 : Fin 1) (0 : Fin 1)) (ix1 (0 : Fin 1)) (by
    rw [Shape.rowMajor_val_three, Shape.rowMajor_val_one]; rfl),
    Ideal.multiReduction_add_total _ _ h3 (fun b => by match b with | ⟨0, _⟩ => rfl) hφ hacc, sum_tile]

/-- The masked, diagonal-free tile the body sums: the same term the stored value contains. -/
def tileV (arg1 : BitVec 32) (v3 : EReal) (v34 : FVec Ideal S512x4096 .f32) (v38 : Vec Ideal S1x512x1 .f32)
    (v40 : Vec Ideal S1x1x4096 .f32) : FVec Ideal S512x4096 .f32 :=
  select (cmpi .eq (addi (broadcast S512x4096 (Scalar.muli arg1 512#32)) (iota .tc S512x4096 32 [0] Facts₀.iota_S512x4096_d0_w32))
      (iota .tc S512x4096 32 [1] Facts₀.iota_S512x4096_d1_w32))
    (broadcast S512x4096 (Scalar.ofBits (F := Ideal) .f32 0x00000000#32))
    (mulf (exp (subf (broadcast S512x4096 v3) v34))
      (mulf (broadcastTo S512x4096 (shapeCast S512x1 v38 Facts₀.shapeCasts_S1x512x1_S512x1) Facts₀.broadcasts_S512x1_S512x4096)
        (broadcastTo S512x4096 (shapeCast S1x4096 v40 Facts₀.shapeCasts_S1x1x4096_S1x4096) Facts₀.broadcasts_S1x4096_S512x4096)))

/-- One entry of the tile: zero where row number arg1·512 + r meets column number c, else exp (v3 − v34) · (mask r · mask c). -/
theorem tileV_apply (arg1 : BitVec 32) (v3 : EReal) (v34 : FVec Ideal S512x4096 .f32) (v38 : Vec Ideal S1x512x1 .f32)
    (v40 : Vec Ideal S1x1x4096 .f32) (r : Fin 512) (c : Fin 4096) :
    tileV arg1 v3 v34 v38 v40 (ix2 r c)
      = Scalar.select (IntOp.cmpi .eq (IntOp.addi (Scalar.muli arg1 512#32) (BitVec.ofNat 32 r.val)) (BitVec.ofNat 32 c.val))
          (Ideal.ofBits .f32 0x00000000#32)
          (Ideal.exp (v3 - v34 (ix2 r c)) * (v38 (ix3 (0 : Fin 1) r (0 : Fin 1)) * v40 (ix3 (0 : Fin 1) (0 : Fin 1) c))) := by
  unfold tileV
  simp only [select_apply, mulf_apply, subf_apply, broadcast_apply, exp_apply]
  rw [colSpread_apply v38, rowSpread_apply v40]
  show Scalar.select (IntOp.cmpi .eq (IntOp.addi (Scalar.muli arg1 512#32) (iota .tc S512x4096 32 [0] _ (ix2 r c))) (iota .tc S512x4096 32 [1] _ (ix2 r c))) _ _ = _
  rw [iota_single_apply, iota_single_apply]
  rfl

/-- The stored value at its one cell: the loaded accumulator plus the tile's sum. -/
theorem pay2_apply (arg1 : BitVec 32) (v3 : EReal) (v34 : FVec Ideal S512x4096 .f32) (v38 : Vec Ideal S1x512x1 .f32)
    (v40 : Vec Ideal S1x1x4096 .f32) (v62 : Vec Ideal S1x1x1 .f32) :
    Gen.k0_pay2 (F := Ideal) arg1 v3 v34 v38 v40 v62 (ix3 (0 : Fin 1) (0 : Fin 1) (0 : Fin 1))
      = v62 (ix3 (0 : Fin 1) (0 : Fin 1) (0 : Fin 1)) + ∑ r : Fin 512, ∑ c : Fin 4096, tileV arg1 v3 v34 v38 v40 (ix2 r c) := by
  unfold Gen.k0_pay2
  exact accum_apply (tileV arg1 v3 v34 v38 v40) v62 _ _ _ _ _ _ _ _

/-- The reset value is the zero word's value at its one cell. -/
theorem pay1_apply : Gen.k0_pay1 (F := Ideal) (ix3 (0 : Fin 1) (0 : Fin 1) (0 : Fin 1)) = Ideal.ofBits .f32 0x00000000#32 := by
  unfold Gen.k0_pay1
  exact shapeCast_ab_1ab_apply _ _ _ _ _

/-! ## The tile from the arrays the region finds -/

/-- One entry of tile ib of batch b, from the parameter pair P = [ik, c0], the row array R (x, y, z, mask, padding per
    point) and the column array C (its transpose): point i = ib·512 + r against point j. -/
def cell (P : (⟨2, ![1, 2]⟩ : Shape).Idx → EReal) (R : (⟨3, ![2, 4096, 8]⟩ : Shape).Idx → EReal)
    (C : (⟨3, ![2, 8, 4096]⟩ : Shape).Idx → EReal) (b : Fin 2) (ib : Fin 8) (r : Fin 512) (j : Fin 4096) : EReal :=
  let i : Fin 4096 := ⟨ib.val * 512 + r.val, by omega⟩
  Scalar.select (IntOp.cmpi .eq (IntOp.addi (Scalar.muli (BitVec.ofNat 32 ib.val) 512#32) (BitVec.ofNat 32 r.val)) (BitVec.ofNat 32 j.val))
    (Ideal.ofBits .f32 0x00000000#32)
    (Ideal.exp (P (ix2 (0 : Fin 1) (1 : Fin 2)) - P (ix2 (0 : Fin 1) (0 : Fin 2)) * Ideal.log
        (d2 (R (ix3 b i (0 : Fin 8))) (C (ix3 b (0 : Fin 8) j)) (R (ix3 b i (1 : Fin 8))) (C (ix3 b (1 : Fin 8) j))
          (R (ix3 b i (2 : Fin 8))) (C (ix3 b (2 : Fin 8) j))))
      * (R (ix3 b i (3 : Fin 8)) * C (ix3 b (3 : Fin 8) j)))

/-- Tile ib of batch b summed over its 512 rows and 4096 columns. -/
def tileSum (P : (⟨2, ![1, 2]⟩ : Shape).Idx → EReal) (R : (⟨3, ![2, 4096, 8]⟩ : Shape).Idx → EReal)
    (C : (⟨3, ![2, 8, 4096]⟩ : Shape).Idx → EReal) (b : Fin 2) (ib : Fin 8) : EReal :=
  ∑ r : Fin 512, ∑ j : Fin 4096, cell P R C b ib r j

/-- The accumulator of batch b after its eight tiles: from the zero word's value, each tile's sum added in turn. -/
def accum (P : (⟨2, ![1, 2]⟩ : Shape).Idx → EReal) (R : (⟨3, ![2, 4096, 8]⟩ : Shape).Idx → EReal)
    (C : (⟨3, ![2, 8, 4096]⟩ : Shape).Idx → EReal) (b : Fin 2) : EReal :=
  (List.finRange 8).foldl (fun a ib => a + tileSum P R C b ib) (Ideal.ofBits .f32 0x00000000#32)

end Cert.KernelIdeal.KPay

end
-- ==== Proof.KValueStep.lean ====
/-
  One grid point of the kernel on the extended reals: the value its body stores into the output block's one cell is
  the accumulator it read plus the sum, over the 512 rows of the point's row block and the 4096 columns of the
  batch's column block, of the masked pair term — read off the arrays the region finds.
-/
import proofs.«154192_g34583076667753_cont_8to1_b_861_5_alg».proof.Proof.KFrameIdeal
import proofs.«154192_g34583076667753_cont_8to1_b_861_5_alg».proof.Proof.KPayload

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen

/-! ## Loads through literal rectangles, at an index -/

/-- A load of a rank-two buffer through a unit-stride rectangle reads the buffer at the offset coordinates. -/
theorem ld2_apply {Val : EltTy → Type} {e : EltTy} {n0 n1 k0 k1 : Nat} (X : (⟨2, ![n0, n1]⟩ : Shape).Idx → Val e) (off : Fin 2 → Nat)
    (inb : ∀ a, off a + (![k0, k1] : Fin 2 → Nat) a ≤ (⟨2, ![n0, n1]⟩ : Shape).size a)
    (a : Fin k0) (b : Fin k1) (a' : Fin n0) (b' : Fin n1) (h0 : off 0 + a.val = a'.val) (h1 : off 1 + b.val = b'.val) :
    View.ld X (Rect.unit (s := ⟨2, ![n0, n1]⟩) off ![k0, k1] inb) (ix2 a b) = X (ix2 a' b') :=
  congrArg X (funext fun e => Fin.ext (by
    match e with
    | ⟨0, _⟩ => show off 0 + 1 * a.val = a'.val; omega
    | ⟨1, _⟩ => show off 1 + 1 * b.val = b'.val; omega))

/-- The same at rank three. -/
theorem ld3_apply {Val : EltTy → Type} {e : EltTy} {n0 n1 n2 k0 k1 k2 : Nat} (X : (⟨3, ![n0, n1, n2]⟩ : Shape).Idx → Val e) (off : Fin 3 → Nat)
    (inb : ∀ a, off a + (![k0, k1, k2] : Fin 3 → Nat) a ≤ (⟨3, ![n0, n1, n2]⟩ : Shape).size a)
    (a : Fin k0) (b : Fin k1) (d : Fin k2) (a' : Fin n0) (b' : Fin n1) (d' : Fin n2)
    (h0 : off 0 + a.val = a'.val) (h1 : off 1 + b.val = b'.val) (h2 : off 2 + d.val = d'.val) :
    View.ld X (Rect.unit (s := ⟨3, ![n0, n1, n2]⟩) off ![k0, k1, k2] inb) (ix3 a b d) = X (ix3 a' b' d') :=
  congrArg X (funext fun e => Fin.ext (by
    match e with
    | ⟨0, _⟩ => show off 0 + 1 * a.val = a'.val; omega
    | ⟨1, _⟩ => show off 1 + 1 * b.val = b'.val; omega
    | ⟨2, _⟩ => show off 2 + 1 * d.val = d'.val; omega))

/-! ## The stored value at its one cell, from the three input blocks -/

/-- One entry of the tile the body sums at a point with second grid coordinate `ib`, from the three input blocks:
    zero where row number ib·512 + r meets column number j, else exp (c0 − ik · log d2) · (mask r · mask j). -/
def bcell (ib : ℕ) (x0 : (⟨2, ![1, 2]⟩ : Shape).Idx → EReal) (x1 : (⟨3, ![1, 512, 8]⟩ : Shape).Idx → EReal)
    (x2 : (⟨3, ![1, 8, 4096]⟩ : Shape).Idx → EReal) (r : Fin 512) (j : Fin 4096) : EReal :=
  Scalar.select (IntOp.cmpi .eq (IntOp.addi (Scalar.muli (BitVec.ofNat 32 ib) 512#32) (BitVec.ofNat 32 r.val)) (BitVec.ofNat 32 j.val))
    (Ideal.ofBits .f32 0x00000000#32)
    (Ideal.exp (x0 (ix2 (0 : Fin 1) (1 : Fin 2)) - x0 (ix2 (0 : Fin 1) (0 : Fin 2)) * Ideal.log
        (KPay.d2 (x1 (ix3 (0 : Fin 1) r (0 : Fin 8))) (x2 (ix3 (0 : Fin 1) (0 : Fin 8) j)) (x1 (ix3 (0 : Fin 1) r (1 : Fin 8))) (x2 (ix3 (0 : Fin 1) (1 : Fin 8) j))
          (x1 (ix3 (0 : Fin 1) r (2 : Fin 8))) (x2 (ix3 (0 : Fin 1) (2 : Fin 8) j))))
      * (x1 (ix3 (0 : Fin 1) r (3 : Fin 8)) * x2 (ix3 (0 : Fin 1) (3 : Fin 8) j)))

/-- The stored value at its one cell: the accumulator read before the store plus the sum of the tile's entries. -/
theorem pay_apply (i : grid0.Coords) (x0 : Vec Ideal S1x2 .f32) (x1 : Vec Ideal S1x512x8 .f32) (x2 : Vec Ideal S1x8x4096 .f32)
    (acc : Vec Ideal S1x1x1 .f32) :
    KF.pay i x0 x1 x2 acc (ix3 (0 : Fin 1) (0 : Fin 1) (0 : Fin 1))
      = acc (ix3 (0 : Fin 1) (0 : Fin 1) (0 : Fin 1)) + ∑ r : Fin 512, ∑ j : Fin 4096, bcell (i 1).val x0 x1 x2 r j := by
  unfold KF.pay
  refine (KPay.pay2_apply _ _ _ _ _ _).trans ?_
  refine congrArg (acc (ix3 (0 : Fin 1) (0 : Fin 1) (0 : Fin 1)) + ·) ?_
  refine Finset.sum_congr rfl fun r _ => Finset.sum_congr rfl fun j _ => ?_
  refine (KPay.tileV_apply _ _ _ _ _ r j).trans ?_
  unfold bcell
  rw [KPay.pay4_apply]
  unfold k0_pay3
  rw [KPay.extractAt_11]
  dsimp only
  rw [ld2_apply x0 ![0, 1] inb_S1x2_S1x1_0_1 (0 : Fin 1) (0 : Fin 1) (0 : Fin 1) (1 : Fin 2) rfl rfl,
    ld2_apply x0 ![0, 0] inb_S1x2_S1x1_0_0 (0 : Fin 1) (0 : Fin 1) (0 : Fin 1) (0 : Fin 2) rfl rfl,
    ld3_apply x1 ![0, 0, 0] inb_S1x512x8_S1x512x1_0_0_0 (0 : Fin 1) r (0 : Fin 1) (0 : Fin 1) r (0 : Fin 8) rfl (Nat.zero_add _) rfl,
    ld3_apply x1 ![0, 0, 1] inb_S1x512x8_S1x512x1_0_0_1 (0 : Fin 1) r (0 : Fin 1) (0 : Fin 1) r (1 : Fin 8) rfl (Nat.zero_add _) rfl,
    ld3_apply x1 ![0, 0, 2] inb_S1x512x8_S1x512x1_0_0_2 (0 : Fin 1) r (0 : Fin 1) (0 : Fin 1) r (2 : Fin 8) rfl (Nat.zero_add _) rfl,
    ld3_apply x1 ![0, 0, 3] inb_S1x512x8_S1x512x1_0_0_3 (0 : Fin 1) r (0 : Fin 1) (0 : Fin 1) r (3 : Fin 8) rfl (Nat.zero_add _) rfl,
    ld3_apply x2 ![0, 0, 0] inb_S1x8x4096_S1x1x4096_0_0_0 (0 : Fin 1) (0 : Fin 1) j (0 : Fin 1) (0 : Fin 8) j rfl rfl (Nat.zero_add _),
    ld3_apply x2 ![0, 1, 0] inb_S1x8x4096_S1x1x4096_0_1_0 (0 : Fin 1) (0 : Fin 1) j (0 : Fin 1) (1 : Fin 8) j rfl rfl (Nat.zero_add _),
    ld3_apply x2 ![0, 2, 0] inb_S1x8x4096_S1x1x4096_0_2_0 (0 : Fin 1) (0 : Fin 1) j (0 : Fin 1) (2 : Fin 8) j rfl rfl (Nat.zero_add _),
    ld3_apply x2 ![0, 3, 0] inb_S1x8x4096_S1x1x4096_0_3_0 (0 : Fin 1) (0 : Fin 1) j (0 : Fin 1) (3 : Fin 8) j rfl rfl (Nat.zero_add _)]

/-! ## The input blocks, read off the arrays the region finds -/

variable (m : (ℓ : Loc nD τ sig) → Buf (Elt Ideal) ℓ)

/-- The parameter pair, the row array and the column array as the region finds them, on their literal shapes. -/
abbrev Pm (c : Dev nD) : (⟨2, ![1, 2]⟩ : Shape).Idx → EReal := KF.V (F := Ideal) m c main_v17
abbrev Rm (c : Dev nD) : (⟨3, ![2, 4096, 8]⟩ : Shape).Idx → EReal := KF.V (F := Ideal) m c main_v3
abbrev Cm (c : Dev nD) : (⟨3, ![2, 8, 4096]⟩ : Shape).Idx → EReal := KF.V (F := Ideal) m c main_v4

/-- The windows' block indices over the grid: point t = 8·b + ib reads the parameter block (0,0), the row block
    (b, ib, 0), the column block (b, 0, 0), and writes the output block (b, 0, 0); its second coordinate is ib. -/
theorem idx_facts : ∀ t : Fin cfg0.N,
    win0_0.index t (0 : Fin 2) = 0 ∧ win0_0.index t (1 : Fin 2) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0
    ∧ (grid0.coords t 1).val = t.val % 8 :=
  (by decide +kernel : ∀ t : Fin grid0.N, _)

/-- The parameter block is the parameter array. -/
theorem blk0_apply (c : Dev nD) (t : Fin cfg0.N) (u : Fin 2) :
    KF.iblk (F := Ideal) m c 0 t (ix2 (0 : Fin 1) u) = Pm m c (ix2 (0 : Fin 1) u) := by
  obtain ⟨e0, e1, -⟩ := idx_facts t
  show Pm m c (((cfg0.win 0).blk t).view.emb (ix2 (0 : Fin 1) u)) = _
  refine congrArg (Pm m c) (funext fun a => Fin.ext ?_)
  match a with
  | ⟨0, _⟩ => show win0_0.index t (0 : Fin 2) * 1 + 1 * 0 = 0; omega
  | ⟨1, _⟩ => show win0_0.index t (1 : Fin 2) * 2 + 1 * u.val = u.val; omega

/-- Row r of the row block at point t = 8·b + ib is row ib·512 + r of batch b of the row array. -/
theorem blk1_apply (c : Dev nD) (t : Fin cfg0.N) (b : Fin 2) (ib : Fin 8) (hb : b.val = t.val / 8) (hib : ib.val = t.val % 8)
    (r : Fin 512) (d : Fin 8) :
    KF.iblk (F := Ideal) m c 1 t (ix3 (0 : Fin 1) r d) = Rm m c (ix3 b (⟨ib.val * 512 + r.val, by omega⟩ : Fin 4096) d) := by
  obtain ⟨-, -, e0, e1, e2, -⟩ := idx_facts t
  show Rm m c (((cfg0.win 1).blk t).view.emb (ix3 (0 : Fin 1) r d)) = _
  refine congrArg (Rm m c) (funext fun a => Fin.ext ?_)
  match a with
  | ⟨0, _⟩ => show win0_1.index t (0 : Fin 3) * 1 + 1 * 0 = b.val; omega
  | ⟨1, _⟩ => show win0_1.index t (1 : Fin 3) * 512 + 1 * r.val = ib.val * 512 + r.val; omega
  | ⟨2, _⟩ => show win0_1.index t (2 : Fin 3) * 8 + 1 * d.val = d.val; omega

/-- The column block at point t = 8·b + ib is batch b of the column array. -/
theorem blk2_apply (c : Dev nD) (t : Fin cfg0.N) (b : Fin 2) (hb : b.val = t.val / 8) (d : Fin 8) (j : Fin 4096) :
    KF.iblk (F := Ideal) m c 2 t (ix3 (0 : Fin 1) d j) = Cm m c (ix3 b d j) := by
  obtain ⟨-, -, -, -, -, e0, e1, e2, -⟩ := idx_facts t
  show Cm m c (((cfg0.win 2).blk t).view.emb (ix3 (0 : Fin 1) d j)) = _
  refine congrArg (Cm m c) (funext fun a => Fin.ext ?_)
  match a with
  | ⟨0, _⟩ => show win0_2.index t (0 : Fin 3) * 1 + 1 * 0 = b.val; omega
  | ⟨1, _⟩ => show win0_2.index t (1 : Fin 3) * 8 + 1 * d.val = d.val; omega
  | ⟨2, _⟩ => show win0_2.index t (2 : Fin 3) * 4096 + 1 * j.val = j.val; omega

/-! ## One point's step -/

/-- At point t = 8·b + ib the body stores the accumulator it read plus the sum of tile ib of batch b. -/
theorem step (c : Dev nD) (t : Fin cfg0.N) (b : Fin 2) (ib : Fin 8) (hb : b.val = t.val / 8) (hib : ib.val = t.val % 8)
    (acc : Vec Ideal S1x1x1 .f32) :
    KF.pay (grid0.coords t) (KF.iblk m c 0 t) (KF.iblk m c 1 t) (KF.iblk m c 2 t) acc (ix3 (0 : Fin 1) (0 : Fin 1) (0 : Fin 1))
      = acc (ix3 (0 : Fin 1) (0 : Fin 1) (0 : Fin 1)) + KPay.tileSum (Pm m c) (Rm m c) (Cm m c) b ib := by
  refine (pay_apply (grid0.coords t) (KF.iblk m c 0 t) (KF.iblk m c 1 t) (KF.iblk m c 2 t) acc).trans ?_
  refine congrArg (acc (ix3 (0 : Fin 1) (0 : Fin 1) (0 : Fin 1)) + ·) ?_
  unfold KPay.tileSum
  refine Finset.sum_congr rfl fun r _ => Finset.sum_congr rfl fun j _ => ?_
  have hc : (grid0.coords t 1).val = ib.val := by
    obtain ⟨-, -, -, -, -, -, -, -, -, -, -, e⟩ := idx_facts t
    omega
  unfold bcell KPay.cell
  rw [hc, blk0_apply m c t 1, blk0_apply m c t 0,
    blk1_apply m c t b ib hb hib r 0, blk1_apply m c t b ib hb hib r 1, blk1_apply m c t b ib hb hib r 2, blk1_apply m c t b ib hb hib r 3,
    blk2_apply m c t b hb 0 j, blk2_apply m c t b hb 1 j, blk2_apply m c t b hb 2 j, blk2_apply m c t b hb 3 j]

end Cert.KernelIdeal.KVal

end
-- ==== Proof.KValue.lean ====
/-
  The kernel's value on the extended reals: over the eight points of a batch the output block's cell accumulates
  the eight tile sums in point order from the zero word's value, the last point's write-back puts it into the
  batch's cell of the output array, and the two write-backs cover the array.
-/
import proofs.«154192_g34583076667753_cont_8to1_b_861_5_alg».proof.Proof.KValueStep
import Idealize.ShloMosaic.Lib.Pipeline.Value

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)
/-! ## The accumulator over the eight points of a batch -/

/-- The accumulator of batch b after its first n tiles: from the zero word's value, each tile's sum added in turn. -/
def accN (P : (⟨2, ![1, 2]⟩ : Shape).Idx → EReal) (R : (⟨3, ![2, 4096, 8]⟩ : Shape).Idx → EReal)
    (C : (⟨3, ![2, 8, 4096]⟩ : Shape).Idx → EReal) (b : Fin 2) : ℕ → EReal
  | 0 => Ideal.ofBits .f32 0x00000000#32
  | n + 1 => accN P R C b n + KPay.tileSum P R C b ⟨n % 8, Nat.mod_lt _ (by decide)⟩

/-- After all eight it is the batch's accumulator. -/
theorem accum_eq (P : (⟨2, ![1, 2]⟩ : Shape).Idx → EReal) (R : (⟨3, ![2, 4096, 8]⟩ : Shape).Idx → EReal)
    (C : (⟨3, ![2, 8, 4096]⟩ : Shape).Idx → EReal) (b : Fin 2) : KPay.accum P R C b = accN P R C b 8 := rfl

theorem pt_lt (b : Fin 2) (k : ℕ) (hk : k < 8) : 8 * b.val + k < cfg0.N := by
  show 8 * b.val + k < grid0.N
  rw [N_0]; omega

/-- Point k of batch b. -/
def pt (b : Fin 2) (k : ℕ) (hk : k < 8) : Fin cfg0.N := ⟨8 * b.val + k, pt_lt b k hk⟩

/-- After point k of batch b the output block's cell holds the accumulator after k + 1 tiles: the first point
    resets it to the zero word's value before adding, every later one adds to what the point before left. -/
theorem after_val (c : Dev nD) (b : Fin 2) : ∀ (k : ℕ) (hk : k < 8),
    (KF.dats (F := Ideal) m 0 c).after 3 (pt b k hk) (ix3 (0 : Fin 1) (0 : Fin 1) (0 : Fin 1))
      = accN (Pm m c) (Rm m c) (Cm m c) b (k + 1)
  | 0, hk => by
    have h0 : (pt b 0 hk).val % 8 = 0 := by show (8 * b.val + 0) % 8 = 0; omega
    rw [KF.after3_reset m c (pt b 0 hk) h0]
    refine (step m c (pt b 0 hk) b ⟨0 % 8, Nat.mod_lt _ (by decide)⟩ (by show b.val = (8 * b.val + 0) / 8; omega)
      (by show 0 % 8 = (8 * b.val + 0) % 8; omega) (k0_pay1 (F := Ideal))).trans ?_
    rw [KPay.pay1_apply]
    rfl
  | k + 1, hk => by
    have h0 : ¬(pt b (k + 1) hk).val % 8 = 0 := by show ¬(8 * b.val + (k + 1)) % 8 = 0; omega
    rw [KF.after3_acc m c (pt b (k + 1) hk) h0]
    refine (step m c (pt b (k + 1) hk) b ⟨(k + 1) % 8, Nat.mod_lt _ (by decide)⟩ (by show b.val = (8 * b.val + (k + 1)) / 8; omega)
      (by show (k + 1) % 8 = (8 * b.val + (k + 1)) % 8; omega) _).trans ?_
    have e : (⟨(pt b (k + 1) hk).val - 1, Nat.lt_of_le_of_lt (Nat.sub_le _ _) (pt b (k + 1) hk).isLt⟩ : Fin cfg0.N) = pt b k (by omega) :=
      Fin.ext (by show 8 * b.val + (k + 1) - 1 = 8 * b.val + k; omega)
    rw [e, after_val c b k (by omega)]
    rfl

/-! ## From the blocks to the output array -/

/-- What the output array ends holding: cell (b, 0, 0) is batch b's accumulator. -/
def G (c : Dev nD) : (⟨3, ![2, 1, 1]⟩ : Shape).Idx → EReal := fun i => KPay.accum (Pm m c) (Rm m c) (Cm m c) (i 0)

theorem G_apply (c : Dev nD) (i : (⟨3, ![2, 1, 1]⟩ : Shape).Idx) : G m c i = KPay.accum (Pm m c) (Rm m c) (Cm m c) (i 0) := rfl

attribute [irreducible] G

/-- The one index of a [1,1,1] block. -/
theorem idx111 (y : (⟨3, ![1, 1, 1]⟩ : Shape).Idx) : y = ix3 (0 : Fin 1) (0 : Fin 1) (0 : Fin 1) :=
  funext fun a => Fin.ext (by
    match a with
    | ⟨0, _⟩ => have : (y 0).val < 1 := (y 0).isLt; show (y 0).val = 0; omega
    | ⟨1, _⟩ => have : (y 1).val < 1 := (y 1).isLt; show (y 1).val = 0; omega
    | ⟨2, _⟩ => have : (y 2).val < 1 := (y 2).isLt; show (y 2).val = 0; omega)

/-- What a write-back writes is its block of `G`: write-backs happen at the last point of a batch, whose block is
    the batch's cell. -/
theorem flushed_eq (c : Dev nD) (t : Fin cfg0.N) (hf : (cfg0.win 3).flush t = true) :
    (KF.dats (F := Ideal) m 0 c).flushed 3 t = ((cfg0.win 3).blk t).view.read (Elt Ideal) (G m c) := by
  have h7 : t.val % 8 = 7 := (flush0_3 t).mp hf
  have hN : t.val < 16 := lt_of_lt_of_eq t.isLt (show cfg0.N = 16 from N_0)
  obtain ⟨-, -, -, -, -, -, -, -, e0, -⟩ := idx_facts t
  have et : t = pt ⟨t.val / 8, by omega⟩ 7 (by decide) := Fin.ext (by show t.val = 8 * (t.val / 8) + 7; omega)
  have eb : (((cfg0.win 3).blk t).view.emb (ix3 (0 : Fin 1) (0 : Fin 1) (0 : Fin 1))) 0 = (⟨t.val / 8, by omega⟩ : Fin 2) :=
    Fin.ext (by show win0_3.index t (0 : Fin 3) * 1 + 1 * 0 = t.val / 8; omega)
  have key : (KF.dats (F := Ideal) m 0 c).after 3 t (ix3 (0 : Fin 1) (0 : Fin 1) (0 : Fin 1))
      = G m c (((cfg0.win 3).blk t).view.emb (ix3 (0 : Fin 1) (0 : Fin 1) (0 : Fin 1))) := by
    rw [G_apply, eb, accum_eq]
    refine Eq.trans ?_ (after_val m c ⟨t.val / 8, by omega⟩ 7 (by decide))
    exact congrArg (fun s => (KF.dats (F := Ideal) m 0 c).after 3 s (ix3 (0 : Fin 1) (0 : Fin 1) (0 : Fin 1))) et
  funext y
  obtain rfl := idx111 y
  exact ((congrFun (KF.flushed3 m c t) _).trans key).trans rfl

/-- An index of the output array is in point t's block iff each coordinate is in the block's range on its axis. -/
theorem mem_blk3 (t : Fin cfg0.N) (i : S2x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v18).slice (win0_3.rect t)).set ↔ _
  rw [View.set_slice_whole, Rect.mem_set_unit]
  exact Iff.rfl

/-- Every cell of the output array is written back: cell (b, 0, 0) at the last point of batch b. -/
theorem cover3 (i : S2x1x1.Idx) : ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 1 := (i 2).isLt
  let b : Fin 2 := ⟨(i 0).val, h0⟩
  refine ⟨pt b 7 (by decide), (flush0_3 _).mpr (by show (8 * (i 0).val + 7) % 8 = 7; omega), ?_⟩
  obtain ⟨-, -, -, -, -, -, -, -, e0, e1, e2, -⟩ := idx_facts (pt b 7 (by decide))
  have e0' : win0_3.index (pt b 7 (by decide)) (0 : Fin 3) = (i 0).val := by rw [e0]; show (8 * (i 0).val + 7) / 8 = (i 0).val; omega
  rw [mem_blk3]
  intro a
  match a with
  | ⟨0, _⟩ => show win0_3.index (pt b 7 (by decide)) (0 : Fin 3) * 1 ≤ (i 0).val ∧ (i 0).val < win0_3.index (pt b 7 (by decide)) (0 : Fin 3) * 1 + 1; omega
  | ⟨1, _⟩ => show win0_3.index (pt b 7 (by decide)) (1 : Fin 3) * 1 ≤ (i 1).val ∧ (i 1).val < win0_3.index (pt b 7 (by decide)) (1 : Fin 3) * 1 + 1; omega
  | ⟨2, _⟩ => show win0_3.index (pt b 7 (by decide)) (2 : Fin 3) * 1 ≤ (i 2).val ∧ (i 2).val < win0_3.index (pt b 7 (by decide)) (2 : Fin 3) * 1 + 1; omega

/-- The output array the region leaves is `G`. -/
theorem final3 (c : Dev nD) : (KF.dats (F := Ideal) m 0 c).arrAt 3 cfg0.N = G m c :=
  (KF.dats (F := Ideal) m 0 c).arrAt_eq_of_cover 3 (G m c) (flushed_eq m c) cover3

/-- THE VALUE: cell (b, 0, 0) of the output array the region leaves is batch b's accumulator over the arrays the
    region finds. -/
theorem out_apply (c : Dev nD) (b : Fin 2) :
    (KF.dats (F := Ideal) m 0 c).arrAt 3 cfg0.N (ValueIdx.ix3 b (0 : Fin 1) (0 : Fin 1))
      = KPay.accum (KF.V m c main_v17) (KF.V m c main_v3) (KF.V m c main_v4) b :=
  (congrFun (final3 m c) (ValueIdx.ix3 b (0 : Fin 1) (0 : Fin 1))).trans (G_apply m c (ValueIdx.ix3 b (0 : Fin 1) (0 : Fin 1)))

end Cert.KernelIdeal.KVal

end
-- ==== Proof.Analytic.lean ====
/-
  The scalar mathematics shared by the kernel and the reference, on the extended reals.

  With a = 1 + e^(-kr) (so that the logistic function of kr is 1/a, its reciprocal a, and 2 divided by it 2a), s a
  real and d a positive real:
      exp ((a * 2) * s - a * log d) = (exp s / sqrt d) ^ (2 * a),
  because the base exp s / sqrt d is positive, its logarithm is s - (1/2) log d, and a positive base to a real power
  is the exponential of the power times that logarithm.

  And the law that lets a sum over all ordered pairs off the diagonal be halved: for a symmetric real family,
  the sum over the pairs (i, j) with i ≠ j is twice the sum over the pairs with i < j.
-/
import Idealize.ShloMosaic.PureOps.Ideal

noncomputable section

namespace Cert.Softcore

open Idealize.ShloMosaic

/-! ## The float words the two programs spell -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- The softening term both programs add to a squared distance is a positive real. -/
theorem ofBits_eps : ∃ ε : ℝ, 0 < ε ∧ Ideal.ofBits .f32 0x2EDBE6FF#32 = (ε : EReal) := by
  refine ⟨14411519 * (2 : ℝ) ^ (-57 : ℤ), by positivity, ?_⟩
  simp [Ideal.ofBits, Ideal.ieee, -EReal.coe_mul]

/-! ## Quotients of reals -/

/-- The quotient of two reals by a nonzero one is the real quotient. -/
theorem div_coe_coe (x y : ℝ) (h : y ≠ 0) : Ideal.div (x : EReal) (y : EReal) = ((x / y : ℝ) : EReal) := by
  rw [Ideal.div_coe h, ← EReal.coe_mul]; congr 1; field_simp

/-- The reciprocal of the logistic function of kr is a = 1 + e^(-kr). -/
theorem inv_logistic (kr : ℝ) :
    Ideal.div ((1 : ℝ) : EReal) (Ideal.div ((1 : ℝ) : EReal) (((1 : ℝ) : EReal) + Ideal.exp (-(kr : EReal))))
      = ((1 + Real.exp (-kr) : ℝ) : EReal) := by
  have hpos : (0 : ℝ) < 1 + Real.exp (-kr) := by positivity
  rw [← EReal.coe_neg, Ideal.exp_coe, ← EReal.coe_add, div_coe_coe _ _ hpos.ne',
    div_coe_coe _ _ (by positivity)]
  congr 1; field_simp

/-- Two over the logistic function of kr is 2a. -/
theorem two_div_logistic (kr : ℝ) :
    Ideal.div ((2 : ℝ) : EReal) (Ideal.div ((1 : ℝ) : EReal) (((1 : ℝ) : EReal) + Ideal.exp (-(kr : EReal))))
      = ((2 * (1 + Real.exp (-kr)) : ℝ) : EReal) := by
  have hpos : (0 : ℝ) < 1 + Real.exp (-kr) := by positivity
  rw [← EReal.coe_neg, Ideal.exp_coe, ← EReal.coe_add, div_coe_coe _ _ hpos.ne',
    div_coe_coe _ _ (by positivity)]
  congr 1; field_simp

/-! ## The pair potential, both spellings -/

/-- exp ((a·2)·s − a·log d) is (exp s / √d) ^ (2a) for a positive real d. -/
theorem phi_eq (s a d : ℝ) (hd : 0 < d) :
    Ideal.exp (((a : EReal) * ((2 : ℝ) : EReal)) * (s : EReal) - (a : EReal) * Ideal.log (d : EReal))
      = Ideal.pow (Ideal.div (Ideal.exp (s : EReal)) (Ideal.sqrt (d : EReal))) ((2 * a : ℝ) : EReal) := by
  have hsq : 0 < Real.sqrt d := Real.sqrt_pos.2 hd
  rw [Ideal.log_coe, if_neg (not_le.2 hd), Ideal.sqrt_coe, if_neg (not_lt.2 hd.le), Ideal.exp_coe,
    div_coe_coe _ _ hsq.ne', Ideal.pow_coe_coe, ← EReal.coe_mul, ← EReal.coe_mul, ← EReal.coe_mul, ← EReal.coe_sub,
    Ideal.exp_coe]
  congr 1
  have hbase : 0 < Real.exp s / Real.sqrt d := div_pos (Real.exp_pos s) hsq
  rw [show Real.rpow (Real.exp s / Real.sqrt d) (2 * a) = (Real.exp s / Real.sqrt d) ^ (2 * a) from rfl,
    Real.rpow_def_of_pos hbase, Real.log_div (Real.exp_pos s).ne' hsq.ne', Real.log_exp, Real.log_sqrt hd.le]
  congr 1; ring

/-! ## Halving a symmetric sum -/

/-- For a symmetric family the sum over the ordered pairs off the diagonal is twice the sum over the pairs i < j. -/
theorem sum_offdiag_eq_two_mul {n : ℕ} (T : Fin n → Fin n → ℝ) (hT : ∀ i j, T i j = T j i) :
    ∑ i, ∑ j, (if i = j then 0 else T i j) = 2 * ∑ p : {p : Fin n × Fin n // p.1 < p.2}, T p.1.1 p.1.2 := by
  have hsplit : ∀ i j : Fin n, (if i = j then 0 else T i j) = (if i < j then T i j else 0) + (if j < i then T i j else 0) := by
    intro i j
    rcases lt_trichotomy i j with h | h | h
    · rw [if_neg h.ne, if_pos h, if_neg (lt_asymm h), add_zero]
    · subst h; simp
    · rw [if_neg h.ne', if_neg (lt_asymm h), if_pos h, zero_add]
  have hswap : ∑ i, ∑ j, (if j < i then T i j else 0) = ∑ i, ∑ j, (if i < j then T i j else 0) := by
    rw [Finset.sum_comm]
    refine Finset.sum_congr rfl fun i _ => Finset.sum_congr rfl fun j _ => ?_
    rw [hT j i]
  have hsub : ∑ i, ∑ j, (if i < j then T i j else 0) = ∑ p : {p : Fin n × Fin n // p.1 < p.2}, T p.1.1 p.1.2 := by
    rw [← Finset.sum_product' (f := fun i j => if i < j then T i j else 0), Finset.univ_product_univ,
      ← Finset.sum_filter]
    exact Finset.sum_subtype (Finset.univ.filter fun p : Fin n × Fin n => p.1 < p.2) (by simp) fun p => T p.1 p.2
  simp only [hsplit, Finset.sum_add_distrib]
  rw [hswap, hsub]; ring

end Cert.Softcore

end
-- ==== Proof.Bridge.lean ====
/-
  Both programs' closed forms are one real number.

  For a batch b the points are x_i ∈ ℝ³ with mask bits m_i, and with a = 1 + e^(−kr), ε the softening term,
      D(i,j) = ε + |x_i − x_j|²,    E(i,j) = exp ((a·2)·s − a·log D(i,j)),    T(i,j) = E(i,j) if m_i and m_j are set, else 0.
  T is symmetric. The kernel's accumulator is the sum of T over all ordered pairs off the diagonal, tile by tile, and
  its result is −1/2 of that; the reference's result is minus the sum of (exp s / √D)^(2a) over the listed pairs i < j
  under the same mask. Both are −∑_{i<j} T(i,j).
-/
import proofs.«154192_g34583076667753_cont_8to1_b_861_5_alg».proof.Proof.Analytic
import proofs.«154192_g34583076667753_cont_8to1_b_861_5_alg».proof.Proof.KPayload

noncomputable section

namespace Cert.Softcore

open Idealize.ShloMosaic Idealize.ShloMosaic.ValueIdx

/-! ## Finite sums of reals inside the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem foldl_add_coe {ι : Type} (f : ι → ℝ) : ∀ (l : List ι) (z : ℝ),
    l.foldl (fun a i => a + ((f i : ℝ) : EReal)) (z : EReal) = ((z + (l.map f).sum : ℝ) : EReal)
  | [], z => by simp
  | i :: l, z => by
    rw [List.foldl_cons, ← EReal.coe_add, foldl_add_coe f l, List.map_cons, List.sum_cons]
    congr 1; ring

/-! ## The real quantities -/

/-- The softened squared distance of two points of ℝ³, in the order the kernel adds it up. -/
def D (ε : ℝ) (p q : Fin 3 → ℝ) : ℝ := ((ε + (p 0 - q 0) * (p 0 - q 0)) + (p 1 - q 1) * (p 1 - q 1)) + (p 2 - q 2) * (p 2 - q 2)

theorem D_pos {ε : ℝ} (hε : 0 < ε) (p q : Fin 3 → ℝ) : 0 < D ε p q := by
  unfold D; nlinarith [mul_self_nonneg (p 0 - q 0), mul_self_nonneg (p 1 - q 1), mul_self_nonneg (p 2 - q 2)]

theorem D_symm (ε : ℝ) (p q : Fin 3 → ℝ) : D ε p q = D ε q p := by unfold D; ring

/-- The pair potential. -/
def E (a s ε : ℝ) (p q : Fin 3 → ℝ) : ℝ := Real.exp ((a * 2) * s - a * Real.log (D ε p q))

/-- The masked pair potential of points i and j of one batch. -/
def T (a s ε : ℝ) (x : Fin 4096 → Fin 3 → ℝ) (m : Fin 4096 → BitVec 1) (i j : Fin 4096) : ℝ :=
  if m i = 1#1 ∧ m j = 1#1 then E a s ε (x i) (x j) else 0

theorem T_symm (a s ε : ℝ) (x : Fin 4096 → Fin 3 → ℝ) (m : Fin 4096 → BitVec 1) (i j : Fin 4096) :
    T a s ε x m i j = T a s ε x m j i := by
  unfold T E; rw [D_symm]; exact if_congr and_comm rfl rfl

/-- The common value: minus the sum of the masked potential over the pairs i < j. -/
def energy (a s ε : ℝ) (x : Fin 4096 → Fin 3 → ℝ) (m : Fin 4096 → BitVec 1) : ℝ :=
  -∑ p : {p : Fin 4096 × Fin 4096 // p.1 < p.2}, T a s ε x m p.1.1 p.1.2

/-- A mask bit as the real 0 or 1. -/
def bit01 (w : BitVec 1) : ℝ := if w = 1#1 then 1 else 0

/-! ## The kernel's tile entry -/

/-- The diagonal test on 32-bit words is the test on the numbers: row ib·512 + r against column j. -/
theorem diag_word (ib : Fin 8) (r : Fin 512) (j : Fin 4096) :
    IntOp.cmpi .eq (IntOp.addi (Scalar.muli (BitVec.ofNat 32 ib.val) 512#32) (BitVec.ofNat 32 r.val)) (BitVec.ofNat 32 j.val)
      = if ib.val * 512 + r.val = j.val then 1#1 else 0#1 := by
  have h1 := ib.isLt; have h2 := r.isLt; have h3 := j.isLt
  have h : IntOp.addi (Scalar.muli (BitVec.ofNat 32 ib.val) 512#32) (BitVec.ofNat 32 r.val) = BitVec.ofNat 32 (ib.val * 512 + r.val) := by
    show BitVec.ofNat 32 ib.val * 512#32 + BitVec.ofNat 32 r.val = _
    rw [show (512#32 : BitVec 32) = BitVec.ofNat 32 512 from rfl, ← BitVec.ofNat_mul, ← BitVec.ofNat_add]
  rw [h]
  show BitVec.ofBool (BitVec.ofNat 32 _ == BitVec.ofNat 32 _) = _
  by_cases hij : ib.val * 512 + r.val = j.val
  · rw [if_pos hij, hij]; simp
  · rw [if_neg hij]
    have hne : (BitVec.ofNat 32 (ib.val * 512 + r.val) == BitVec.ofNat 32 j.val) = false := by
      rw [beq_eq_false_iff_ne]; intro h'
      have e := congrArg BitVec.toNat h'
      rw [BitVec.toNat_ofNat, BitVec.toNat_ofNat, Nat.mod_eq_of_lt (by norm_num; omega), Nat.mod_eq_of_lt (by norm_num; omega)] at e
      exact hij e
    rw [hne]; rfl

/-- The kernel's exponent on reals. -/
theorem kexp_coe (a s d : ℝ) (hd : 0 < d) :
    Ideal.exp (((a : EReal) * ((2 : ℝ) : EReal)) * (s : EReal) - (a : EReal) * Ideal.log (d : EReal))
      = ((Real.exp ((a * 2) * s - a * Real.log d) : ℝ) : EReal) := by
  rw [Ideal.log_coe, if_neg (not_le.2 hd), ← EReal.coe_mul, ← EReal.coe_mul, ← EReal.coe_mul, ← EReal.coe_sub, Ideal.exp_coe]

/-- The kernel's squared distance on reals. -/
theorem d2_coe (ε : ℝ) (hεw : Ideal.ofBits .f32 0x2EDBE6FF#32 = (ε : EReal)) (p q : Fin 3 → ℝ) :
    Cert.KernelIdeal.KPay.d2 (p 0 : EReal) (q 0 : EReal) (p 1 : EReal) (q 1 : EReal) (p 2 : EReal) (q 2 : EReal) = ((D ε p q : ℝ) : EReal) := by
  unfold Cert.KernelIdeal.KPay.d2 D
  rw [hεw]
  simp only [← EReal.coe_sub, ← EReal.coe_mul, ← EReal.coe_add]

/-- One tile entry of the kernel is the masked potential, zero on the diagonal. -/
theorem cell_eq (a s ε : ℝ) (hε : 0 < ε) (hεw : Ideal.ofBits .f32 0x2EDBE6FF#32 = (ε : EReal))
    (x : Fin 4096 → Fin 3 → ℝ) (m : Fin 4096 → BitVec 1)
    (P : (⟨2, ![1, 2]⟩ : Shape).Idx → EReal) (R : (⟨3, ![2, 4096, 8]⟩ : Shape).Idx → EReal)
    (C : (⟨3, ![2, 8, 4096]⟩ : Shape).Idx → EReal) (b : Fin 2)
    (hP0 : P (ix2 (0 : Fin 1) (0 : Fin 2)) = (a : EReal))
    (hP1 : P (ix2 (0 : Fin 1) (1 : Fin 2)) = ((a : EReal) * ((2 : ℝ) : EReal)) * (s : EReal))
    (hR0 : ∀ i, R (ix3 b i (0 : Fin 8)) = (x i 0 : EReal)) (hR1 : ∀ i, R (ix3 b i (1 : Fin 8)) = (x i 1 : EReal))
    (hR2 : ∀ i, R (ix3 b i (2 : Fin 8)) = (x i 2 : EReal)) (hR3 : ∀ i, R (ix3 b i (3 : Fin 8)) = (bit01 (m i) : EReal))
    (hC : ∀ (d : Fin 8) (j : Fin 4096), C (ix3 b d j) = R (ix3 b j d))
    (ib : Fin 8) (r : Fin 512) (j : Fin 4096) (hi : ib.val * 512 + r.val < 4096) :
    Cert.KernelIdeal.KPay.cell P R C b ib r j
      = ((if ib.val * 512 + r.val = j.val then 0 else T a s ε x m ⟨ib.val * 512 + r.val, hi⟩ j : ℝ) : EReal) := by
  unfold Cert.KernelIdeal.KPay.cell
  simp only []
  rw [diag_word]
  by_cases hij : ib.val * 512 + r.val = j.val
  · rw [if_pos hij, if_pos hij, select_one, ofBits_zero, EReal.coe_zero]
  · rw [if_neg hij, if_neg hij, select_zero, hP0, hP1, hC, hC, hC, hC, hR0, hR0, hR1, hR1, hR2, hR2, hR3, hR3,
      d2_coe ε hεw, kexp_coe a s _ (D_pos hε _ _), ← EReal.coe_mul, ← EReal.coe_mul]
    congr 1
    unfold T E bit01
    by_cases h1 : m ⟨ib.val * 512 + r.val, hi⟩ = 1#1 <;> by_cases h2 : m j = 1#1 <;> simp [h1, h2]

/-- The eight tiles of 512 rows are the 4096 rows. -/
theorem sum_tiles (g : Fin 4096 → ℝ) :
    ∑ ib : Fin 8, ∑ r : Fin 512, (if h : ib.val * 512 + r.val < 4096 then g ⟨ib.val * 512 + r.val, h⟩ else 0) = ∑ i : Fin 4096, g i := by
  rw [← Equiv.sum_comp (finProdFinEquiv (m := 8) (n := 512)) (fun i : Fin (8 * 512) => g i), Fintype.sum_prod_type]
  refine Finset.sum_congr rfl fun ib _ => Finset.sum_congr rfl fun r _ => ?_
  have h : ib.val * 512 + r.val < 4096 := by have := ib.isLt; have := r.isLt; omega
  rw [dif_pos h]
  congr 1; apply Fin.ext
  show ib.val * 512 + r.val = r.val + 512 * ib.val
  ring

section Kernel
variable (a s ε : ℝ) (hε : 0 < ε) (hεw : Ideal.ofBits .f32 0x2EDBE6FF#32 = (ε : EReal))
  (x : Fin 4096 → Fin 3 → ℝ) (m : Fin 4096 → BitVec 1)
  (P : (⟨2, ![1, 2]⟩ : Shape).Idx → EReal) (R : (⟨3, ![2, 4096, 8]⟩ : Shape).Idx → EReal)
  (C : (⟨3, ![2, 8, 4096]⟩ : Shape).Idx → EReal) (b : Fin 2)
  (hP0 : P (ix2 (0 : Fin 1) (0 : Fin 2)) = (a : EReal))
  (hP1 : P (ix2 (0 : Fin 1) (1 : Fin 2)) = ((a : EReal) * ((2 : ℝ) : EReal)) * (s : EReal))
  (hR0 : ∀ i, R (ix3 b i (0 : Fin 8)) = (x i 0 : EReal)) (hR1 : ∀ i, R (ix3 b i (1 : Fin 8)) = (x i 1 : EReal))
  (hR2 : ∀ i, R (ix3 b i (2 : Fin 8)) = (x i 2 : EReal)) (hR3 : ∀ i, R (ix3 b i (3 : Fin 8)) = (bit01 (m i) : EReal))
  (hC : ∀ (d : Fin 8) (j : Fin 4096), C (ix3 b d j) = R (ix3 b j d))
include hε hεw hP0 hP1 hR0 hR1 hR2 hR3 hC

/-- One tile's sum. -/
theorem tileSum_eq (ib : Fin 8) :
    Cert.KernelIdeal.KPay.tileSum P R C b ib
      = ((∑ r : Fin 512, (if h : ib.val * 512 + r.val < 4096 then
            ∑ j : Fin 4096, (if (⟨ib.val * 512 + r.val, h⟩ : Fin 4096) = j then 0 else T a s ε x m ⟨ib.val * 512 + r.val, h⟩ j) else 0) : ℝ) : EReal) := by
  unfold Cert.KernelIdeal.KPay.tileSum
  rw [coe_sum]
  refine Finset.sum_congr rfl fun r _ => ?_
  have h : ib.val * 512 + r.val < 4096 := by have := ib.isLt; have := r.isLt; omega
  rw [dif_pos h, coe_sum]
  refine Finset.sum_congr rfl fun j _ => ?_
  rw [cell_eq a s ε hε hεw x m P R C b hP0 hP1 hR0 hR1 hR2 hR3 hC ib r j h]
  congr 1
  exact if_congr (by rw [Fin.ext_iff]) rfl rfl

/-- The accumulator after the eight tiles is the sum of the masked potential over all ordered pairs off the diagonal,
    that is, twice the sum over the pairs i < j. -/
theorem accum_eq :
    Cert.KernelIdeal.KPay.accum P R C b = ((2 * ∑ p : {p : Fin 4096 × Fin 4096 // p.1 < p.2}, T a s ε x m p.1.1 p.1.2 : ℝ) : EReal) := by
  unfold Cert.KernelIdeal.KPay.accum
  have hf : (fun (acc : EReal) (ib : Fin 8) => acc + Cert.KernelIdeal.KPay.tileSum P R C b ib)
      = fun acc ib => acc + (((fun ib : Fin 8 => ∑ r : Fin 512, (if h : ib.val * 512 + r.val < 4096 then
            ∑ j : Fin 4096, (if (⟨ib.val * 512 + r.val, h⟩ : Fin 4096) = j then 0 else T a s ε x m ⟨ib.val * 512 + r.val, h⟩ j) else 0)) ib : ℝ) : EReal) := by
    funext acc ib
    rw [tileSum_eq a s ε hε hεw x m P R C b hP0 hP1 hR0 hR1 hR2 hR3 hC ib]
  rw [hf, ofBits_zero, ← EReal.coe_zero, foldl_add_coe, ← List.ofFn_eq_map, List.sum_ofFn, zero_add,
    sum_tiles (fun i => ∑ j : Fin 4096, (if i = j then 0 else T a s ε x m i j)),
    sum_offdiag_eq_two_mul (T a s ε x m) (T_symm a s ε x m)]

/-- Minus one half of the accumulator is the energy. -/
theorem kernel_eq :
    Ideal.ofBits .f32 0xBF000000#32 * Cert.KernelIdeal.KPay.accum P R C b = ((energy a s ε x m : ℝ) : EReal) := by
  rw [accum_eq a s ε hε hεw x m P R C b hP0 hP1 hR0 hR1 hR2 hR3 hC, ofBits_neg_half, ← EReal.coe_mul]
  congr 1
  unfold energy; ring

end Kernel

/-! ## The reference's pair term -/

/-- The reference's masked potential of the pair (i, j), as it computes it on extended reals. -/
def refTerm (sE krE : EReal) (xE : Fin 4096 → Fin 3 → EReal) (m : Fin 4096 → BitVec 1) (i j : Fin 4096) : EReal :=
  Scalar.select (IntOp.andi (m i) (m j))
    (Ideal.pow
      (Ideal.div (Ideal.exp sE)
        (Ideal.sqrt ((Ideal.ofBits .f32 0x00000000#32 + ∑ d : Fin 3, (xE i d - xE j d) * (xE i d - xE j d))
          + Ideal.ofBits .f32 0x2EDBE6FF#32)))
      (Ideal.div (Ideal.ofBits .f32 0x40000000#32)
        (Ideal.div (Ideal.ofBits .f32 0x3F800000#32) (Ideal.ofBits .f32 0x3F800000#32 + Ideal.exp (-krE)))))
    (Ideal.ofBits .f32 0x00000000#32)

/-- The reference's masked potential of a pair is the same real. -/
theorem ref_term_eq (s kr ε : ℝ) (hε : 0 < ε) (hεw : Ideal.ofBits .f32 0x2EDBE6FF#32 = (ε : EReal))
    (x : Fin 4096 → Fin 3 → ℝ) (m : Fin 4096 → BitVec 1) (i j : Fin 4096) :
    Scalar.select (IntOp.andi (m i) (m j))
        (Ideal.pow
          (Ideal.div (Ideal.exp (s : EReal))
            (Ideal.sqrt ((Ideal.ofBits .f32 0x00000000#32 + ∑ d : Fin 3, ((x i d : EReal) - (x j d : EReal)) * ((x i d : EReal) - (x j d : EReal)))
              + Ideal.ofBits .f32 0x2EDBE6FF#32)))
          (Ideal.div (Ideal.ofBits .f32 0x40000000#32)
            (Ideal.div (Ideal.ofBits .f32 0x3F800000#32) (Ideal.ofBits .f32 0x3F800000#32 + Ideal.exp (-(kr : EReal))))))
        (Ideal.ofBits .f32 0x00000000#32)
      = ((T (1 + Real.exp (-kr)) s ε x m i j : ℝ) : EReal) := by
  have hD : (Ideal.ofBits .f32 0x00000000#32 + ∑ d : Fin 3, ((x i d : EReal) - (x j d : EReal)) * ((x i d : EReal) - (x j d : EReal)))
      + Ideal.ofBits .f32 0x2EDBE6FF#32 = ((D ε (x i) (x j) : ℝ) : EReal) := by
    rw [ofBits_zero, hεw, Fin.sum_univ_three]
    simp only [← EReal.coe_sub, ← EReal.coe_mul, ← EReal.coe_add, ← EReal.coe_zero]
    congr 1; unfold D; ring
  rw [hD, ofBits_two, ofBits_one, two_div_logistic, ← phi_eq s (1 + Real.exp (-kr)) _ (D_pos hε _ _),
    kexp_coe _ s _ (D_pos hε _ _), ofBits_zero]
  unfold T E
  rcases BitVec.eq_zero_or_eq_one (m i) with h1 | h1 <;> rcases BitVec.eq_zero_or_eq_one (m j) with h2 | h2 <;>
    simp [h1, h2, Scalar.select, IntOp.andi]

/-- The same for inputs given as extended reals that are reals. -/
theorem refTerm_eq (s kr ε : ℝ) (hε : 0 < ε) (hεw : Ideal.ofBits .f32 0x2EDBE6FF#32 = (ε : EReal))
    (x : Fin 4096 → Fin 3 → ℝ) (m : Fin 4096 → BitVec 1) (sE krE : EReal) (xE : Fin 4096 → Fin 3 → EReal)
    (hs : sE = (s : EReal)) (hk : krE = (kr : EReal)) (hx : ∀ i d, xE i d = (x i d : EReal)) (i j : Fin 4096) :
    refTerm sE krE xE m i j = ((T (1 + Real.exp (-kr)) s ε x m i j : ℝ) : EReal) := by
  unfold refTerm
  rw [hs, hk]
  simp only [hx]
  exact ref_term_eq s kr ε hε hεw x m i j

/-- The reference's closed form over the listed pairs is the energy. -/
theorem ref_eq (s kr ε : ℝ) (hε : 0 < ε) (hεw : Ideal.ofBits .f32 0x2EDBE6FF#32 = (ε : EReal))
    (x : Fin 4096 → Fin 3 → ℝ) (m : Fin 4096 → BitVec 1) (sE krE : EReal) (xE : Fin 4096 → Fin 3 → EReal)
    (hs : sE = (s : EReal)) (hk : krE = (kr : EReal)) (hx : ∀ i d, xE i d = (x i d : EReal))
    {K : ℕ} (I J : Fin K → Fin 4096)
    (e : Fin K ≃ {p : Fin 4096 × Fin 4096 // p.1 < p.2}) (hI : ∀ q, I q = (e q).1.1) (hJ : ∀ q, J q = (e q).1.2) :
    -(Ideal.ofBits .f32 0x00000000#32 + ∑ q : Fin K, refTerm sE krE xE m (I q) (J q))
      = ((energy (1 + Real.exp (-kr)) s ε x m : ℝ) : EReal) := by
  have h1 : (∑ q : Fin K, refTerm sE krE xE m (I q) (J q)) = ∑ q : Fin K, ((T (1 + Real.exp (-kr)) s ε x m (I q) (J q) : ℝ) : EReal) :=
    Finset.sum_congr rfl fun q _ => refTerm_eq s kr ε hε hεw x m sE krE xE hs hk hx (I q) (J q)
  have h2 : (∑ q : Fin K, T (1 + Real.exp (-kr)) s ε x m (I q) (J q))
      = ∑ p : {p : Fin 4096 × Fin 4096 // p.1 < p.2}, T (1 + Real.exp (-kr)) s ε x m p.1.1 p.1.2 := by
    rw [← Equiv.sum_comp e (fun p : {p : Fin 4096 × Fin 4096 // p.1 < p.2} => T (1 + Real.exp (-kr)) s ε x m p.1.1 p.1.2)]
    exact Finset.sum_congr rfl fun q _ => by rw [hI q, hJ q]
  rw [h1, ← coe_sum, h2, ofBits_zero, zero_add, ← EReal.coe_neg]
  rfl

/-! ## The common result as a function of the four argument arrays -/

/-- The energy of every batch from the argument arrays, each float entry read as the real it is. -/
def result (x : (⟨3, ![2, 4096, 3]⟩ : Shape).Idx → EReal) (mask : (⟨2, ![2, 4096]⟩ : Shape).Idx → BitVec 1)
    (s kr : (⟨1, ![1]⟩ : Shape).Idx → EReal) : (⟨1, ![2]⟩ : Shape).Idx → EReal :=
  fun i => ((energy (1 + Real.exp (-(kr (ix1 (0 : Fin 1))).toReal)) (s (ix1 (0 : Fin 1))).toReal
    (Ideal.ofBits .f32 0x2EDBE6FF#32).toReal (fun p d => (x (ix3 (i 0) p d)).toReal) (fun p => mask (ix2 (i 0) p)) : ℝ) : EReal)

/-- The softening word is the real it denotes. -/
theorem eps_toReal : 0 < (Ideal.ofBits .f32 0x2EDBE6FF#32).toReal
    ∧ Ideal.ofBits .f32 0x2EDBE6FF#32 = (((Ideal.ofBits .f32 0x2EDBE6FF#32).toReal : ℝ) : EReal) := by
  obtain ⟨ε, hε, hw⟩ := ofBits_eps
  rw [hw, EReal.toReal_coe]
  exact ⟨hε, rfl⟩

/-- An extended real that is a real is the coercion of its real part. -/
theorem coe_toReal_of_real {z : EReal} (h : ∃ r : ℝ, z = (r : EReal)) : z = ((z.toReal : ℝ) : EReal) := by
  obtain ⟨r, rfl⟩ := h
  rw [EReal.toReal_coe]

end Cert.Softcore

end
-- ==== Proof.LibNary3.lean ====
/-
  A host operation of THREE operands given as a literal family of references (a concatenation of three arrays),
  read at its result: the function applied to each operand's contents AT ITS OWN REFERENCE, so that the contents of
  the three operands can be rewritten further one by one; and the fold of a list of host operations over a
  concatenation of two lists is the fold of the second over the fold of the first.
-/
import Idealize.ShloMosaic.Lib.StableHlo.Run

noncomputable section

namespace Idealize.ShloMosaic.StableHlo

variable {τ : Topo} {sig : RefSig} {Val : EltTy → Type}

/-- The result of a three-operand operation, each operand's contents read at its own literal reference. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The contents after two lists of operations run one after the other. -/
theorem after_append (l₁ l₂ : List (HloOp τ sig Val)) (X : Valuation τ sig Val) :
    after (l₁ ++ l₂) X = after l₂ (after l₁ X) := by
  induction l₁ generalizing X with
  | nil => rfl
  | cons op ops ih => exact ih _

end Idealize.ShloMosaic.StableHlo

end
-- ==== Proof.KPrefix.lean ====
/-
  The host operations that precede the region, read at an index.  Over an arbitrary valuation `X` of the buffers,
  the fold of the operations leaves three arrays that the region's windows read: the parameter array `[1, 2]`
  (the reciprocal-of-reciprocal of `1 + exp (-w)`, and that number doubled and scaled), the row array
  `[2, 4096, 8]` (three coordinates, the mask bit as a number, four zeros: a concatenation along the last axis)
  and the column array `[2, 8, 4096]` (the row array with its last two axes exchanged).  Each is first identified
  with a closed term over the four arguments, then read at an index with the layout lemmas: a shape cast by
  row-major position, a concatenation by the piece whose span holds the coordinate, a broadcast by the coordinates
  it keeps, a transpose by exchanging coordinates; the arithmetic is elementwise and, at the extended reals, is the
  textbook operation.
-/
import proofs.«154192_g34583076667753_cont_8to1_b_861_5_alg».proof.Proof.Gen.KernelIdeal.Launch
import proofs.«154192_g34583076667753_cont_8to1_b_861_5_alg».proof.Proof.LibNary3
import proofs.«154192_g34583076667753_cont_8to1_b_861_5_alg».proof.Proof.LibUnitAxes
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.KPrefix

open Idealize.ShloMosaic Idealize.ShloMosaic.TcCoe Idealize.ShloMosaic.ValueIdx
open Cert.KernelIdeal.Gen

/-- The results of a literal list of host operations, read off one by one; a three-operand operation is read with
    each operand at its own reference. -/
macro "after_results3" : tactic =>
  `(tactic| (simp only [StableHlo.after_cons, StableHlo.after_nil]
             repeat (first
               | rw [StableHlo.nullary_result] | rw [StableHlo.unary_result] | rw [StableHlo.binary_result]
               | rw [StableHlo.reshape_result] | rw [StableHlo.nary3_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

/-! ## A three-piece concatenation along the last axis of a rank-3 array, read at an index -/

section Concat3
variable {α : Type} {m n k1 k2 k3 K : ℕ}

/-- A coordinate below the first extent reads the first piece at the same coordinates. -/
theorem concat3_apply_fst (x1 : (⟨3, ![m, n, k1]⟩ : Shape).Idx → α) (x2 : (⟨3, ![m, n, k2]⟩ : Shape).Idx → α)
    (x3 : (⟨3, ![m, n, k3]⟩ : Shape).Idx → α)
    (h : Shape.Concatenates [(⟨3, ![m, n, k1]⟩ : Shape), ⟨3, ![m, n, k2]⟩, ⟨3, ![m, n, k3]⟩] ⟨3, ![m, n, K]⟩ 2)
    (b : Fin m) (i : Fin n) (d : Fin K) (hd : d.val < k1) :
    concatenate ⟨3, ![m, n, K]⟩ 2 [⟨⟨3, ![m, n, k1]⟩, x1⟩, ⟨⟨3, ![m, n, k2]⟩, x2⟩, ⟨⟨3, ![m, n, k3]⟩, x3⟩] h (ix3 b i d)
      = x1 (ix3 b i ⟨d.val, hd⟩) := by
  refine concatenate_apply_piece 2 [⟨⟨3, ![m, n, k1]⟩, x1⟩, ⟨⟨3, ![m, n, k2]⟩, x2⟩, ⟨⟨3, ![m, n, k3]⟩, x3⟩] h (ix3 b i d) 0
    (by simp only [List.length_cons, List.length_nil]; omega) _ x1 rfl rfl 0 rfl (ix3 b i ⟨d.val, hd⟩) ?_ ?_
  · intro c hc
    match c with
    | ⟨0, _⟩ => rfl
    | ⟨1, _⟩ => rfl
    | ⟨2, _⟩ => exact absurd rfl hc
  · show 0 + d.val = d.val
    exact Nat.zero_add _

/-- A coordinate in the second piece's span reads the second piece, the first extent less. -/
theorem concat3_apply_snd (x1 : (⟨3, ![m, n, k1]⟩ : Shape).Idx → α) (x2 : (⟨3, ![m, n, k2]⟩ : Shape).Idx → α)
    (x3 : (⟨3, ![m, n, k3]⟩ : Shape).Idx → α)
    (h : Shape.Concatenates [(⟨3, ![m, n, k1]⟩ : Shape), ⟨3, ![m, n, k2]⟩, ⟨3, ![m, n, k3]⟩] ⟨3, ![m, n, K]⟩ 2)
    (b : Fin m) (i : Fin n) (d : Fin K) (e : Fin k2) (hd : k1 + e.val = d.val) :
    concatenate ⟨3, ![m, n, K]⟩ 2 [⟨⟨3, ![m, n, k1]⟩, x1⟩, ⟨⟨3, ![m, n, k2]⟩, x2⟩, ⟨⟨3, ![m, n, k3]⟩, x3⟩] h (ix3 b i d)
      = x2 (ix3 b i e) := by
  refine concatenate_apply_piece 2 [⟨⟨3, ![m, n, k1]⟩, x1⟩, ⟨⟨3, ![m, n, k2]⟩, x2⟩, ⟨⟨3, ![m, n, k3]⟩, x3⟩] h (ix3 b i d) 1
    (by simp only [List.length_cons, List.length_nil]; omega) _ x2 rfl rfl k1 rfl (ix3 b i e) ?_ ?_
  · intro c hc
    match c with
    | ⟨0, _⟩ => rfl
    | ⟨1, _⟩ => rfl
    | ⟨2, _⟩ => exact absurd rfl hc
  · exact hd

/-- A coordinate in the third piece's span reads the third piece, the first two extents less. -/
theorem concat3_apply_thd (x1 : (⟨3, ![m, n, k1]⟩ : Shape).Idx → α) (x2 : (⟨3, ![m, n, k2]⟩ : Shape).Idx → α)
    (x3 : (⟨3, ![m, n, k3]⟩ : Shape).Idx → α)
    (h : Shape.Concatenates [(⟨3, ![m, n, k1]⟩ : Shape), ⟨3, ![m, n, k2]⟩, ⟨3, ![m, n, k3]⟩] ⟨3, ![m, n, K]⟩ 2)
    (b : Fin m) (i : Fin n) (d : Fin K) (e : Fin k3) (hd : k1 + k2 + e.val = d.val) :
    concatenate ⟨3, ![m, n, K]⟩ 2 [⟨⟨3, ![m, n, k1]⟩, x1⟩, ⟨⟨3, ![m, n, k2]⟩, x2⟩, ⟨⟨3, ![m, n, k3]⟩, x3⟩] h (ix3 b i d)
      = x3 (ix3 b i e) := by
  refine concatenate_apply_piece 2 [⟨⟨3, ![m, n, k1]⟩, x1⟩, ⟨⟨3, ![m, n, k2]⟩, x2⟩, ⟨⟨3, ![m, n, k3]⟩, x3⟩] h (ix3 b i d) 2
    (by simp only [List.length_cons, List.length_nil]; omega) _ x3 rfl rfl (k1 + k2) rfl (ix3 b i e) ?_ ?_
  · intro c hc
    match c with
    | ⟨0, _⟩ => rfl
    | ⟨1, _⟩ => rfl
    | ⟨2, _⟩ => exact absurd rfl hc
  · exact hd

end Concat3

/-! ## The arrays the host operations leave, as terms over the arguments -/

variable (X : Valuation τ sig (Elt Ideal))

/-- The rank-0 array `1 / (1 / (1 + exp (-w)))`, `w` the one element of the fourth argument. -/
def invK0 : FVec Ideal S_ .f32 :=
  Host.divf (constant (F := Ideal) S_ .f32 0x3F800000#32)
    (Host.divf (constant (F := Ideal) S_ .f32 0x3F800000#32)
      (addf (constant (F := Ideal) S_ .f32 0x3F800000#32)
        (Host.exp (Host.negf (shapeCast S_ (X (Proc.devRef .tc main_arg3)) shapeCasts_S1_S_)))))

/-- The rank-0 array `(invK0 * 2) * s`, `s` the one element of the third argument. -/
def c00 : FVec Ideal S_ .f32 :=
  mulf (mulf (invK0 X) (constant (F := Ideal) S_ .f32 0x40000000#32))
    (shapeCast S_ (X (Proc.devRef .tc main_arg2)) shapeCasts_S1_S_)

/-- The parameter array `[1, 2]`: the two scalars side by side. -/
def paramsT : FVec Ideal S1x2 .f32 :=
  shapeCast S1x2
    (concatenate S2 0 [⟨S1, broadcastInDim S1 ![] bcast_S_S1 (invK0 X)⟩, ⟨S1, broadcastInDim S1 ![] bcast_S_S1 (c00 X)⟩]
      concatenates_S1_S1_S2_d0)
    shapeCasts_S2_S1x2

/-- The row array `[2, 4096, 8]`: the three coordinates, the mask bit as a number, four zeros. -/
def rowsT : FVec Ideal S2x4096x8 .f32 :=
  concatenate S2x4096x8 2
    [⟨S2x4096x3, X (Proc.devRef .tc main_arg0)⟩,
     ⟨S2x4096x1, broadcastInDim S2x4096x1 ![0, 1] bcast_S2x4096_S2x4096x1_0_1
        (uitofp (F := Ideal) .f32 (X (Proc.devRef .tc main_arg1)))⟩,
     ⟨S2x4096x4, broadcastInDim S2x4096x4 ![] bcast_S_S2x4096x4 (constant (F := Ideal) S_ .f32 0x00000000#32)⟩]
    concatenates_S2x4096x3_S2x4096x1_S2x4096x4_S2x4096x8_d2

theorem v17_eq : StableHlo.after (List.flatten [hostOps0]) X (Proc.devRef .tc main_v17) = paramsT X := by
  simp only [hostOps0, List.flatten_cons, List.flatten_nil, List.append_nil]
  after_results3
  rfl

theorem v3_eq : StableHlo.after (List.flatten [hostOps0]) X (Proc.devRef .tc main_v3) = rowsT X := by
  simp only [hostOps0, List.flatten_cons, List.flatten_nil, List.append_nil]
  after_results3
  rfl

theorem v4_eq : StableHlo.after (List.flatten [hostOps0]) X (Proc.devRef .tc main_v4)
    = transpose S2x8x4096 [0, 2, 1] (rowsT X) transposes_S2x4096x8_S2x8x4096_0_2_1 := by
  simp only [hostOps0, List.flatten_cons, List.flatten_nil, List.append_nil]
  after_results3
  rfl

/-! ## The arguments read at an index, as extended reals and bits -/

/-- The one element of the fourth argument. -/
abbrev argW : EReal := X (Proc.devRef .tc main_arg3) (ix1 (0 : Fin 1))
/-- The one element of the third argument. -/
abbrev argS : EReal := X (Proc.devRef .tc main_arg2) (ix1 (0 : Fin 1))
/-- Coordinate `k` of point `i` of batch `b`: the first argument at `(b, i, k)`. -/
abbrev argP (b : Fin 2) (i : Fin 4096) (k : Fin 3) : EReal := X (Proc.devRef .tc main_arg0) (ix3 b i k)
/-- The mask bit of point `i` of batch `b`: the second argument at `(b, i)`. -/
abbrev argM (b : Fin 2) (i : Fin 4096) : BitVec 1 := X (Proc.devRef .tc main_arg1) (ix2 b i)

/-- The first parameter as an extended real: `1 / (1 / (1 + exp (-w)))`. -/
abbrev invK : EReal :=
  Ideal.div (Ideal.ofBits .f32 0x3F800000#32) (Ideal.div (Ideal.ofBits .f32 0x3F800000#32)
    (Ideal.ofBits .f32 0x3F800000#32 + Ideal.exp (-(argW X))))

/-- A bit read as an unsigned number is one or zero. -/
theorem uitofp_bit (x : BitVec 1) :
    FloatOps.uitofp (F := Ideal) .f32 x = if x = 1#1 then (1 : EReal) else 0 := by
  show (((x.toNat : ℕ) : ℝ) : EReal) = _
  rcases BitVec.eq_zero_or_eq_one x with h | h <;> subst h <;> simp

/-! ## Small layout operations read at an index -/

section Reads
variable {α : Type}

/-- A one-element array cast to a scalar reads its element. -/
theorem shapeCast_1_scalar_apply (x : (⟨1, ![1]⟩ : Shape).Idx → α) (h : (⟨1, ![1]⟩ : Shape).ShapeCasts ⟨0, ![]⟩) :
    shapeCast ⟨0, ![]⟩ x h ix0 = x (ix1 (0 : Fin 1)) :=
  shapeCast_apply x h ix0 (ix1 (0 : Fin 1)) (by
    rw [Shape.rowMajor_val_one]
    exact (Shape.rowMajorPi_zero _ _).symm)

/-- Two one-element arrays laid end to end read, at 0, the first. -/
theorem concat_1_1_apply_zero (x₁ x₂ : (⟨1, ![1]⟩ : Shape).Idx → α)
    (h : Shape.Concatenates [(⟨1, ![1]⟩ : Shape), ⟨1, ![1]⟩] ⟨1, ![2]⟩ 0) :
    concatenate ⟨1, ![2]⟩ 0 [⟨⟨1, ![1]⟩, x₁⟩, ⟨⟨1, ![1]⟩, x₂⟩] h (ix1 (0 : Fin 2)) = x₁ (ix1 (0 : Fin 1)) :=
  concatenate_pair_apply_left 0 x₁ x₂ h (ix1 (0 : Fin 2)) rfl (ix1 (0 : Fin 1)) fun c =>
    match c with | ⟨0, _⟩ => rfl

/-- Two one-element arrays laid end to end read, at 1, the second. -/
theorem concat_1_1_apply_one (x₁ x₂ : (⟨1, ![1]⟩ : Shape).Idx → α)
    (h : Shape.Concatenates [(⟨1, ![1]⟩ : Shape), ⟨1, ![1]⟩] ⟨1, ![2]⟩ 0) :
    concatenate ⟨1, ![2]⟩ 0 [⟨⟨1, ![1]⟩, x₁⟩, ⟨⟨1, ![1]⟩, x₂⟩] h (ix1 (1 : Fin 2)) = x₂ (ix1 (0 : Fin 1)) :=
  concatenate_pair_apply_right 0 x₁ x₂ h (ix1 (1 : Fin 2)) rfl rfl (ix1 (0 : Fin 1))
    (fun c hc => match c with | ⟨0, _⟩ => absurd rfl hc) rfl

/-- An `[a, b]` array spread along the first two axes of `[a, b, 1]` reads, at `(p, q, u)`, the array at `(p, q)`. -/
theorem broadcastInDim_ab_ab1_apply {a b : ℕ} (v : (⟨2, ![a, b]⟩ : Shape).Idx → α)
    (h : (⟨2, ![a, b]⟩ : Shape).BroadcastsInDim ⟨3, ![a, b, 1]⟩ ![0, 1]) (p : Fin a) (q : Fin b) (u : Fin 1) :
    broadcastInDim ⟨3, ![a, b, 1]⟩ ![0, 1] h v (ix3 p q u) = v (ix2 p q) := by
  refine broadcastInDim_apply ![0, 1] h v (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

end Reads

/-! ## The three arrays at an index -/

theorem invK0_apply : invK0 X ix0
    = Ideal.div (Ideal.ofBits .f32 0x3F800000#32) (Ideal.div (Ideal.ofBits .f32 0x3F800000#32)
        (Ideal.ofBits .f32 0x3F800000#32 + Ideal.exp (-(argW X)))) := by
  show Ideal.div (Ideal.ofBits .f32 0x3F800000#32) (Ideal.div (Ideal.ofBits .f32 0x3F800000#32)
        (Ideal.ofBits .f32 0x3F800000#32
          + Ideal.exp (-(shapeCast (α := EReal) S_ (X (Proc.devRef .tc main_arg3)) shapeCasts_S1_S_ ix0)))) = _
  rw [shapeCast_1_scalar_apply]

theorem c00_apply : c00 X ix0
    = (invK0 X ix0 * Ideal.ofBits .f32 0x40000000#32) * argS X := by
  show (invK0 X ix0 * Ideal.ofBits .f32 0x40000000#32)
      * shapeCast (α := EReal) S_ (X (Proc.devRef .tc main_arg2)) shapeCasts_S1_S_ ix0 = _
  rw [shapeCast_1_scalar_apply]

/-- The first parameter: `1 / (1 / (1 + exp (-w)))`. -/
theorem params0 :
    StableHlo.after (List.flatten [hostOps0]) X (Proc.devRef .tc main_v17) (ix2 (0 : Fin 1) (0 : Fin 2))
      = Ideal.div (Ideal.ofBits .f32 0x3F800000#32) (Ideal.div (Ideal.ofBits .f32 0x3F800000#32)
          (Ideal.ofBits .f32 0x3F800000#32 + Ideal.exp (-(argW X)))) := by
  refine (congrFun (v17_eq X) _).trans ?_
  unfold paramsT
  rw [shapeCast_a_1a_apply _ _ (0 : Fin 1) (0 : Fin 2), concat_1_1_apply_zero, broadcastInDim_scalar_apply]
  exact invK0_apply X

/-- The second parameter: the first, doubled, times the scale. -/
theorem params1 :
    StableHlo.after (List.flatten [hostOps0]) X (Proc.devRef .tc main_v17) (ix2 (0 : Fin 1) (1 : Fin 2))
      = (Ideal.div (Ideal.ofBits .f32 0x3F800000#32) (Ideal.div (Ideal.ofBits .f32 0x3F800000#32)
          (Ideal.ofBits .f32 0x3F800000#32 + Ideal.exp (-(argW X))))
          * Ideal.ofBits .f32 0x40000000#32) * argS X := by
  refine (congrFun (v17_eq X) _).trans ?_
  unfold paramsT
  rw [shapeCast_a_1a_apply _ _ (0 : Fin 1) (1 : Fin 2), concat_1_1_apply_one, broadcastInDim_scalar_apply,
    c00_apply, invK0_apply]

/-- The row array at `(b, i, d)`: a coordinate of point `i` for `d < 3`, the mask bit as a number at `d = 3`,
    zero beyond. -/
theorem rows_apply (b : Fin 2) (i : Fin 4096) (d : Fin 8) :
    StableHlo.after (List.flatten [hostOps0]) X (Proc.devRef .tc main_v3) (ix3 b i d)
      = if h : d.val < 3 then argP X b i ⟨d.val, h⟩
        else if d.val = 3 then FloatOps.uitofp (F := Ideal) .f32 (argM X b i)
        else 0 := by
  refine (congrFun (v3_eq X) _).trans ?_
  unfold rowsT
  by_cases h1 : d.val < 3
  · rw [dif_pos h1]
    exact concat3_apply_fst _ _ _ _ b i d h1
  · rw [dif_neg h1]
    by_cases h2 : d.val = 3
    · rw [if_pos h2, concat3_apply_snd _ _ _ _ b i d (0 : Fin 1) (by show 3 + 0 = d.val; omega),
        broadcastInDim_ab_ab1_apply]
      rfl
    · rw [if_neg h2, concat3_apply_thd _ _ _ _ b i d (⟨d.val - 4, by omega⟩ : Fin 4)
        (by show 3 + 1 + (d.val - 4) = d.val; omega), broadcastInDim_scalar_apply]
      exact Ideal.ofBits_zero_f32

/-- The column array is the row array with its last two axes exchanged. -/
theorem cols_apply (b : Fin 2) (d : Fin 8) (j : Fin 4096) :
    StableHlo.after (List.flatten [hostOps0]) X (Proc.devRef .tc main_v4) (ix3 b d j)
      = StableHlo.after (List.flatten [hostOps0]) X (Proc.devRef .tc main_v3) (ix3 b j d) := by
  refine (congrFun (v4_eq X) _).trans ?_
  refine (transpose_ix3_021_apply _ _ b d j).trans ?_
  exact (congrFun (v3_eq X) _).symm

/-- The row array with the mask bit spelt as one or zero. -/
theorem rows_apply' (b : Fin 2) (i : Fin 4096) (d : Fin 8) :
    StableHlo.after (List.flatten [hostOps0]) X (Proc.devRef .tc main_v3) (ix3 b i d)
      = if h : d.val < 3 then argP X b i ⟨d.val, h⟩
        else if d.val = 3 then (if argM X b i = 1#1 then 1 else 0)
        else 0 := by
  rw [rows_apply, uitofp_bit]

/-- The two parameters through `invK`. -/
theorem params0' :
    StableHlo.after (List.flatten [hostOps0]) X (Proc.devRef .tc main_v17) (ix2 (0 : Fin 1) (0 : Fin 2)) = invK X :=
  params0 X

theorem params1' :
    StableHlo.after (List.flatten [hostOps0]) X (Proc.devRef .tc main_v17) (ix2 (0 : Fin 1) (1 : Fin 2))
      = (invK X * Ideal.ofBits .f32 0x40000000#32) * argS X :=
  params1 X

end Cert.KernelIdeal.KPrefix

end
-- ==== Proof.KResult.lean ====
/-
  The kernel's result as the common value: on each core the result buffer ends holding, for each batch, minus one
  half of the batch's accumulator, and with the arrays the region finds read back to the four arguments (the
  parameter pair from the two scalars, the row array from the points and the mask, the column array its transpose)
  that is the energy of the batch.
-/
import proofs.«154192_g34583076667753_cont_8to1_b_861_5_alg».proof.Proof.KValue
import proofs.«154192_g34583076667753_cont_8to1_b_861_5_alg».proof.Proof.Bridge
import proofs.«154192_g34583076667753_cont_8to1_b_861_5_alg».proof.Proof.KPrefix

set_option maxRecDepth 16384

noncomputable section

namespace Cert.KernelIdeal.KRes

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- A mask bit as a real number, inside the extended reals, is one or zero there. -/
theorem coe_bit01 (w : BitVec 1) : ((Cert.Softcore.bit01 w : ℝ) : EReal) = if w = 1#1 then (1 : EReal) else 0 := by
  unfold Cert.Softcore.bit01
  split <;> simp

/-- THE RESULT on core `c`, when the points and the two scalars are real numbers: entry b of the scaled reshape of
    the output array is the energy of batch b. -/
theorem result_eq (c : Dev nD)
    (hx : ∀ i, ∃ r : ℝ, m ((c.tc : Thread nD τ).loc main_arg0) i = (r : EReal))
    (hs : ∃ r : ℝ, m ((c.tc : Thread nD τ).loc main_arg2) (ix1 (0 : Fin 1)) = (r : EReal))
    (hk : ∃ r : ℝ, m ((c.tc : Thread nD τ).loc main_arg3) (ix1 (0 : Fin 1)) = (r : EReal)) :
    mulf (broadcastInDim S2 ![] bcast_S_S2 (constant (F := Ideal) S_ .f32 0xBF000000#32))
        (shapeCast S2 ((KF.dats (F := Ideal) m 0 c).arrAt 3 cfg0.N) shapeCasts_S2x1x1_S2)
      = Cert.Softcore.result (m ((c.tc : Thread nD τ).loc main_arg0)) (m ((c.tc : Thread nD τ).loc main_arg1))
          (m ((c.tc : Thread nD τ).loc main_arg2)) (m ((c.tc : Thread nD τ).loc main_arg3)) := by
  funext i
  obtain ⟨b, rfl⟩ : ∃ b : Fin 2, i = ix1 b := ⟨i 0, eq_ix1 i⟩
  rw [mulf_apply, Cert.LibUnitAxes.broadcastInDim_scalar_apply, constant_apply,
    shapeCast_apply _ shapeCasts_S2x1x1_S2 (ix1 b) (ix3 b (0 : Fin 1) (0 : Fin 1)) (by
      rw [Shape.rowMajor_val_three, Shape.rowMajor_val_one]
      show (b.val * 1 + 0) * 1 + 0 = b.val
      omega),
    KVal.out_apply]
  obtain ⟨kr, hkr⟩ := hk
  obtain ⟨sr, hsr⟩ := hs
  choose xr hxr using hx
  obtain ⟨hε, hεw⟩ := Cert.Softcore.eps_toReal
  unfold Cert.Softcore.result
  simp only [hkr, hsr, hxr, EReal.toReal_coe]
  have hw : KPrefix.argW (fun b => m (c, b)) = (kr : EReal) := hkr
  have hS : KPrefix.argS (fun b => m (c, b)) = (sr : EReal) := hsr
  have hK : KPrefix.invK (fun b => m (c, b)) = ((1 + Real.exp (-kr) : ℝ) : EReal) := by
    unfold KPrefix.invK
    rw [hw, Cert.Softcore.ofBits_one]
    exact Cert.Softcore.inv_logistic kr
  refine Cert.Softcore.kernel_eq (1 + Real.exp (-kr)) sr _ hε hεw (fun p d => xr (ix3 b p d))
    (fun p => m ((c.tc : Thread nD τ).loc main_arg1) (ix2 b p)) _ _ _ b ?_ ?_ ?_ ?_ ?_ ?_ ?_
  · exact (KPrefix.params0' (fun b => m (c, b))).trans hK
  · refine (KPrefix.params1' (fun b => m (c, b))).trans ?_
    rw [hK, hS, Cert.Softcore.ofBits_two]
  · intro i
    refine (KPrefix.rows_apply' (fun b => m (c, b)) b i (0 : Fin 8)).trans ?_
    rw [dif_pos (by decide)]
    exact hxr _
  · intro i
    refine (KPrefix.rows_apply' (fun b => m (c, b)) b i (1 : Fin 8)).trans ?_
    rw [dif_pos (by decide)]
    exact hxr _
  · intro i
    refine (KPrefix.rows_apply' (fun b => m (c, b)) b i (2 : Fin 8)).trans ?_
    rw [dif_pos (by decide)]
    exact hxr _
  · intro i
    refine (KPrefix.rows_apply' (fun b => m (c, b)) b i (3 : Fin 8)).trans ?_
    rw [dif_neg (by decide), if_pos (by decide), coe_bit01]
  · intro d j
    exact KPrefix.cols_apply (fun b => m (c, b)) b d j

/-- THE RUN, at real arguments: every weakly fair execution of the program on the TensorCores terminates; on every
    core the result buffer ends at the energies of the two batches and the four arguments end unchanged. -/
theorem run_result (ρ : Dev nD → PrngReg)
    (hfin : ∀ c : Dev nD, (∀ i, ∃ r : ℝ, m ((c.tc : Thread nD τ).loc main_arg0) i = (r : EReal))
      ∧ (∃ r : ℝ, m ((c.tc : Thread nD τ).loc main_arg2) (ix1 (0 : Fin 1)) = (r : EReal))
      ∧ (∃ r : ℝ, m ((c.tc : Thread nD τ).loc main_arg3) (ix1 (0 : Fin 1)) = (r : EReal))) :
    θ_run defs (onTc (τ := τ) (main (F := Ideal))) ⟨m, fun _ => 0, ρ⟩ (fun r => ∀ c : Dev nD,
      r.2.mem ((c.tc : Thread nD τ).loc main_v21)
        = Cert.Softcore.result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1).trans (result_eq m c (hfin c).1 (hfin c).2.1 (hfin c).2.2), (h c).2⟩) (KF.run_main m ρ)

end Cert.KernelIdeal.KRes

end
-- ==== Proof.RefOps.lean ====
/- The operations of the reference program's main function in order, as two literal lists, one per printed window,
   the operations of each called function listed at the call over that call's buffer record. Definitions only. -/
import proofs.«154192_g34583076667753_cont_8to1_b_861_5_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The 146 operations of the main function's window 0, in order. -/
abbrev ops0 : List (HloOp τ sig (Elt F)) :=
  [ StableHlo.nullary main_cst (constant S_ .f32 0x3F800000#32),
    StableHlo.unary main_cst main_v0 (broadcastInDim S4096x4096 ![] bcast_S_S4096x4096 : (⟨S_, .f32⟩ : BufTy).Contents (Elt F) → (⟨S4096x4096, .f32⟩ : BufTy).Contents (Elt F)),
    StableHlo.TRef.nullary main_call0.v0 (iotaInDim S4096x4096 32 0),
    StableHlo.TRef.nullary main_call0.c (constantI S_ 32 0#32),
    StableHlo.TRef.unary main_call0.c main_call0.v1 (broadcastInDim S4096x4096 ![] bcast_S_S4096x4096),
    StableHlo.TRef.binary main_call0.v0 main_call0.v1 main_call0.v2 addi,
    StableHlo.TRef.nullary main_call0.v3 (iotaInDim S4096x4096 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S4096x4096 ![] bcast_S_S4096x4096),
    StableHlo.TRef.ternary main_call0.v4 main_call0.v5 ((.of main_v0) : StableHlo.TRef sig ⟨S4096x4096, .f32⟩) main_call0.v6 select,
    StableHlo.nullary main_cst_0 (constant S_ .f32 0x00000000#32),
    StableHlo.unary main_cst_0 main_v2 (broadcastInDim S4096x4096 ![] bcast_S_S4096x4096 : (⟨S_, .f32⟩ : BufTy).Contents (Elt F) → (⟨S4096x4096, .f32⟩ : BufTy).Contents (Elt F)),
    StableHlo.binary main_v1 main_v2 main_v3 (cmpf .une : (⟨S4096x4096, .f32⟩ : BufTy).Contents (Elt F) → (⟨S4096x4096, .f32⟩ : BufTy).Contents (Elt F) → (⟨S4096x4096, .i1⟩ : BufTy).Contents (Elt F)),
    StableHlo.TRef.reshape ((.of main_v3) : StableHlo.TRef sig ⟨S4096x4096, .i1⟩) main_call1.v0 rfl shapeCasts_S4096x4096_S16777216,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary (main_call1.v1 : StableHlo.TRef sig ⟨S16777216, .i32⟩) main_call1.call0.v0 main_call1.call0.v1 (fun x v => Host.reduceWindow IntOp.addi ![16777216] ![1] ![16777215] ![0] x v reduceWindows_S16777216_S16777216_w16777216s1p16777215_0 h_S_),
    StableHlo.nullary main_c (constantI S_ 32 0#32),
    StableHlo.unary main_c main_v5 (broadcastInDim S8386560 ![] bcast_S_S8386560 : (⟨S_, .i32⟩ : BufTy).Contents (Elt F) → (⟨S8386560, .i32⟩ : BufTy).Contents (Elt F)),
    StableHlo.nullary main_c_1 (constantI S_ 32 0#32),
    StableHlo.TRef.unary ((.of main_c_1) : StableHlo.TRef sig ⟨S_, .i32⟩) main_call2.v0 id,
    StableHlo.TRef.unary main_call2.v0 main_call2.v1 (broadcastInDim S16777216 ![] bcast_S_S16777216),
    StableHlo.TRef.binary main_call2.v1 ((.of main_v4) : StableHlo.TRef sig ⟨S16777216, .i32⟩) main_call2.v2 maxsi,
    StableHlo.nullary main_c_2 (constantI S_ 32 0#32),
    StableHlo.unary main_c_2 main_v7 (broadcastInDim S16777216 ![] bcast_S_S16777216 : (⟨S_, .i32⟩ : BufTy).Contents (Elt F) → (⟨S16777216, .i32⟩ : BufTy).Contents (Elt F)),
    StableHlo.binary main_v6 main_v7 main_v8 (cmpi .slt : (⟨S16777216, .i32⟩ : BufTy).Contents (Elt F) → (⟨S16777216, .i32⟩ : BufTy).Contents (Elt F) → (⟨S16777216, .i1⟩ : BufTy).Contents (Elt F)),
    StableHlo.nullary main_c_3 (constantI S_ 32 8386560#32),
    StableHlo.unary main_c_3 main_v9 (broadcastInDim S16777216 ![] bcast_S_S16777216 : (⟨S_, .i32⟩ : BufTy).Contents (Elt F) → (⟨S16777216, .i32⟩ : BufTy).Contents (Elt F)),
    StableHlo.binary main_v6 main_v9 main_v10 (addi : (⟨S16777216, .i32⟩ : BufTy).Contents (Elt F) → (⟨S16777216, .i32⟩ : BufTy).Contents (Elt F) → (⟨S16777216, .i32⟩ : BufTy).Contents (Elt F)),
    StableHlo.ternary main_v8 main_v10 main_v6 main_v11 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v11 main_v12 (broadcastInDim S16777216x1 ![0] bcast_S16777216_S16777216x1_0 : (⟨S16777216, .i32⟩ : BufTy).Contents (Elt F) → (⟨S16777216x1, .i32⟩ : BufTy).Contents (Elt F)),
    StableHlo.nullary main_c_4 (constantI S_ 32 1#32),
    StableHlo.unary main_c_4 main_v13 (broadcastInDim S16777216 ![] bcast_S_S16777216 : (⟨S_, .i32⟩ : BufTy).Contents (Elt F) → (⟨S16777216, .i32⟩ : BufTy).Contents (Elt F)),
    StableHlo.ternary main_v5 main_v12 main_v13 main_v14 ((fun x i u => Host.scatter scatter_S8386560_S16777216x1_S16777216_n_0_0_1 IntOp.addi x i u) : (⟨S8386560, .i32⟩ : BufTy).Contents (Elt F) → (⟨S16777216x1, .i32⟩ : BufTy).Contents (Elt F) → (⟨S16777216, .i32⟩ : BufTy).Contents (Elt F) → (⟨S8386560, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (((.of main_v14) : StableHlo.TRef sig ⟨S8386560, .i32⟩) : StableHlo.TRef sig ⟨S8386560, .i32⟩) main_call3.call0.v0 main_call3.call0.v1 (fun x v => Host.reduceWindow IntOp.addi ![8386560] ![1] ![8386559] ![0] x v reduceWindows_S8386560_S8386560_w8386560s1p8386559_0 h_S_),
    StableHlo.nullary main_c_5 (constantI S_ 32 4096#32),
    StableHlo.TRef.unary ((.of main_c_5) : StableHlo.TRef sig ⟨S_, .i32⟩) main_call4.v0 (broadcastInDim S8386560 ![] bcast_S_S8386560),
    StableHlo.TRef.binary ((.of main_v15) : StableHlo.TRef sig ⟨S8386560, .i32⟩) main_call4.v0 main_call4.v1 Host.divsi,
    StableHlo.TRef.unary ((.of main_v15) : StableHlo.TRef sig ⟨S8386560, .i32⟩) main_call4.v2 signi,
    StableHlo.TRef.unary ((.of main_c_5) : StableHlo.TRef sig ⟨S_, .i32⟩) main_call4.v3 signi,
    StableHlo.TRef.unary main_call4.v3 main_call4.v4 (broadcastInDim S8386560 ![] bcast_S_S8386560),
    StableHlo.TRef.binary main_call4.v2 main_call4.v4 main_call4.v5 (cmpi .ne),
    StableHlo.TRef.unary ((.of main_c_5) : StableHlo.TRef sig ⟨S_, .i32⟩) main_call4.v6 (broadcastInDim S8386560 ![] bcast_S_S8386560),
    StableHlo.TRef.binary ((.of main_v15) : StableHlo.TRef sig ⟨S8386560, .i32⟩) main_call4.v6 main_call4.v7 Host.remsi,
    StableHlo.TRef.nullary main_call4.c (constantI S_ 32 0#32),
    StableHlo.TRef.unary main_call4.c main_call4.v8 (broadcastInDim S8386560 ![] bcast_S_S8386560),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S8386560 ![] bcast_S_S8386560),
    StableHlo.TRef.binary main_call4.v1 main_call4.v11 main_call4.v12 subi,
    StableHlo.TRef.ternary (main_call4.v10 : StableHlo.TRef sig ⟨S8386560, .i1⟩) (main_call4.v12 : StableHlo.TRef sig ⟨S8386560, .i32⟩) (main_call4.v1 : StableHlo.TRef sig ⟨S8386560, .i32⟩) main_call4.call0.v0 select,
    StableHlo.nullary main_c_6 (constantI S_ 32 4096#32),
    StableHlo.TRef.unary ((.of main_c_6) : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary (main_call5.v1 : StableHlo.TRef sig ⟨S_, .i1⟩) (main_call5.c_0 : StableHlo.TRef sig ⟨S_, .i32⟩) (main_call5.v0 : StableHlo.TRef sig ⟨S_, .i32⟩) main_call5.call0.v0 select,
    StableHlo.TRef.unary main_call5.call0.v0 main_call5.v3 (broadcastInDim S8386560 ![] bcast_S_S8386560),
    StableHlo.TRef.binary ((.of main_v16) : StableHlo.TRef sig ⟨S8386560, .i32⟩) main_call5.v3 main_call5.v4 Host.remsi,
    StableHlo.TRef.nullary main_call5.c_1 (constantI S_ 32 0#32),
    StableHlo.TRef.unary main_call5.c_1 main_call5.v5 (broadcastInDim S8386560 ![] bcast_S_S8386560),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S8386560 ![] bcast_S_S8386560),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S8386560 ![] bcast_S_S8386560),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S8386560 ![] bcast_S_S8386560),
    StableHlo.TRef.binary main_call5.v4 main_call5.v13 main_call5.v14 addi,
    StableHlo.TRef.ternary main_call5.v12 main_call5.v14 main_call5.v4 main_call5.v15 select,
    StableHlo.nullary main_c_7 (constantI S_ 32 1#32),
    StableHlo.TRef.unary ((.of main_c_7) : StableHlo.TRef sig ⟨S_, .i32⟩) main_call6.v0 (broadcastInDim S8386560 ![] bcast_S_S8386560),
    StableHlo.TRef.binary ((.of main_v15) : StableHlo.TRef sig ⟨S8386560, .i32⟩) main_call6.v0 main_call6.v1 Host.divsi,
    StableHlo.TRef.unary ((.of main_v15) : StableHlo.TRef sig ⟨S8386560, .i32⟩) main_call6.v2 signi,
    StableHlo.TRef.unary ((.of main_c_7) : StableHlo.TRef sig ⟨S_, .i32⟩) main_call6.v3 signi,
    StableHlo.TRef.unary main_call6.v3 main_call6.v4 (broadcastInDim S8386560 ![] bcast_S_S8386560),
    StableHlo.TRef.binary main_call6.v2 main_call6.v4 main_call6.v5 (cmpi .ne),
    StableHlo.TRef.unary ((.of main_c_7) : StableHlo.TRef sig ⟨S_, .i32⟩) main_call6.v6 (broadcastInDim S8386560 ![] bcast_S_S8386560),
    StableHlo.TRef.binary ((.of main_v15) : StableHlo.TRef sig ⟨S8386560, .i32⟩) main_call6.v6 main_call6.v7 Host.remsi,
    StableHlo.TRef.nullary main_call6.c (constantI S_ 32 0#32),
    StableHlo.TRef.unary main_call6.c main_call6.v8 (broadcastInDim S8386560 ![] bcast_S_S8386560),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S8386560 ![] bcast_S_S8386560),
    StableHlo.TRef.binary main_call6.v1 main_call6.v11 main_call6.v12 subi,
    StableHlo.TRef.ternary (main_call6.v10 : StableHlo.TRef sig ⟨S8386560, .i1⟩) (main_call6.v12 : StableHlo.TRef sig ⟨S8386560, .i32⟩) (main_call6.v1 : StableHlo.TRef sig ⟨S8386560, .i32⟩) main_call6.call0.v0 select,
    StableHlo.nullary main_c_8 (constantI S_ 32 4096#32),
    StableHlo.TRef.unary ((.of main_c_8) : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary (main_call7.v1 : StableHlo.TRef sig ⟨S_, .i1⟩) (main_call7.c_0 : StableHlo.TRef sig ⟨S_, .i32⟩) (main_call7.v0 : StableHlo.TRef sig ⟨S_, .i32⟩) main_call7.call0.v0 select,
    StableHlo.TRef.unary main_call7.call0.v0 main_call7.v3 (broadcastInDim S8386560 ![] bcast_S_S8386560),
    StableHlo.TRef.binary ((.of main_v18) : StableHlo.TRef sig ⟨S8386560, .i32⟩) main_call7.v3 main_call7.v4 Host.remsi,
    StableHlo.TRef.nullary main_call7.c_1 (constantI S_ 32 0#32),
    StableHlo.TRef.unary main_call7.c_1 main_call7.v5 (broadcastInDim S8386560 ![] bcast_S_S8386560),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S8386560 ![] bcast_S_S8386560),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S8386560 ![] bcast_S_S8386560),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S8386560 ![] bcast_S_S8386560),
    StableHlo.TRef.binary main_call7.v4 main_call7.v13 main_call7.v14 addi,
    StableHlo.TRef.ternary main_call7.v12 main_call7.v14 main_call7.v4 main_call7.v15 select,
    StableHlo.nullary main_c_9 (constantI S_ 32 0#32),
    StableHlo.unary main_c_9 main_v20 (broadcastInDim S8386560 ![] bcast_S_S8386560 : (⟨S_, .i32⟩ : BufTy).Contents (Elt F) → (⟨S8386560, .i32⟩ : BufTy).Contents (Elt F)),
    StableHlo.binary main_v17 main_v20 main_v21 (cmpi .slt : (⟨S8386560, .i32⟩ : BufTy).Contents (Elt F) → (⟨S8386560, .i32⟩ : BufTy).Contents (Elt F) → (⟨S8386560, .i1⟩ : BufTy).Contents (Elt F)),
    StableHlo.nullary main_c_10 (constantI S_ 32 4096#32),
    StableHlo.unary main_c_10 main_v22 (broadcastInDim S8386560 ![] bcast_S_S8386560 : (⟨S_, .i32⟩ : BufTy).Contents (Elt F) → (⟨S8386560, .i32⟩ : BufTy).Contents (Elt F)),
    StableHlo.binary main_v17 main_v22 main_v23 (addi : (⟨S8386560, .i32⟩ : BufTy).Contents (Elt F) → (⟨S8386560, .i32⟩ : BufTy).Contents (Elt F) → (⟨S8386560, .i32⟩ : BufTy).Contents (Elt F)),
    StableHlo.ternary main_v21 main_v23 main_v17 main_v24 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v24 main_v25 (broadcastInDim S8386560x1 ![0] bcast_S8386560_S8386560x1_0 : (⟨S8386560, .i32⟩ : BufTy).Contents (Elt F) → (⟨S8386560x1, .i32⟩ : BufTy).Contents (Elt F)),
    StableHlo.binary main_arg0 main_v25 main_v26 ((fun x i => Host.gather gather_S2x4096x3_S8386560x1_S2x8386560x3_02_1_n_n_1_1_213 x i) : (⟨S2x4096x3, .f32⟩ : BufTy).Contents (Elt F) → (⟨S8386560x1, .i32⟩ : BufTy).Contents (Elt F) → (⟨S2x8386560x3, .f32⟩ : BufTy).Contents (Elt F)),
    StableHlo.nullary main_c_11 (constantI S_ 32 0#32),
    StableHlo.unary main_c_11 main_v27 (broadcastInDim S8386560 ![] bcast_S_S8386560 : (⟨S_, .i32⟩ : BufTy).Contents (Elt F) → (⟨S8386560, .i32⟩ : BufTy).Contents (Elt F)),
    StableHlo.binary main_v19 main_v27 main_v28 (cmpi .slt : (⟨S8386560, .i32⟩ : BufTy).Contents (Elt F) → (⟨S8386560, .i32⟩ : BufTy).Contents (Elt F) → (⟨S8386560, .i1⟩ : BufTy).Contents (Elt F)),
    StableHlo.nullary main_c_12 (constantI S_ 32 4096#32),
    StableHlo.unary main_c_12 main_v29 (broadcastInDim S8386560 ![] bcast_S_S8386560 : (⟨S_, .i32⟩ : BufTy).Contents (Elt F) → (⟨S8386560, .i32⟩ : BufTy).Contents (Elt F)),
    StableHlo.binary main_v19 main_v29 main_v30 (addi : (⟨S8386560, .i32⟩ : BufTy).Contents (Elt F) → (⟨S8386560, .i32⟩ : BufTy).Contents (Elt F) → (⟨S8386560, .i32⟩ : BufTy).Contents (Elt F)),
    StableHlo.ternary main_v28 main_v30 main_v19 main_v31 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v31 main_v32 (broadcastInDim S8386560x1 ![0] bcast_S8386560_S8386560x1_0 : (⟨S8386560, .i32⟩ : BufTy).Contents (Elt F) → (⟨S8386560x1, .i32⟩ : BufTy).Contents (Elt F)),
    StableHlo.binary main_arg0 main_v32 main_v33 ((fun x i => Host.gather gather_S2x4096x3_S8386560x1_S2x8386560x3_02_1_n_n_1_1_213 x i) : (⟨S2x4096x3, .f32⟩ : BufTy).Contents (Elt F) → (⟨S8386560x1, .i32⟩ : BufTy).Contents (Elt F) → (⟨S2x8386560x3, .f32⟩ : BufTy).Contents (Elt F)),
    StableHlo.binary main_v26 main_v33 main_v34 (subf : (⟨S2x8386560x3, .f32⟩ : BufTy).Contents (Elt F) → (⟨S2x8386560x3, .f32⟩ : BufTy).Contents (Elt F) → (⟨S2x8386560x3, .f32⟩ : BufTy).Contents (Elt F)),
    StableHlo.binary main_v34 main_v34 main_v35 (mulf : (⟨S2x8386560x3, .f32⟩ : BufTy).Contents (Elt F) → (⟨S2x8386560x3, .f32⟩ : BufTy).Contents (Elt F) → (⟨S2x8386560x3, .f32⟩ : BufTy).Contents (Elt F)),
    StableHlo.nullary main_cst_13 (constant S_ .f32 0x00000000#32),
    StableHlo.binary main_v35 main_cst_13 main_v36 ((fun x v => Host.reduceAdd x v reducesTo_S2x8386560x3_S2x8386560_d2 h_S_) : (⟨S2x8386560x3, .f32⟩ : BufTy).Contents (Elt F) → (⟨S_, .f32⟩ : BufTy).Contents (Elt F) → (⟨S2x8386560, .f32⟩ : BufTy).Contents (Elt F)),
    StableHlo.nullary main_cst_14 (constant S_ .f32 0x2EDBE6FF#32),
    StableHlo.unary main_cst_14 main_v37 (broadcastInDim S2x8386560 ![] bcast_S_S2x8386560 : (⟨S_, .f32⟩ : BufTy).Contents (Elt F) → (⟨S2x8386560, .f32⟩ : BufTy).Contents (Elt F)),
    StableHlo.binary main_v36 main_v37 main_v38 (addf : (⟨S2x8386560, .f32⟩ : BufTy).Contents (Elt F) → (⟨S2x8386560, .f32⟩ : BufTy).Contents (Elt F) → (⟨S2x8386560, .f32⟩ : BufTy).Contents (Elt F)),
    StableHlo.unary main_v38 main_v39 (Host.sqrt : (⟨S2x8386560, .f32⟩ : BufTy).Contents (Elt F) → (⟨S2x8386560, .f32⟩ : BufTy).Contents (Elt F)),
    StableHlo.nullary main_c_15 (constantI S_ 32 0#32),
    StableHlo.unary main_c_15 main_v40 (broadcastInDim S8386560 ![] bcast_S_S8386560 : (⟨S_, .i32⟩ : BufTy).Contents (Elt F) → (⟨S8386560, .i32⟩ : BufTy).Contents (Elt F)),
    StableHlo.binary main_v17 main_v40 main_v41 (cmpi .slt : (⟨S8386560, .i32⟩ : BufTy).Contents (Elt F) → (⟨S8386560, .i32⟩ : BufTy).Contents (Elt F) → (⟨S8386560, .i1⟩ : BufTy).Contents (Elt F)) ]

/-- The 41 operations of the main function's window 1, in order. -/
abbrev ops1 : List (HloOp τ sig (Elt F)) :=
  [ StableHlo.nullary main_c_16 (constantI S_ 32 4096#32),
    StableHlo.unary main_c_16 main_v42 (broadcastInDim S8386560 ![] bcast_S_S8386560 : (⟨S_, .i32⟩ : BufTy).Contents (Elt F) → (⟨S8386560, .i32⟩ : BufTy).Contents (Elt F)),
    StableHlo.binary main_v17 main_v42 main_v43 (addi : (⟨S8386560, .i32⟩ : BufTy).Contents (Elt F) → (⟨S8386560, .i32⟩ : BufTy).Contents (Elt F) → (⟨S8386560, .i32⟩ : BufTy).Contents (Elt F)),
    StableHlo.ternary main_v41 main_v43 main_v17 main_v44 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v44 main_v45 (broadcastInDim S8386560x1 ![0] bcast_S8386560_S8386560x1_0 : (⟨S8386560, .i32⟩ : BufTy).Contents (Elt F) → (⟨S8386560x1, .i32⟩ : BufTy).Contents (Elt F)),
    StableHlo.binary main_arg1 main_v45 main_v46 ((fun x i => Host.gather gather_S2x4096_S8386560x1_S2x8386560_0_1_n_n_1_1_21 x i) : (⟨S2x4096, .i1⟩ : BufTy).Contents (Elt F) → (⟨S8386560x1, .i32⟩ : BufTy).Contents (Elt F) → (⟨S2x8386560, .i1⟩ : BufTy).Contents (Elt F)),
    StableHlo.nullary main_c_17 (constantI S_ 32 0#32),
    StableHlo.unary main_c_17 main_v47 (broadcastInDim S8386560 ![] bcast_S_S8386560 : (⟨S_, .i32⟩ : BufTy).Contents (Elt F) → (⟨S8386560, .i32⟩ : BufTy).Contents (Elt F)),
    StableHlo.binary main_v19 main_v47 main_v48 (cmpi .slt : (⟨S8386560, .i32⟩ : BufTy).Contents (Elt F) → (⟨S8386560, .i32⟩ : BufTy).Contents (Elt F) → (⟨S8386560, .i1⟩ : BufTy).Contents (Elt F)),
    StableHlo.nullary main_c_18 (constantI S_ 32 4096#32),
    StableHlo.unary main_c_18 main_v49 (broadcastInDim S8386560 ![] bcast_S_S8386560 : (⟨S_, .i32⟩ : BufTy).Contents (Elt F) → (⟨S8386560, .i32⟩ : BufTy).Contents (Elt F)),
    StableHlo.binary main_v19 main_v49 main_v50 (addi : (⟨S8386560, .i32⟩ : BufTy).Contents (Elt F) → (⟨S8386560, .i32⟩ : BufTy).Contents (Elt F) → (⟨S8386560, .i32⟩ : BufTy).Contents (Elt F)),
    StableHlo.ternary main_v48 main_v50 main_v19 main_v51 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v51 main_v52 (broadcastInDim S8386560x1 ![0] bcast_S8386560_S8386560x1_0 : (⟨S8386560, .i32⟩ : BufTy).Contents (Elt F) → (⟨S8386560x1, .i32⟩ : BufTy).Contents (Elt F)),
    StableHlo.binary main_arg1 main_v52 main_v53 ((fun x i => Host.gather gather_S2x4096_S8386560x1_S2x8386560_0_1_n_n_1_1_21 x i) : (⟨S2x4096, .i1⟩ : BufTy).Contents (Elt F) → (⟨S8386560x1, .i32⟩ : BufTy).Contents (Elt F) → (⟨S2x8386560, .i1⟩ : BufTy).Contents (Elt F)),
    StableHlo.binary main_v46 main_v53 main_v54 (andi : (⟨S2x8386560, .i1⟩ : BufTy).Contents (Elt F) → (⟨S2x8386560, .i1⟩ : BufTy).Contents (Elt F) → (⟨S2x8386560, .i1⟩ : BufTy).Contents (Elt F)),
    StableHlo.unary main_arg2 main_v55 (Host.exp : (⟨S1, .f32⟩ : BufTy).Contents (Elt F) → (⟨S1, .f32⟩ : BufTy).Contents (Elt F)),
    StableHlo.unary main_arg3 main_v56 (Host.negf : (⟨S1, .f32⟩ : BufTy).Contents (Elt F) → (⟨S1, .f32⟩ : BufTy).Contents (Elt F)),
    StableHlo.unary main_v56 main_v57 (Host.exp : (⟨S1, .f32⟩ : BufTy).Contents (Elt F) → (⟨S1, .f32⟩ : BufTy).Contents (Elt F)),
    StableHlo.nullary main_cst_19 (constant S_ .f32 0x3F800000#32),
    StableHlo.unary main_cst_19 main_v58 (broadcastInDim S1 ![] bcast_S_S1 : (⟨S_, .f32⟩ : BufTy).Contents (Elt F) → (⟨S1, .f32⟩ : BufTy).Contents (Elt F)),
    StableHlo.binary main_v58 main_v57 main_v59 (addf : (⟨S1, .f32⟩ : BufTy).Contents (Elt F) → (⟨S1, .f32⟩ : BufTy).Contents (Elt F) → (⟨S1, .f32⟩ : BufTy).Contents (Elt F)),
    StableHlo.nullary main_cst_20 (constant S_ .f32 0x3F800000#32),
    StableHlo.unary main_cst_20 main_v60 (broadcastInDim S1 ![] bcast_S_S1 : (⟨S_, .f32⟩ : BufTy).Contents (Elt F) → (⟨S1, .f32⟩ : BufTy).Contents (Elt F)),
    StableHlo.binary main_v60 main_v59 main_v61 (Host.divf : (⟨S1, .f32⟩ : BufTy).Contents (Elt F) → (⟨S1, .f32⟩ : BufTy).Contents (Elt F) → (⟨S1, .f32⟩ : BufTy).Contents (Elt F)),
    StableHlo.unary main_v55 main_v62 (broadcastInDim S1x1 ![1] bcast_S1_S1x1_1 : (⟨S1, .f32⟩ : BufTy).Contents (Elt F) → (⟨S1x1, .f32⟩ : BufTy).Contents (Elt F)),
    StableHlo.unary main_v62 main_v63 (broadcastInDim S2x8386560 ![0, 1] bcast_S1x1_S2x8386560_0_1 : (⟨S1x1, .f32⟩ : BufTy).Contents (Elt F) → (⟨S2x8386560, .f32⟩ : BufTy).Contents (Elt F)),
    StableHlo.binary main_v63 main_v39 main_v64 (Host.divf : (⟨S2x8386560, .f32⟩ : BufTy).Contents (Elt F) → (⟨S2x8386560, .f32⟩ : BufTy).Contents (Elt F) → (⟨S2x8386560, .f32⟩ : BufTy).Contents (Elt F)),
    StableHlo.nullary main_cst_21 (constant S_ .f32 0x40000000#32),
    StableHlo.unary main_cst_21 main_v65 (broadcastInDim S1 ![] bcast_S_S1 : (⟨S_, .f32⟩ : BufTy).Contents (Elt F) → (⟨S1, .f32⟩ : BufTy).Contents (Elt F)),
    StableHlo.binary main_v65 main_v61 main_v66 (Host.divf : (⟨S1, .f32⟩ : BufTy).Contents (Elt F) → (⟨S1, .f32⟩ : BufTy).Contents (Elt F) → (⟨S1, .f32⟩ : BufTy).Contents (Elt F)),
    StableHlo.unary main_v66 main_v67 (broadcastInDim S1x1 ![1] bcast_S1_S1x1_1 : (⟨S1, .f32⟩ : BufTy).Contents (Elt F) → (⟨S1x1, .f32⟩ : BufTy).Contents (Elt F)),
    StableHlo.unary main_v67 main_v68 (broadcastInDim S2x8386560 ![0, 1] bcast_S1x1_S2x8386560_0_1 : (⟨S1x1, .f32⟩ : BufTy).Contents (Elt F) → (⟨S2x8386560, .f32⟩ : BufTy).Contents (Elt F)),
    StableHlo.binary main_v64 main_v68 main_v69 (Host.powf : (⟨S2x8386560, .f32⟩ : BufTy).Contents (Elt F) → (⟨S2x8386560, .f32⟩ : BufTy).Contents (Elt F) → (⟨S2x8386560, .f32⟩ : BufTy).Contents (Elt F)),
    StableHlo.nullary main_cst_22 (constant S_ .f32 0x00000000#32),
    StableHlo.TRef.unary ((.of main_cst_22) : StableHlo.TRef sig ⟨S_, .f32⟩) main_call8.v0 id,
    StableHlo.TRef.unary main_call8.v0 main_call8.v1 (broadcastInDim S2x8386560 ![] bcast_S_S2x8386560),
    StableHlo.TRef.ternary ((.of main_v54) : StableHlo.TRef sig ⟨S2x8386560, .i1⟩) ((.of main_v69) : StableHlo.TRef sig ⟨S2x8386560, .f32⟩) main_call8.v1 main_call8.v2 select,
    StableHlo.nullary main_cst_23 (constant S_ .f32 0x00000000#32),
    StableHlo.binary main_v70 main_cst_23 main_v71 ((fun x v => Host.reduceAdd x v reducesTo_S2x8386560_S2_d1 h_S_) : (⟨S2x8386560, .f32⟩ : BufTy).Contents (Elt F) → (⟨S_, .f32⟩ : BufTy).Contents (Elt F) → (⟨S2, .f32⟩ : BufTy).Contents (Elt F)),
    StableHlo.unary main_v71 main_v72 (Host.negf : (⟨S2, .f32⟩ : BufTy).Contents (Elt F) → (⟨S2, .f32⟩ : BufTy).Contents (Elt F)) ]

end Cert.ReferenceIdeal.RefRun

end
-- ==== Proof.RefMain.lean ====
/-
  The reference program's main function is a straight line of host operations: its two printed windows are the two
  lists of operations (each called function's operations at the call, over the call's buffers), so the whole function
  is the sequence of their concatenation; every operation touches buffers of the one core only; and so every fair
  execution ends with each buffer at the fold of the operations' results over the contents at launch.
-/
import proofs.«154192_g34583076667753_cont_8to1_b_861_5_alg».proof.Proof.RefOps

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The main function's operations in order: the first window's, then the second's. -/
abbrev ops : List (HloOp τ sig (Elt F)) := ops0 ++ ops1

-- one step of unfolding per statement on either side, the called functions' bodies opened at their calls
set_option maxRecDepth 65536 in
/-- The first window is the sequence of its operations: both sides unfold to the same chain of steps. -/
theorem main_part0_eq (c : Dev nD) : main_part0 (F := F) c = seq ops0 := rfl

set_option maxRecDepth 65536 in
/-- The second window is the sequence of its operations. -/
theorem main_part1_eq (c : Dev nD) : main_part1 (F := F) c = seq ops1 := rfl

/-- The main function is the sequence of all its operations: two sequences run one after the other are the
    sequence of the concatenation. -/
theorem main_eq (c : Dev nD) : main (F := F) c = seq ops := by
  rw [seq_append, ← main_part0_eq c, ← main_part1_eq c]; rfl

theorem scopedRefs_eq : (Finset.univ.filter fun b : Ref sig .tc => b.isScoped) = ∅ := by decide
theorem scopedSems_eq : (Finset.univ.filter fun sm : SemLoc sig => sm.isScoped .tc) = ∅ := by decide

/-- Every operation of the first window touches buffers of the core only. -/
theorem ops0_sub : (ops0 : List (HloOp τ sig (Elt F))).Forall fun op => op.bufs ⊆ tcRefs τ sig := by
  simp only [List.forall_cons, List.Forall, nullary_bufs_sub, unary_bufs_sub, binary_bufs_sub, ternary_bufs_sub,
    reshape_bufs_sub, and_self]

/-- Every operation of the second window touches buffers of the core only. -/
theorem ops1_sub : (ops1 : List (HloOp τ sig (Elt F))).Forall fun op => op.bufs ⊆ tcRefs τ sig := by
  simp only [List.forall_cons, List.Forall, nullary_bufs_sub, unary_bufs_sub, binary_bufs_sub, ternary_bufs_sub,
    reshape_bufs_sub, and_self]

theorem ops_sub : (ops : List (HloOp τ sig (Elt F))).Forall fun op => op.bufs ⊆ tcRefs τ sig :=
  List.forall_append.mpr ⟨ops0_sub, ops1_sub⟩

/-- Every operation of the first window determines what it writes. -/
theorem ops0_fresh : ∀ op ∈ (ops0 : List (HloOp τ sig (Elt F))), op.fresh = ∅ := by
  intro _ h; (repeat (cases h with | head => rfl | tail _ h => ?_)); exact nomatch h

/-- Every operation of the second window determines what it writes. -/
theorem ops1_fresh : ∀ op ∈ (ops1 : List (HloOp τ sig (Elt F))), op.fresh = ∅ := by
  intro _ h; (repeat (cases h with | head => rfl | tail _ h => ?_)); exact nomatch h

/-- From any memory with zero counters every fair execution of the main function terminates, and each buffer of the
    core ends at the fold of the operations' results over the contents at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ op h => (List.mem_append.mp h).elim (ops0_fresh op) (ops1_fresh op))

end Cert.ReferenceIdeal.RefRun

end
-- ==== Proof.RefTerm.lean ====
/-
  The reference program's result as ONE pure term of its four argument arrays: each host operation of its main
  function and of the functions it calls, applied in order, with every intermediate array named.

  The integer part builds the list of index pairs (i, j), i < j < 4096, in row-major order: an upper-triangle flag
  on the 4096 x 4096 grid, its running count, a histogram of the running count, the histogram's running count (the
  position of the q-th set flag), and that position's quotient and remainder by 4096. The float part gathers the two
  points of each pair, takes the distance, raises sigma / r to the power 2 / k where the pair's two mask bits are
  set, sums over the pairs and negates.
-/
import proofs.«154192_g34583076667753_cont_8to1_b_861_5_alg».proof.ReferenceIdeal

noncomputable section

namespace Cert.ReferenceIdeal.RefTerm

open Idealize.ShloMosaic Cert.ReferenceIdeal
open Cert.ReferenceIdeal.Facts₀ Cert.ReferenceIdeal.Facts

variable {F : FTy → Type} [FloatOps F] [Cert.ReferenceIdeal.Facts]

/-- A 32-bit scalar constant spread over the list of pairs. -/
abbrev splatK (w : BitVec 32) : IVec S8386560 32 := broadcastInDim S8386560 ![] bcast_S_S8386560 (constantI S_ 32 w)

/-- A 32-bit scalar constant spread over the flattened grid. -/
abbrev splatT (w : BitVec 32) : IVec S16777216 32 := broadcastInDim S16777216 ![] bcast_S_S16777216 (constantI S_ 32 w)

/-- Zero on and below the diagonal, the argument above it. -/
def triuF (x : FVec F S4096x4096 .f32) : FVec F S4096x4096 .f32 :=
  select (cmpi .sge (addi (iotaInDim S4096x4096 32 0) (broadcastInDim S4096x4096 ![] bcast_S_S4096x4096 (constantI S_ 32 0#32))) (iotaInDim S4096x4096 32 1))
    (broadcastInDim S4096x4096 ![] bcast_S_S4096x4096 (constant (F := F) S_ .f32 0x00000000#32)) x

/-- The flag of the grid cell (i, j): set where the upper triangle of the all-ones matrix is not zero. -/
def flag : IVec S4096x4096 1 :=
  cmpf (F := F) .une (triuF (broadcastInDim S4096x4096 ![] bcast_S_S4096x4096 (constant (F := F) S_ .f32 0x3F800000#32)))
    (broadcastInDim S4096x4096 ![] bcast_S_S4096x4096 (constant (F := F) S_ .f32 0x00000000#32))

/-- The running count of the flags over the flattened grid. -/
def csum : IVec S16777216 32 :=
  Host.reduceWindow IntOp.addi ![16777216] ![1] ![16777215] ![0]
    (extui 32 (shapeCast S16777216 (flag (F := F)) shapeCasts_S4096x4096_S16777216) natLt_1_32)
    (broadcastInDim S_ ![] bcast_S_S_ (constantI S_ 32 0#32)) reduceWindows_S16777216_S16777216_w16777216s1p16777215_0 h_S_

/-- The running count clipped below at zero. -/
def csumClip : IVec S16777216 32 := maxsi (splatT 0#32) (csum (F := F))

/-- The scatter positions: a negative count moved up by the list's length, one position per grid cell. -/
def binPos : IVec S16777216x1 32 :=
  broadcastInDim S16777216x1 ![0] bcast_S16777216_S16777216x1_0
    (select (cmpi .slt (csumClip (F := F)) (splatT 0#32)) (addi (csumClip (F := F)) (splatT 8386560#32)) (csumClip (F := F)))

/-- The histogram of the running count: how many grid cells have running count v, for v below the list's length. -/
def bins : IVec S8386560 32 :=
  Host.scatter scatter_S8386560_S16777216x1_S16777216_n_0_0_1 IntOp.addi (splatK 0#32) (binPos (F := F)) (splatT 1#32)

/-- The running count of the histogram: the flattened position of the q-th set flag. -/
def flat : IVec S8386560 32 :=
  Host.reduceWindow IntOp.addi ![8386560] ![1] ![8386559] ![0] (bins (F := F))
    (broadcastInDim S_ ![] bcast_S_S_ (constantI S_ 32 0#32)) reduceWindows_S8386560_S8386560_w8386560s1p8386559_0 h_S_

/-- Division rounding down, over the list of pairs. -/
def floorDivF (a : IVec S8386560 32) (b : IVec S_ 32) : IVec S8386560 32 :=
  let q : IVec S8386560 32 := Host.divsi a (broadcastInDim S8386560 ![] bcast_S_S8386560 b)
  select
    (andi (cmpi .ne (signi a) (broadcastInDim S8386560 ![] bcast_S_S8386560 (signi b)))
      (cmpi .ne (Host.remsi a (broadcastInDim S8386560 ![] bcast_S_S8386560 b)) (splatK 0#32)))
    (subi q (splatK 1#32)) q

/-- The divisor a remainder is taken by: one in place of zero. -/
def remDiv (b : IVec S_ 32) : IVec S_ 32 := select (cmpi .eq b (constantI S_ 32 0#32)) (constantI S_ 32 1#32) b

/-- The remainder with the divisor's sign, over the list of pairs. -/
def remF (a : IVec S8386560 32) (b : IVec S_ 32) : IVec S8386560 32 :=
  let r : IVec S8386560 32 := Host.remsi a (broadcastInDim S8386560 ![] bcast_S_S8386560 (remDiv b))
  select
    (andi (cmpi .ne (cmpi .slt r (splatK 0#32)) (broadcastInDim S8386560 ![] bcast_S_S8386560 (cmpi .slt (remDiv b) (constantI S_ 32 0#32))))
      (cmpi .ne r (splatK 0#32)))
    (addi r (broadcastInDim S8386560 ![] bcast_S_S8386560 (remDiv b))) r

/-- The first index of each pair, before the wrap of negative indices. -/
def rowRaw : IVec S8386560 32 := remF (floorDivF (flat (F := F)) (constantI S_ 32 4096#32)) (constantI S_ 32 4096#32)

/-- The second index of each pair, before the wrap of negative indices. -/
def colRaw : IVec S8386560 32 := remF (floorDivF (flat (F := F)) (constantI S_ 32 1#32)) (constantI S_ 32 4096#32)

/-- A negative index wrapped by the axis length. -/
def wrap (a : IVec S8386560 32) : IVec S8386560 32 := select (cmpi .slt a (splatK 0#32)) (addi a (splatK 4096#32)) a

/-- The first index of each pair, as the gathers take it. -/
def idxI : IVec S8386560 32 := wrap (rowRaw (F := F))

/-- The second index of each pair, as the gathers take it. -/
def idxJ : IVec S8386560 32 := wrap (colRaw (F := F))

/-- An index list as the one-column index matrix a gather reads. -/
abbrev col1 (a : IVec S8386560 32) : IVec S8386560x1 32 := broadcastInDim S8386560x1 ![0] bcast_S8386560_S8386560x1_0 a

/-- The squared distance of each pair's two points plus the softening term, and its square root. -/
def dist (x : FVec F S2x4096x3 .f32) : FVec F S2x8386560 .f32 :=
  let xi : FVec F S2x8386560x3 .f32 := Host.gather gather_S2x4096x3_S8386560x1_S2x8386560x3_02_1_n_n_1_1_213 x (col1 (idxI (F := F)))
  let xj : FVec F S2x8386560x3 .f32 := Host.gather gather_S2x4096x3_S8386560x1_S2x8386560x3_02_1_n_n_1_1_213 x (col1 (idxJ (F := F)))
  let d : FVec F S2x8386560x3 .f32 := subf xi xj
  Host.sqrt (addf (Host.reduceAdd (mulf d d) (constant (F := F) S_ .f32 0x00000000#32) reducesTo_S2x8386560x3_S2x8386560_d2 h_S_)
    (broadcastInDim S2x8386560 ![] bcast_S_S2x8386560 (constant (F := F) S_ .f32 0x2EDBE6FF#32)))

/-- Both points of the pair carry a set mask bit. -/
def pairMask (mask : IVec S2x4096 1) : IVec S2x8386560 1 :=
  andi (Host.gather gather_S2x4096_S8386560x1_S2x8386560_0_1_n_n_1_1_21 mask (col1 (idxI (F := F))))
    (Host.gather gather_S2x4096_S8386560x1_S2x8386560_0_1_n_n_1_1_21 mask (col1 (idxJ (F := F))))

/-- The logistic function of the raw shape parameter. -/
def kOf (kr : FVec F S1 .f32) : FVec F S1 .f32 :=
  Host.divf (broadcastInDim S1 ![] bcast_S_S1 (constant (F := F) S_ .f32 0x3F800000#32))
    (addf (broadcastInDim S1 ![] bcast_S_S1 (constant (F := F) S_ .f32 0x3F800000#32)) (Host.exp (Host.negf kr)))

/-- A one-element vector spread over the batches and pairs. -/
abbrev spread (v : FVec F S1 .f32) : FVec F S2x8386560 .f32 :=
  broadcastInDim S2x8386560 ![0, 1] bcast_S1x1_S2x8386560_0_1 (broadcastInDim S1x1 ![1] bcast_S1_S1x1_1 v)

/-- The pair potential (sigma / r) ^ (2 / k). -/
def phi (x : FVec F S2x4096x3 .f32) (s kr : FVec F S1 .f32) : FVec F S2x8386560 .f32 :=
  Host.powf (Host.divf (spread (Host.exp s)) (dist x))
    (spread (Host.divf (broadcastInDim S1 ![] bcast_S_S1 (constant (F := F) S_ .f32 0x40000000#32)) (kOf kr)))

/-- The reference's result: minus the sum over the pairs of the masked potential. -/
def out (x : FVec F S2x4096x3 .f32) (mask : IVec S2x4096 1) (s kr : FVec F S1 .f32) : FVec F S2 .f32 :=
  Host.negf (Host.reduceAdd
    (select (pairMask (F := F) mask) (phi x s kr) (broadcastInDim S2x8386560 ![] bcast_S_S2x8386560 (constant (F := F) S_ .f32 0x00000000#32)))
    (constant (F := F) S_ .f32 0x00000000#32) reducesTo_S2x8386560_S2_d1 h_S_)

end Cert.ReferenceIdeal.RefTerm

end
-- ==== Proof.RefOutStageA.lean ====
/-
  The first piece of the reference program's operation list, up to the position list: the upper-triangle flags of
  the grid, their running count, its clip at zero, the scatter positions, the histogram of the running count and
  the histogram's running count. The piece is cut where each of these arrays is complete; each cut leaves in its
  result buffer the named array as a function of the buffer the cut before it completed, a buffer a cut does not
  write keeps its contents through it, and the piece's result is the cuts' results composed.
-/
import proofs.«154192_g34583076667753_cont_8to1_b_861_5_alg».proof.Proof.RefOps
import proofs.«154192_g34583076667753_cont_8to1_b_861_5_alg».proof.Proof.RefTerm
import proofs.«154192_g34583076667753_cont_8to1_b_861_5_alg».proof.Proof.LibNary3
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-! ## The named arrays as functions of the array before them -/

/-- The running count of a flag array over the flattened grid. -/
def csumOf (fl : IVec S4096x4096 1) : IVec S16777216 32 :=
  Host.reduceWindow IntOp.addi ![16777216] ![1] ![16777215] ![0]
    (extui 32 (shapeCast S16777216 fl shapeCasts_S4096x4096_S16777216) natLt_1_32)
    (broadcastInDim S_ ![] bcast_S_S_ (constantI S_ 32 0#32)) reduceWindows_S16777216_S16777216_w16777216s1p16777215_0 h_S_

/-- A running count clipped below at zero. -/
def csumClipOf (cs : IVec S16777216 32) : IVec S16777216 32 := maxsi (RefTerm.splatT 0#32) cs

/-- The scatter positions of a clipped running count. -/
def binPosOf (cc : IVec S16777216 32) : IVec S16777216x1 32 :=
  broadcastInDim S16777216x1 ![0] bcast_S16777216_S16777216x1_0
    (select (cmpi .slt cc (RefTerm.splatT 0#32)) (addi cc (RefTerm.splatT 8386560#32)) cc)

/-- The histogram over given positions, from a given start. -/
def binsOf (z : IVec S8386560 32) (bp : IVec S16777216x1 32) : IVec S8386560 32 :=
  Host.scatter scatter_S8386560_S16777216x1_S16777216_n_0_0_1 IntOp.addi z bp (RefTerm.splatT 1#32)

/-- The running count of a histogram. -/
def flatOf (bn : IVec S8386560 32) : IVec S8386560 32 :=
  Host.reduceWindow IntOp.addi ![8386560] ![1] ![8386559] ![0] bn
    (broadcastInDim S_ ![] bcast_S_S_ (constantI S_ 32 0#32)) reduceWindows_S8386560_S8386560_w8386560s1p8386559_0 h_S_

attribute [local irreducible] Host.reduceWindow Host.scatter Host.gather Host.reduceAdd Host.divsi Host.remsi Host.powf Host.sqrt in
/-- The position list is these functions composed, from the flags. -/
theorem flat_parts : RefTerm.flat (F := F)
    = flatOf (binsOf (RefTerm.splatK 0#32) (binPosOf (csumClipOf (csumOf (RefTerm.flag (F := F)))))) := rfl

/-! ## The cuts -/

/-- Operations 0 to 13: the upper triangle of the all-ones matrix compared with zero. -/
abbrev cutL1 : List (HloOp τ sig (Elt F)) :=
  [ StableHlo.nullary main_cst (constant S_ .f32 0x3F800000#32),
    StableHlo.unary main_cst main_v0 (broadcastInDim S4096x4096 ![] bcast_S_S4096x4096 : (⟨S_, .f32⟩ : BufTy).Contents (Elt F) → (⟨S4096x4096, .f32⟩ : BufTy).Contents (Elt F)),
    StableHlo.TRef.nullary main_call0.v0 (iotaInDim S4096x4096 32 0),
    StableHlo.TRef.nullary main_call0.c (constantI S_ 32 0#32),
    StableHlo.TRef.unary main_call0.c main_call0.v1 (broadcastInDim S4096x4096 ![] bcast_S_S4096x4096),
    StableHlo.TRef.binary main_call0.v0 main_call0.v1 main_call0.v2 addi,
    StableHlo.TRef.nullary main_call0.v3 (iotaInDim S4096x4096 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S4096x4096 ![] bcast_S_S4096x4096),
    StableHlo.TRef.ternary main_call0.v4 main_call0.v5 ((.of main_v0) : StableHlo.TRef sig ⟨S4096x4096, .f32⟩) main_call0.v6 select,
    StableHlo.nullary main_cst_0 (constant S_ .f32 0x00000000#32),
    StableHlo.unary main_cst_0 main_v2 (broadcastInDim S4096x4096 ![] bcast_S_S4096x4096 : (⟨S_, .f32⟩ : BufTy).Contents (Elt F) → (⟨S4096x4096, .f32⟩ : BufTy).Contents (Elt F)),
    StableHlo.binary main_v1 main_v2 main_v3 (cmpf .une : (⟨S4096x4096, .f32⟩ : BufTy).Contents (Elt F) → (⟨S4096x4096, .f32⟩ : BufTy).Contents (Elt F) → (⟨S4096x4096, .i1⟩ : BufTy).Contents (Elt F)) ]

/-- Operations 14 to 18: the flags flattened, widened, and their running count. -/
abbrev cutL2 : List (HloOp τ sig (Elt F)) :=
  [ StableHlo.TRef.reshape ((.of main_v3) : StableHlo.TRef sig ⟨S4096x4096, .i1⟩) main_call1.v0 rfl shapeCasts_S4096x4096_S16777216,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary (main_call1.v1 : StableHlo.TRef sig ⟨S16777216, .i32⟩) main_call1.call0.v0 main_call1.call0.v1 (fun x v => Host.reduceWindow IntOp.addi ![16777216] ![1] ![16777215] ![0] x v reduceWindows_S16777216_S16777216_w16777216s1p16777215_0 h_S_) ]

/-- Operations 19 to 24: the histogram's start, and the running count clipped below at zero. -/
abbrev cutL3 : List (HloOp τ sig (Elt F)) :=
  [ StableHlo.nullary main_c (constantI S_ 32 0#32),
    StableHlo.unary main_c main_v5 (broadcastInDim S8386560 ![] bcast_S_S8386560 : (⟨S_, .i32⟩ : BufTy).Contents (Elt F) → (⟨S8386560, .i32⟩ : BufTy).Contents (Elt F)),
    StableHlo.nullary main_c_1 (constantI S_ 32 0#32),
    StableHlo.TRef.unary ((.of main_c_1) : StableHlo.TRef sig ⟨S_, .i32⟩) main_call2.v0 id,
    StableHlo.TRef.unary main_call2.v0 main_call2.v1 (broadcastInDim S16777216 ![] bcast_S_S16777216),
    StableHlo.TRef.binary main_call2.v1 ((.of main_v4) : StableHlo.TRef sig ⟨S16777216, .i32⟩) main_call2.v2 maxsi ]

/-- Operations 25 to 32: the scatter positions. -/
abbrev cutL4 : List (HloOp τ sig (Elt F)) :=
  [ StableHlo.nullary main_c_2 (constantI S_ 32 0#32),
    StableHlo.unary main_c_2 main_v7 (broadcastInDim S16777216 ![] bcast_S_S16777216 : (⟨S_, .i32⟩ : BufTy).Contents (Elt F) → (⟨S16777216, .i32⟩ : BufTy).Contents (Elt F)),
    StableHlo.binary main_v6 main_v7 main_v8 (cmpi .slt : (⟨S16777216, .i32⟩ : BufTy).Contents (Elt F) → (⟨S16777216, .i32⟩ : BufTy).Contents (Elt F) → (⟨S16777216, .i1⟩ : BufTy).Contents (Elt F)),
    StableHlo.nullary main_c_3 (constantI S_ 32 8386560#32),
    StableHlo.unary main_c_3 main_v9 (broadcastInDim S16777216 ![] bcast_S_S16777216 : (⟨S_, .i32⟩ : BufTy).Contents (Elt F) → (⟨S16777216, .i32⟩ : BufTy).Contents (Elt F)),
    StableHlo.binary main_v6 main_v9 main_v10 (addi : (⟨S16777216, .i32⟩ : BufTy).Contents (Elt F) → (⟨S16777216, .i32⟩ : BufTy).Contents (Elt F) → (⟨S16777216, .i32⟩ : BufTy).Contents (Elt F)),
    StableHlo.ternary main_v8 main_v10 main_v6 main_v11 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v11 main_v12 (broadcastInDim S16777216x1 ![0] bcast_S16777216_S16777216x1_0 : (⟨S16777216, .i32⟩ : BufTy).Contents (Elt F) → (⟨S16777216x1, .i32⟩ : BufTy).Contents (Elt F)) ]

/-- Operations 33 to 35: the histogram. -/
abbrev cutL5 : List (HloOp τ sig (Elt F)) :=
  [ StableHlo.nullary main_c_4 (constantI S_ 32 1#32),
    StableHlo.unary main_c_4 main_v13 (broadcastInDim S16777216 ![] bcast_S_S16777216 : (⟨S_, .i32⟩ : BufTy).Contents (Elt F) → (⟨S16777216, .i32⟩ : BufTy).Contents (Elt F)),
    StableHlo.ternary main_v5 main_v12 main_v13 main_v14 ((fun x i u => Host.scatter scatter_S8386560_S16777216x1_S16777216_n_0_0_1 IntOp.addi x i u) : (⟨S8386560, .i32⟩ : BufTy).Contents (Elt F) → (⟨S16777216x1, .i32⟩ : BufTy).Contents (Elt F) → (⟨S16777216, .i32⟩ : BufTy).Contents (Elt F) → (⟨S8386560, .i32⟩ : BufTy).Contents (Elt F)) ]

/-- Operations 36 to 38: the histogram's running count. -/
abbrev cutL6 : List (HloOp τ sig (Elt F)) :=
  [ StableHlo.TRef.nullary main_call3.call0.c (constantI S_ 32 0#32),
    StableHlo.TRef.unary main_call3.call0.c main_call3.call0.v0 (broadcastInDim S_ ![] bcast_S_S_),
    StableHlo.TRef.binary (((.of main_v14) : StableHlo.TRef sig ⟨S8386560, .i32⟩) : StableHlo.TRef sig ⟨S8386560, .i32⟩) main_call3.call0.v0 main_call3.call0.v1 (fun x v => Host.reduceWindow IntOp.addi ![8386560] ![1] ![8386559] ![0] x v reduceWindows_S8386560_S8386560_w8386560s1p8386559_0 h_S_) ]

/-- The piece is its six cuts in order. -/
theorem take39_split : (ops0.take 39 : List (HloOp τ sig (Elt F)))
    = cutL1 ++ (cutL2 ++ (cutL3 ++ (cutL4 ++ (cutL5 ++ cutL6)))) := rfl

attribute [local irreducible] Host.reduceWindow Host.scatter Host.gather Host.reduceAdd Host.divsi Host.remsi Host.powf Host.sqrt in
theorem cut1 (W : Valuation τ sig (Elt F)) : after (cutL1 (F := F)) W (main_v3 : DevRef τ sig) = RefTerm.flag (F := F) := by
  unfold cutL1
  after_results
  rfl

attribute [local irreducible] Host.reduceWindow Host.scatter Host.gather Host.reduceAdd Host.divsi Host.remsi Host.powf Host.sqrt in
theorem cut2 (W : Valuation τ sig (Elt F)) :
    after (cutL2 (F := F)) W (main_v4 : DevRef τ sig) = csumOf (W (main_v3 : DevRef τ sig)) := by
  unfold cutL2
  after_results
  rfl

attribute [local irreducible] Host.reduceWindow Host.scatter Host.gather Host.reduceAdd Host.divsi Host.remsi Host.powf Host.sqrt in
theorem cut3 (W : Valuation τ sig (Elt F)) :
    after (cutL3 (F := F)) W (main_v6 : DevRef τ sig) = csumClipOf (W (main_v4 : DevRef τ sig)) := by
  unfold cutL3
  after_results
  rfl

attribute [local irreducible] Host.reduceWindow Host.scatter Host.gather Host.reduceAdd Host.divsi Host.remsi Host.powf Host.sqrt in
theorem cut3_v5 (W : Valuation τ sig (Elt F)) :
    after (cutL3 (F := F)) W (main_v5 : DevRef τ sig) = RefTerm.splatK 0#32 := by
  unfold cutL3
  after_results

attribute [local irreducible] Host.reduceWindow Host.scatter Host.gather Host.reduceAdd Host.divsi Host.remsi Host.powf Host.sqrt in
theorem cut4 (W : Valuation τ sig (Elt F)) :
    after (cutL4 (F := F)) W (main_v12 : DevRef τ sig) = binPosOf (W (main_v6 : DevRef τ sig)) := by
  unfold cutL4
  after_results
  rfl

attribute [local irreducible] Host.reduceWindow Host.scatter Host.gather Host.reduceAdd Host.divsi Host.remsi Host.powf Host.sqrt in
theorem cut4_v5 (W : Valuation τ sig (Elt F)) :
    after (cutL4 (F := F)) W (main_v5 : DevRef τ sig) = W (main_v5 : DevRef τ sig) := by
  unfold cutL4
  after_results

attribute [local irreducible] Host.reduceWindow Host.scatter Host.gather Host.reduceAdd Host.divsi Host.remsi Host.powf Host.sqrt in
theorem cut5 (W : Valuation τ sig (Elt F)) :
    after (cutL5 (F := F)) W (main_v14 : DevRef τ sig)
      = binsOf (W (main_v5 : DevRef τ sig)) (W (main_v12 : DevRef τ sig)) := by
  unfold cutL5
  after_results
  rfl

attribute [local irreducible] Host.reduceWindow Host.scatter Host.gather Host.reduceAdd Host.divsi Host.remsi Host.powf Host.sqrt in
theorem cut6 (W : Valuation τ sig (Elt F)) :
    after (cutL6 (F := F)) W (main_v15 : DevRef τ sig) = flatOf (W (main_v14 : DevRef τ sig)) := by
  unfold cutL6
  after_results
  rfl

/-! ## The piece -/

/-- The first 39 operations leave the position list in its buffer, whatever the contents they start from. -/
theorem stage_A_take (W : Valuation τ sig (Elt F)) :
    after (ops0.take 39) W (main_v15 : DevRef τ sig) = RefTerm.flat (F := F) := by
  refine Eq.trans ?_ (flat_parts (F := F)).symm
  rw [take39_split, after_append, after_append, after_append, after_append, after_append,
    cut6, cut5, cut4, cut4_v5, cut3, cut3_v5, cut2, cut1]

end Cert.ReferenceIdeal.RefRun

end
-- ==== Proof.RefOut.lean ====
/-
  What the reference program's operations leave in its result buffer, as the one pure term of the four argument
  arrays. The list of operations is cut where the term's named parts end: the position list, the two quotients, the
  two remainders, the distances, the pair mask, the potential, the masked sum. Each piece leaves in its result buffer
  the named part applied to the contents it started from; a buffer no operation of a piece writes keeps its contents
  through it; the whole list's result is the pieces' results composed.
-/
import proofs.«154192_g34583076667753_cont_8to1_b_861_5_alg».proof.Proof.RefMain
import proofs.«154192_g34583076667753_cont_8to1_b_861_5_alg».proof.Proof.RefTerm
import proofs.«154192_g34583076667753_cont_8to1_b_861_5_alg».proof.Proof.LibNary3
import proofs.«154192_g34583076667753_cont_8to1_b_861_5_alg».proof.Proof.RefOutStageA

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-! ## The term's last parts over given index lists -/

/-- The distances of the pairs' points, from the points and the two index lists before the wrap. -/
def distG (x : FVec F S2x4096x3 .f32) (a b : IVec S8386560 32) : FVec F S2x8386560 .f32 :=
  let xi : FVec F S2x8386560x3 .f32 := Host.gather gather_S2x4096x3_S8386560x1_S2x8386560x3_02_1_n_n_1_1_213 x (RefTerm.col1 (RefTerm.wrap a))
  let xj : FVec F S2x8386560x3 .f32 := Host.gather gather_S2x4096x3_S8386560x1_S2x8386560x3_02_1_n_n_1_1_213 x (RefTerm.col1 (RefTerm.wrap b))
  let d : FVec F S2x8386560x3 .f32 := subf xi xj
  Host.sqrt (addf (Host.reduceAdd (mulf d d) (constant (F := F) S_ .f32 0x00000000#32) reducesTo_S2x8386560x3_S2x8386560_d2 h_S_)
    (broadcastInDim S2x8386560 ![] bcast_S_S2x8386560 (constant (F := F) S_ .f32 0x2EDBE6FF#32)))

/-- Both points of a pair carry a set mask bit, from the mask and the two index lists before the wrap. -/
def pairMaskG (mask : IVec S2x4096 1) (a b : IVec S8386560 32) : IVec S2x8386560 1 :=
  andi (Host.gather gather_S2x4096_S8386560x1_S2x8386560_0_1_n_n_1_1_21 mask (RefTerm.col1 (RefTerm.wrap a)))
    (Host.gather gather_S2x4096_S8386560x1_S2x8386560_0_1_n_n_1_1_21 mask (RefTerm.col1 (RefTerm.wrap b)))

/-- The pair potential from the two parameters and the distances. -/
def phiG (s kr : FVec F S1 .f32) (d : FVec F S2x8386560 .f32) : FVec F S2x8386560 .f32 :=
  Host.powf (Host.divf (RefTerm.spread (Host.exp s)) d)
    (RefTerm.spread (Host.divf (broadcastInDim S1 ![] bcast_S_S1 (constant (F := F) S_ .f32 0x40000000#32)) (RefTerm.kOf kr)))

/-- Minus the sum over the pairs of the potential where the pair mask is set. -/
def outG (pm : IVec S2x8386560 1) (ph : FVec F S2x8386560 .f32) : FVec F S2 .f32 :=
  Host.negf (Host.reduceAdd
    (select pm ph (broadcastInDim S2x8386560 ![] bcast_S_S2x8386560 (constant (F := F) S_ .f32 0x00000000#32)))
    (constant (F := F) S_ .f32 0x00000000#32) reducesTo_S2x8386560_S2_d1 h_S_)

/-- The whole term is these parts at the two index lists it names. -/
theorem out_parts (x : FVec F S2x4096x3 .f32) (mask : IVec S2x4096 1) (s kr : FVec F S1 .f32) :
    RefTerm.out x mask s kr
      = outG (pairMaskG mask (RefTerm.rowRaw (F := F)) (RefTerm.colRaw (F := F)))
          (phiG s kr (distG x (RefTerm.rowRaw (F := F)) (RefTerm.colRaw (F := F)))) := rfl

/-! ## The pieces of the list -/

/-- Up to the position list: the flags, their running count, its clip, the histogram and its running count. -/
def sA : List (HloOp τ sig (Elt F)) := ops0.take 39
/-- The quotient of the positions by the row length. -/
def sB : List (HloOp τ sig (Elt F)) := (ops0.drop 39).take 17
/-- Its remainder by the row length: the first index. -/
def sC : List (HloOp τ sig (Elt F)) := (ops0.drop 56).take 22
/-- The quotient of the positions by one. -/
def sD : List (HloOp τ sig (Elt F)) := (ops0.drop 78).take 17
/-- Its remainder by the row length: the second index. -/
def sE : List (HloOp τ sig (Elt F)) := (ops0.drop 95).take 22
/-- The two wraps, the two gathers of the points, and the distance. -/
def sF : List (HloOp τ sig (Elt F)) := (ops0.drop 117).take 26
/-- The two wraps and the two gathers of the mask, and their conjunction. -/
def sG : List (HloOp τ sig (Elt F)) := ops0.drop 143 ++ ops1.take 16
/-- The potential. -/
def sH : List (HloOp τ sig (Elt F)) := (ops1.drop 16).take 18
/-- The masked sum and its negation. -/
def sI : List (HloOp τ sig (Elt F)) := ops1.drop 34

/-- The list is its pieces in order. -/
theorem ops_split : (ops : List (HloOp τ sig (Elt F)))
    = sA ++ (sB ++ (sC ++ (sD ++ (sE ++ (sF ++ (sG ++ (sH ++ sI))))))) := rfl

/-! ## What each piece leaves in its result buffer

Each equation is the fold of a short list read at one buffer: every operation's result decides whether the buffer
read is the one it writes, and the references' casts are the identity at these literal references, so both sides
are the same term once the fold is unrolled. The array-sized host functions stay folded: the equation never looks
inside them. -/

/-- The first piece leaves the position list: proved piece by smaller piece in its own module. -/
theorem stage_A (W : Valuation τ sig (Elt F)) : after sA W (main_v15 : DevRef τ sig) = RefTerm.flat (F := F) := stage_A_take W

attribute [local irreducible] Host.reduceWindow Host.scatter Host.gather Host.reduceAdd Host.divsi Host.remsi Host.powf Host.sqrt in
set_option maxHeartbeats 1600000 in  -- two unrolled folds compared: past the default budget
theorem stage_B (W : Valuation τ sig (Elt F)) : after sB W (main_v16 : DevRef τ sig) = RefTerm.floorDivF (W (main_v15 : DevRef τ sig)) (constantI S_ 32 4096#32) := rfl

attribute [local irreducible] Host.reduceWindow Host.scatter Host.gather Host.reduceAdd Host.divsi Host.remsi Host.powf Host.sqrt in
set_option maxHeartbeats 1600000 in  -- two unrolled folds compared: past the default budget
theorem stage_C (W : Valuation τ sig (Elt F)) : after sC W (main_v17 : DevRef τ sig) = RefTerm.remF (W (main_v16 : DevRef τ sig)) (constantI S_ 32 4096#32) := rfl

attribute [local irreducible] Host.reduceWindow Host.scatter Host.gather Host.reduceAdd Host.divsi Host.remsi Host.powf Host.sqrt in
set_option maxHeartbeats 1600000 in  -- two unrolled folds compared: past the default budget
theorem stage_D (W : Valuation τ sig (Elt F)) : after sD W (main_v18 : DevRef τ sig) = RefTerm.floorDivF (W (main_v15 : DevRef τ sig)) (constantI S_ 32 1#32) := rfl

attribute [local irreducible] Host.reduceWindow Host.scatter Host.gather Host.reduceAdd Host.divsi Host.remsi Host.powf Host.sqrt in
set_option maxHeartbeats 1600000 in  -- two unrolled folds compared: past the default budget
theorem stage_E (W : Valuation τ sig (Elt F)) : after sE W (main_v19 : DevRef τ sig) = RefTerm.remF (W (main_v18 : DevRef τ sig)) (constantI S_ 32 4096#32) := rfl

attribute [local irreducible] Host.reduceWindow Host.scatter Host.gather Host.reduceAdd Host.divsi Host.remsi Host.powf Host.sqrt in
set_option maxHeartbeats 1600000 in  -- two unrolled folds compared: past the default budget
theorem stage_F (W : Valuation τ sig (Elt F)) : after sF W (main_v39 : DevRef τ sig) = distG (W (main_arg0 : DevRef τ sig)) (W (main_v17 : DevRef τ sig)) (W (main_v19 : DevRef τ sig)) := rfl

attribute [local irreducible] Host.reduceWindow Host.scatter Host.gather Host.reduceAdd Host.divsi Host.remsi Host.powf Host.sqrt in
set_option maxHeartbeats 1600000 in  -- two unrolled folds compared: past the default budget
theorem stage_G (W : Valuation τ sig (Elt F)) : after sG W (main_v54 : DevRef τ sig) = pairMaskG (W (main_arg1 : DevRef τ sig)) (W (main_v17 : DevRef τ sig)) (W (main_v19 : DevRef τ sig)) := rfl

attribute [local irreducible] Host.reduceWindow Host.scatter Host.gather Host.reduceAdd Host.divsi Host.remsi Host.powf Host.sqrt in
set_option maxHeartbeats 1600000 in  -- two unrolled folds compared: past the default budget
theorem stage_H (W : Valuation τ sig (Elt F)) : after sH W (main_v69 : DevRef τ sig) = phiG (W (main_arg2 : DevRef τ sig)) (W (main_arg3 : DevRef τ sig)) (W (main_v39 : DevRef τ sig)) := rfl

attribute [local irreducible] Host.reduceWindow Host.scatter Host.gather Host.reduceAdd Host.divsi Host.remsi Host.powf Host.sqrt in
set_option maxHeartbeats 1600000 in  -- two unrolled folds compared: past the default budget
theorem stage_I (W : Valuation τ sig (Elt F)) : after sI W (main_v72 : DevRef τ sig) = outG (W (main_v54 : DevRef τ sig)) (W (main_v69 : DevRef τ sig)) := rfl

/-! ## What each piece leaves alone: no operation of the piece writes the buffer -/

theorem keepA_arg0 (W : Valuation τ sig (Elt F)) : after sA W (main_arg0 : DevRef τ sig) = W (main_arg0 : DevRef τ sig) := rfl
theorem keepA_arg1 (W : Valuation τ sig (Elt F)) : after sA W (main_arg1 : DevRef τ sig) = W (main_arg1 : DevRef τ sig) := rfl
theorem keepA_arg2 (W : Valuation τ sig (Elt F)) : after sA W (main_arg2 : DevRef τ sig) = W (main_arg2 : DevRef τ sig) := rfl
theorem keepA_arg3 (W : Valuation τ sig (Elt F)) : after sA W (main_arg3 : DevRef τ sig) = W (main_arg3 : DevRef τ sig) := rfl

theorem keepB_v15 (W : Valuation τ sig (Elt F)) : after sB W (main_v15 : DevRef τ sig) = W (main_v15 : DevRef τ sig) := rfl
theorem keepB_arg0 (W : Valuation τ sig (Elt F)) : after sB W (main_arg0 : DevRef τ sig) = W (main_arg0 : DevRef τ sig) := rfl
theorem keepB_arg1 (W : Valuation τ sig (Elt F)) : after sB W (main_arg1 : DevRef τ sig) = W (main_arg1 : DevRef τ sig) := rfl
theorem keepB_arg2 (W : Valuation τ sig (Elt F)) : after sB W (main_arg2 : DevRef τ sig) = W (main_arg2 : DevRef τ sig) := rfl
theorem keepB_arg3 (W : Valuation τ sig (Elt F)) : after sB W (main_arg3 : DevRef τ sig) = W (main_arg3 : DevRef τ sig) := rfl

theorem keepC_v15 (W : Valuation τ sig (Elt F)) : after sC W (main_v15 : DevRef τ sig) = W (main_v15 : DevRef τ sig) := rfl
theorem keepC_arg0 (W : Valuation τ sig (Elt F)) : after sC W (main_arg0 : DevRef τ sig) = W (main_arg0 : DevRef τ sig) := rfl
theorem keepC_arg1 (W : Valuation τ sig (Elt F)) : after sC W (main_arg1 : DevRef τ sig) = W (main_arg1 : DevRef τ sig) := rfl
theorem keepC_arg2 (W : Valuation τ sig (Elt F)) : after sC W (main_arg2 : DevRef τ sig) = W (main_arg2 : DevRef τ sig) := rfl
theorem keepC_arg3 (W : Valuation τ sig (Elt F)) : after sC W (main_arg3 : DevRef τ sig) = W (main_arg3 : DevRef τ sig) := rfl

theorem keepD_v17 (W : Valuation τ sig (Elt F)) : after sD W (main_v17 : DevRef τ sig) = W (main_v17 : DevRef τ sig) := rfl
theorem keepD_arg0 (W : Valuation τ sig (Elt F)) : after sD W (main_arg0 : DevRef τ sig) = W (main_arg0 : DevRef τ sig) := rfl
theorem keepD_arg1 (W : Valuation τ sig (Elt F)) : after sD W (main_arg1 : DevRef τ sig) = W (main_arg1 : DevRef τ sig) := rfl
theorem keepD_arg2 (W : Valuation τ sig (Elt F)) : after sD W (main_arg2 : DevRef τ sig) = W (main_arg2 : DevRef τ sig) := rfl
theorem keepD_arg3 (W : Valuation τ sig (Elt F)) : after sD W (main_arg3 : DevRef τ sig) = W (main_arg3 : DevRef τ sig) := rfl

theorem keepE_v17 (W : Valuation τ sig (Elt F)) : after sE W (main_v17 : DevRef τ sig) = W (main_v17 : DevRef τ sig) := rfl
theorem keepE_arg0 (W : Valuation τ sig (Elt F)) : after sE W (main_arg0 : DevRef τ sig) = W (main_arg0 : DevRef τ sig) := rfl
theorem keepE_arg1 (W : Valuation τ sig (Elt F)) : after sE W (main_arg1 : DevRef τ sig) = W (main_arg1 : DevRef τ sig) := rfl
theorem keepE_arg2 (W : Valuation τ sig (Elt F)) : after sE W (main_arg2 : DevRef τ sig) = W (main_arg2 : DevRef τ sig) := rfl
theorem keepE_arg3 (W : Valuation τ sig (Elt F)) : after sE W (main_arg3 : DevRef τ sig) = W (main_arg3 : DevRef τ sig) := rfl

theorem keepF_v17 (W : Valuation τ sig (Elt F)) : after sF W (main_v17 : DevRef τ sig) = W (main_v17 : DevRef τ sig) := rfl
theorem keepF_v19 (W : Valuation τ sig (Elt F)) : after sF W (main_v19 : DevRef τ sig) = W (main_v19 : DevRef τ sig) := rfl
theorem keepF_arg0 (W : Valuation τ sig (Elt F)) : after sF W (main_arg0 : DevRef τ sig) = W (main_arg0 : DevRef τ sig) := rfl
theorem keepF_arg1 (W : Valuation τ sig (Elt F)) : after sF W (main_arg1 : DevRef τ sig) = W (main_arg1 : DevRef τ sig) := rfl
theorem keepF_arg2 (W : Valuation τ sig (Elt F)) : after sF W (main_arg2 : DevRef τ sig) = W (main_arg2 : DevRef τ sig) := rfl
theorem keepF_arg3 (W : Valuation τ sig (Elt F)) : after sF W (main_arg3 : DevRef τ sig) = W (main_arg3 : DevRef τ sig) := rfl

theorem keepG_v39 (W : Valuation τ sig (Elt F)) : after sG W (main_v39 : DevRef τ sig) = W (main_v39 : DevRef τ sig) := rfl
theorem keepG_arg0 (W : Valuation τ sig (Elt F)) : after sG W (main_arg0 : DevRef τ sig) = W (main_arg0 : DevRef τ sig) := rfl
theorem keepG_arg1 (W : Valuation τ sig (Elt F)) : after sG W (main_arg1 : DevRef τ sig) = W (main_arg1 : DevRef τ sig) := rfl
theorem keepG_arg2 (W : Valuation τ sig (Elt F)) : after sG W (main_arg2 : DevRef τ sig) = W (main_arg2 : DevRef τ sig) := rfl
theorem keepG_arg3 (W : Valuation τ sig (Elt F)) : after sG W (main_arg3 : DevRef τ sig) = W (main_arg3 : DevRef τ sig) := rfl

theorem keepH_v54 (W : Valuation τ sig (Elt F)) : after sH W (main_v54 : DevRef τ sig) = W (main_v54 : DevRef τ sig) := rfl
theorem keepH_arg0 (W : Valuation τ sig (Elt F)) : after sH W (main_arg0 : DevRef τ sig) = W (main_arg0 : DevRef τ sig) := rfl
theorem keepH_arg1 (W : Valuation τ sig (Elt F)) : after sH W (main_arg1 : DevRef τ sig) = W (main_arg1 : DevRef τ sig) := rfl
theorem keepH_arg2 (W : Valuation τ sig (Elt F)) : after sH W (main_arg2 : DevRef τ sig) = W (main_arg2 : DevRef τ sig) := rfl
theorem keepH_arg3 (W : Valuation τ sig (Elt F)) : after sH W (main_arg3 : DevRef τ sig) = W (main_arg3 : DevRef τ sig) := rfl

theorem keepI_arg0 (W : Valuation τ sig (Elt F)) : after sI W (main_arg0 : DevRef τ sig) = W (main_arg0 : DevRef τ sig) := rfl
theorem keepI_arg1 (W : Valuation τ sig (Elt F)) : after sI W (main_arg1 : DevRef τ sig) = W (main_arg1 : DevRef τ sig) := rfl
theorem keepI_arg2 (W : Valuation τ sig (Elt F)) : after sI W (main_arg2 : DevRef τ sig) = W (main_arg2 : DevRef τ sig) := rfl
theorem keepI_arg3 (W : Valuation τ sig (Elt F)) : after sI W (main_arg3 : DevRef τ sig) = W (main_arg3 : DevRef τ sig) := rfl

/-! ## The whole list -/

attribute [local irreducible] Host.reduceWindow Host.scatter Host.gather Host.reduceAdd Host.divsi Host.remsi Host.powf Host.sqrt in
/-- The result buffer after the whole list holds the reference's term of the four argument arrays: the pieces'
    results composed from the last piece back, each buffer read carried unchanged through the pieces that do not
    write it, down to the contents the list started from. -/
theorem out_eq (V : Valuation τ sig (Elt F)) :
    after ops V (main_v72 : DevRef τ sig)
      = RefTerm.out (V (main_arg0 : DevRef τ sig)) (V (main_arg1 : DevRef τ sig)) (V (main_arg2 : DevRef τ sig))
          (V (main_arg3 : DevRef τ sig)) := by
  rw [ops_split, out_parts]
  simp only [after_append]
  -- the masked sum, of the pair mask and the potential
  rw [stage_I, stage_H, keepH_v54, stage_G, keepG_arg2, keepG_arg3, keepG_v39]
  -- the distances, of the points and the two index lists
  rw [stage_F, keepF_arg1, keepF_arg2, keepF_arg3, keepF_v17, keepF_v19]
  -- the second index list: the remainder of the quotient by one
  rw [stage_E, keepE_v17, keepE_arg0, keepE_arg1, keepE_arg2, keepE_arg3]
  rw [stage_D, keepD_v17, keepD_arg0, keepD_arg1, keepD_arg2, keepD_arg3]
  -- the first index list: the remainder of the quotient by the row length
  rw [stage_C, keepC_v15, keepC_arg0, keepC_arg1, keepC_arg2, keepC_arg3]
  rw [stage_B, keepB_v15, keepB_arg0, keepB_arg1, keepB_arg2, keepB_arg3]
  -- the position list
  rw [stage_A, keepA_arg0, keepA_arg1, keepA_arg2, keepA_arg3]
  rfl

/-- No operation writes an argument's buffer. -/
theorem arg0_eq (V : Valuation τ sig (Elt F)) :
    after ops V (main_arg0 : DevRef τ sig) = V (main_arg0 : DevRef τ sig) := by
  rw [ops_split]; simp only [after_append]
  rw [keepI_arg0, keepH_arg0, keepG_arg0, keepF_arg0, keepE_arg0, keepD_arg0, keepC_arg0, keepB_arg0, keepA_arg0]

theorem arg1_eq (V : Valuation τ sig (Elt F)) :
    after ops V (main_arg1 : DevRef τ sig) = V (main_arg1 : DevRef τ sig) := by
  rw [ops_split]; simp only [after_append]
  rw [keepI_arg1, keepH_arg1, keepG_arg1, keepF_arg1, keepE_arg1, keepD_arg1, keepC_arg1, keepB_arg1, keepA_arg1]

theorem arg2_eq (V : Valuation τ sig (Elt F)) :
    after ops V (main_arg2 : DevRef τ sig) = V (main_arg2 : DevRef τ sig) := by
  rw [ops_split]; simp only [after_append]
  rw [keepI_arg2, keepH_arg2, keepG_arg2, keepF_arg2, keepE_arg2, keepD_arg2, keepC_arg2, keepB_arg2, keepA_arg2]

theorem arg3_eq (V : Valuation τ sig (Elt F)) :
    after ops V (main_arg3 : DevRef τ sig) = V (main_arg3 : DevRef τ sig) := by
  rw [ops_split]; simp only [after_append]
  rw [keepI_arg3, keepH_arg3, keepG_arg3, keepF_arg3, keepE_arg3, keepD_arg3, keepC_arg3, keepB_arg3, keepA_arg3]

end Cert.ReferenceIdeal.RefRun

end
-- ==== Proof.RefRun.lean ====
/-
  The reference program's run: from any memory with zero counters every fair execution of its main function
  terminates; the result buffer then holds the reference's term of the four argument arrays as they were at launch,
  and the four argument buffers hold what they held.
-/
import proofs.«154192_g34583076667753_cont_8to1_b_861_5_alg».proof.Proof.RefMain
import proofs.«154192_g34583076667753_cont_8to1_b_861_5_alg».proof.Proof.RefOut

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- On every device, for any float values, from any memory with zero counters: every weakly fair execution of the
    main function terminates with the result at the reference's term of the arguments' launch contents and the
    arguments unchanged: the fold of the operations read at the result buffer and at each argument's. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72) = RefTerm.out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v72).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_main m ρ)

end Cert.ReferenceIdeal.RefRun

end
-- ==== Proof.DivRemWords.lean ====
/-
  Signed 32-bit division, remainder and index wrap on numbers that are nonnegative and small.

  The reference turns a flattened grid position p (a natural number below 2^31, held in a 32-bit word) into its row
  p / 4096 and column p % 4096 with signed word operations: a division rounding down (the signed quotient, less one when
  the operands' signs differ and the remainder is not zero), a remainder taking the divisor's sign (the signed remainder,
  plus the divisor when their signs differ and it is not zero), and a wrap of negative indices by the axis length. On a
  nonnegative dividend below 2^31 and a positive divisor below 2^31 none of the corrections fires: the signed quotient
  and remainder are the natural numbers' n / d and n % d, the sign words agree unless n = 0 (and then the remainder is
  zero), and nothing is negative. Each array statement is its one-word statement read at an index.
-/
import proofs.«154192_g34583076667753_cont_8to1_b_861_5_alg».proof.Proof.RefTerm
import Idealize.ShloMosaic.Lib.Affine
import Idealize.ShloMosaic.Lib.ValueIdx
import Idealize.ShloMosaic.Lib.WordArith

namespace Cert.ReferenceIdeal.DivRemWords

open Idealize.ShloMosaic Cert.ReferenceIdeal
open Cert.ReferenceIdeal.Facts₀ Cert.ReferenceIdeal.Facts

/-! ## Words below 2^31 -/

/-- A number below 2^31 is the natural value of its word. -/
theorem toNat_ofNat_small (n : ℕ) (hn : n < 2 ^ 31) : (BitVec.ofNat 32 n).toNat = n := by
  rw [BitVec.toNat_ofNat]; exact Nat.mod_eq_of_lt (by omega)

/-- The word of a number below 2^31 has its top bit clear. -/
theorem msb_ofNat_small (n : ℕ) (hn : n < 2 ^ 31) : (BitVec.ofNat 32 n).msb = false := by
  rw [BitVec.msb_eq_false_iff_two_mul_lt, toNat_ofNat_small n hn]; omega

/-- The word of a positive number below 2^31 is not zero. -/
theorem ofNat_ne_zero (d : ℕ) (hd : 0 < d) (hd' : d < 2 ^ 31) : BitVec.ofNat 32 d ≠ 0 := by
  intro h
  have := congrArg BitVec.toNat h
  rw [toNat_ofNat_small d hd'] at this
  simp at this
  omega

/-- The word of a positive number below 2^31 reads signed as a positive integer. -/
theorem toInt_ofNat_pos (d : ℕ) (hd : 0 < d) (hd' : d < 2 ^ 31) : 0 < (BitVec.ofNat 32 d).toInt := by
  rw [WordArith.toInt_ofNat_small d hd']; exact_mod_cast hd

/-- The signed quotient of a word below 2^31 by a positive word below 2^31 is the quotient of the numbers. -/
theorem divsi_ofNat (u : ArithUnit) (n d : ℕ) (hn : n < 2 ^ 31) (hd : 0 < d) (hd' : d < 2 ^ 31) :
    IntOp.divsi u (BitVec.ofNat 32 n) (BitVec.ofNat 32 d) = BitVec.ofNat 32 (n / d) := by
  unfold IntOp.divsi
  rw [if_neg (IntOp.not_corner_of_pos (toInt_ofNat_pos d hd hd')), BitVec.sdiv_eq, msb_ofNat_small n hn, msb_ofNat_small d hd']
  show BitVec.udiv _ _ = _
  apply BitVec.eq_of_toNat_eq
  have hq : n / d < 2 ^ 31 := lt_of_le_of_lt (Nat.div_le_self n d) hn
  rw [BitVec.udiv_eq, BitVec.toNat_udiv, toNat_ofNat_small n hn, toNat_ofNat_small d hd', toNat_ofNat_small _ hq]

/-- The signed remainder of a word below 2^31 by a positive word below 2^31 is the remainder of the numbers. -/
theorem remsi_ofNat (u : ArithUnit) (n d : ℕ) (hn : n < 2 ^ 31) (hd : 0 < d) (hd' : d < 2 ^ 31) :
    IntOp.remsi u (BitVec.ofNat 32 n) (BitVec.ofNat 32 d) = BitVec.ofNat 32 (n % d) := by
  apply BitVec.eq_of_toNat_eq
  have hq : n % d < 2 ^ 31 := lt_of_le_of_lt (Nat.mod_le n d) hn
  rw [IntOp.toNat_remsi u (by rw [toNat_ofNat_small n hn]; omega) d hd (by omega), toNat_ofNat_small n hn, toNat_ofNat_small _ hq]

/-- The sign word of a word below 2^31: zero for zero, one otherwise. -/
theorem sign_ofNat (n : ℕ) (hn : n < 2 ^ 31) :
    (if BitVec.ofNat 32 n = 0 then (0 : BitVec 32) else if (BitVec.ofNat 32 n).msb then -1 else 1) = if n = 0 then 0 else 1 := by
  by_cases h0 : n = 0
  · subst h0; rfl
  · rw [if_neg (ofNat_ne_zero n (by omega) hn), msb_ofNat_small n hn, if_neg h0]; rfl

/-- A word below 2^31 does not test negative. -/
theorem slt_zero_ofNat (m : ℕ) (hm : m < 2 ^ 31) : IntOp.cmpi .slt (BitVec.ofNat 32 m) 0#32 = 0#1 := by
  apply ValueIdx.eq_zero_of_ne_one
  rw [IntOp.cmpi_slt, WordArith.toInt_ofNat_small m hm, show (0#32 : BitVec 32).toInt = 0 from by decide]
  omega

/-! ## The three corrections, on one word -/

/-- Division rounding down: of a number below 2^31 by a positive number below 2^31 the signed quotient is already the
rounded-down quotient, because the two signs differ only when the dividend is zero, and then the remainder is zero. -/
theorem floorDiv_word (x : BitVec 32) (d n : ℕ) (hd : 0 < d) (hd' : d < 2 ^ 31) (hn : n < 2 ^ 31) (hx : x = BitVec.ofNat 32 n) :
    Scalar.select
      (IntOp.andi
        (IntOp.cmpi .ne (if x = 0 then (0 : BitVec 32) else if x.msb then -1 else 1)
          (if BitVec.ofNat 32 d = 0 then (0 : BitVec 32) else if (BitVec.ofNat 32 d).msb then -1 else 1))
        (IntOp.cmpi .ne (IntOp.remsi .host x (BitVec.ofNat 32 d)) 0#32))
      (IntOp.subi (IntOp.divsi .host x (BitVec.ofNat 32 d)) 1#32) (IntOp.divsi .host x (BitVec.ofNat 32 d))
      = BitVec.ofNat 32 (n / d) := by
  subst hx
  rw [sign_ofNat n hn, sign_ofNat d hd', if_neg (by omega : ¬ d = 0), remsi_ofNat .host n d hn hd hd', divsi_ofNat .host n d hn hd hd']
  by_cases h0 : n = 0
  · subst h0
    rw [Nat.zero_mod]
    exact if_neg (by decide)
  · rw [if_neg h0]
    have h1 : IntOp.cmpi .ne (1 : BitVec 32) 1 = 0#1 := by decide
    rw [h1]
    unfold Scalar.select IntOp.andi
    rw [BitVec.zero_and]
    exact if_neg (by decide)

/-- The remainder with the divisor's sign, by 4096: of a number below 2^31 the signed remainder n % 4096 is not negative
and neither is the divisor, so nothing is added. The divisor enters as any word equal to 4096. -/
theorem rem_word (x D : BitVec 32) (n : ℕ) (hn : n < 2 ^ 31) (hx : x = BitVec.ofNat 32 n) (hD : D = BitVec.ofNat 32 4096) :
    Scalar.select
      (IntOp.andi (IntOp.cmpi .ne (IntOp.cmpi .slt (IntOp.remsi .host x D) 0#32) (IntOp.cmpi .slt D 0#32))
        (IntOp.cmpi .ne (IntOp.remsi .host x D) 0#32))
      (IntOp.addi (IntOp.remsi .host x D) D) (IntOp.remsi .host x D)
      = BitVec.ofNat 32 (n % 4096) := by
  subst hx hD
  have hr : n % 4096 < 2 ^ 31 := lt_of_le_of_lt (Nat.mod_le n 4096) hn
  rw [remsi_ofNat .host n 4096 hn (by omega) (by omega), slt_zero_ofNat _ hr, slt_zero_ofNat 4096 (by omega)]
  have h1 : IntOp.cmpi .ne (0#1 : BitVec 1) 0#1 = 0#1 := by decide
  rw [h1]
  unfold Scalar.select IntOp.andi
  rw [BitVec.zero_and]
  exact if_neg (by decide)

/-- The wrap of a negative index: a number below 2^31 is not negative and stays. -/
theorem wrap_word (x : BitVec 32) (n : ℕ) (hn : n < 2 ^ 31) (hx : x = BitVec.ofNat 32 n) :
    Scalar.select (IntOp.cmpi .slt x 0#32) (IntOp.addi x 4096#32) x = BitVec.ofNat 32 n := by
  subst hx
  rw [slt_zero_ofNat n hn]
  exact if_neg (by decide)

/-! ## The same, read at an index of the list of pairs -/

variable [Cert.ReferenceIdeal.Facts]

/-- Division rounding down of a list whose q-th word is a number n below 2^31, by a positive constant d below 2^31:
the q-th word of the result is n / d. -/
theorem floorDivF_apply (a : IVec S8386560 32) (d : ℕ) (hd : 0 < d) (hd' : d < 2 ^ 31) (q : Fin 8386560) (n : ℕ) (hn : n < 2 ^ 31)
    (ha : a (ValueIdx.ix1 q) = BitVec.ofNat 32 n) :
    RefTerm.floorDivF a (constantI S_ 32 (BitVec.ofNat 32 d)) (ValueIdx.ix1 q) = BitVec.ofNat 32 (n / d) :=
  floorDiv_word (a (ValueIdx.ix1 q)) d n hd hd' hn ha

/-- The instance at the divisor 4096. -/
theorem floorDivF_4096_apply (a : IVec S8386560 32) (q : Fin 8386560) (n : ℕ) (hn : n < 2 ^ 31)
    (ha : a (ValueIdx.ix1 q) = BitVec.ofNat 32 n) :
    RefTerm.floorDivF a (constantI S_ 32 4096#32) (ValueIdx.ix1 q) = BitVec.ofNat 32 (n / 4096) :=
  floorDivF_apply a 4096 (by omega) (by omega) q n hn ha

/-- The instance at the divisor one: the word itself. -/
theorem floorDivF_1_apply (a : IVec S8386560 32) (q : Fin 8386560) (n : ℕ) (hn : n < 2 ^ 31)
    (ha : a (ValueIdx.ix1 q) = BitVec.ofNat 32 n) :
    RefTerm.floorDivF a (constantI S_ 32 1#32) (ValueIdx.ix1 q) = BitVec.ofNat 32 n := by
  have h := floorDivF_apply a 1 (by omega) (by omega) q n hn ha
  rwa [Nat.div_one] at h

/-- The remainder by 4096 of a list whose q-th word is a number n below 2^31: the q-th word of the result is n % 4096.
(The divisor the remainder is taken by is 4096 itself, since 4096 is not zero.) -/
theorem remF_4096_apply (a : IVec S8386560 32) (q : Fin 8386560) (n : ℕ) (hn : n < 2 ^ 31)
    (ha : a (ValueIdx.ix1 q) = BitVec.ofNat 32 n) :
    RefTerm.remF a (constantI S_ 32 4096#32) (ValueIdx.ix1 q) = BitVec.ofNat 32 (n % 4096) :=
  rem_word (a (ValueIdx.ix1 q)) (Scalar.select (IntOp.cmpi .eq 4096#32 0#32) 1#32 4096#32) n hn ha (by decide)

/-- The wrap of negative indices leaves a word that is a number below 4096 as it is. -/
theorem wrap_apply (a : IVec S8386560 32) (q : Fin 8386560) (n : ℕ) (hn : n < 4096) (ha : a (ValueIdx.ix1 q) = BitVec.ofNat 32 n) :
    RefTerm.wrap a (ValueIdx.ix1 q) = BitVec.ofNat 32 n :=
  wrap_word (a (ValueIdx.ix1 q)) n (by omega) ha

end Cert.ReferenceIdeal.DivRemWords
-- ==== Proof.KthSet.lean ====
import Mathlib

/-!
# The k-th set flag from a histogram of running counts

For a flag function `f : ℕ → Bool`, `cnt f p` is the inclusive running count of set flags
among positions `0 … p`; `hist f n v` counts the positions below `n` whose running count is
exactly `v`; `pos f n q` is the running sum of the histogram up to `q`, that is, the number
of positions below `n` whose running count is at most `q`.  For `q` below the total number of
set flags, `pos f n q` is the position of the `(q+1)`-th set flag: the positions whose running
count is at most `q` form an initial segment of the positions, and its length is the first
position at which the running count exceeds `q`.

Specialised to the flag `i < j` on the row-major `N × N` grid, `q ↦ (pos q / N, pos q % N)`
lists the pairs `i < j`, each once, in row-major order.
-/

namespace Cert.KthSet

def cnt (f : ℕ → Bool) (p : ℕ) : ℕ := ((Finset.range (p + 1)).filter fun i => f i = true).card
def total (f : ℕ → Bool) (n : ℕ) : ℕ := ((Finset.range n).filter fun i => f i = true).card
def hist (f : ℕ → Bool) (n v : ℕ) : ℕ := ((Finset.range n).filter fun p => cnt f p = v).card
def pos (f : ℕ → Bool) (n q : ℕ) : ℕ := ∑ v ∈ Finset.range (q + 1), hist f n v
def tri (N : ℕ) (p : ℕ) : Bool := decide (p / N < p % N)

/-! ## Running counts -/

/-- One more position adds one to the number of set flags exactly when its flag is set. -/
theorem total_succ (f : ℕ → Bool) (n : ℕ) :
    total f (n + 1) = total f n + (if f n then 1 else 0) := by
  unfold total
  rw [Finset.range_add_one, Finset.filter_insert]
  by_cases h : f n = true
  · rw [if_pos h, if_pos h, Finset.card_insert_of_notMem]
    simp
  · rw [if_neg h, if_neg h, Nat.add_zero]

theorem total_zero (f : ℕ → Bool) : total f 0 = 0 := by
  simp [total]

/-- The inclusive running count at `p` is the number of set flags below `p + 1`. -/
theorem cnt_eq_total (f : ℕ → Bool) (p : ℕ) : cnt f p = total f (p + 1) := rfl

theorem cnt_succ (f : ℕ → Bool) (p : ℕ) :
    cnt f (p + 1) = cnt f p + (if f (p + 1) then 1 else 0) := by
  rw [cnt_eq_total, cnt_eq_total, total_succ]

theorem cnt_zero (f : ℕ → Bool) : cnt f 0 = if f 0 then 1 else 0 := by
  rw [cnt_eq_total, total_succ, total_zero, Nat.zero_add]

theorem total_mono (f : ℕ → Bool) {m n : ℕ} (h : m ≤ n) : total f m ≤ total f n :=
  Finset.card_le_card (Finset.filter_subset_filter _ (Finset.range_mono h))

theorem cnt_mono (f : ℕ → Bool) {p p' : ℕ} (h : p ≤ p') : cnt f p ≤ cnt f p' :=
  total_mono f (Nat.succ_le_succ h)

theorem cnt_le (f : ℕ → Bool) (p : ℕ) : cnt f p ≤ p + 1 :=
  (Finset.card_filter_le _ _).trans (Finset.card_range (p + 1)).le

theorem cnt_le_total (f : ℕ → Bool) {n p : ℕ} (h : p < n) : cnt f p ≤ total f n :=
  total_mono f (Nat.succ_le_of_lt h)

/-- A set flag is counted at its own position. -/
theorem cnt_pos_of_set (f : ℕ → Bool) {p : ℕ} (hf : f p = true) : 0 < cnt f p := by
  cases p with
  | zero => rw [cnt_zero, if_pos hf]; exact Nat.one_pos
  | succ p => rw [cnt_succ, if_pos hf]; exact Nat.succ_pos _

/-! ## The histogram and its running sum -/

theorem hist_le (f : ℕ → Bool) (n v : ℕ) : hist f n v ≤ n :=
  (Finset.card_filter_le _ _).trans (Finset.card_range n).le

theorem pos_succ (f : ℕ → Bool) (n q : ℕ) : pos f n (q + 1) = pos f n q + hist f n (q + 1) := by
  unfold pos
  rw [Finset.sum_range_succ]

/-- The running sum of the histogram counts the positions whose running count is at most `q`. -/
theorem pos_eq_card (f : ℕ → Bool) (n q : ℕ) :
    pos f n q = ((Finset.range n).filter fun p => cnt f p ≤ q).card := by
  induction q with
  | zero =>
    unfold pos hist
    rw [Finset.sum_range_one]
    congr 1
    ext p
    simp only [Finset.mem_filter, Finset.mem_range, Nat.le_zero]
  | succ q ih =>
    rw [pos_succ, ih]
    unfold hist
    rw [← Finset.card_union_of_disjoint]
    · congr 1
      ext p
      simp only [Finset.mem_union, Finset.mem_filter, Finset.mem_range]
      omega
    · rw [Finset.disjoint_filter]
      intro p _ h1 h2
      omega

theorem pos_le (f : ℕ → Bool) (n q : ℕ) : pos f n q ≤ n := by
  rw [pos_eq_card]
  exact (Finset.card_filter_le _ _).trans (Finset.card_range n).le

theorem pos_mono (f : ℕ → Bool) (n : ℕ) {q q' : ℕ} (h : q ≤ q') : pos f n q ≤ pos f n q' := by
  rw [pos_eq_card, pos_eq_card]
  apply Finset.card_le_card
  intro p hp
  simp only [Finset.mem_filter, Finset.mem_range] at hp ⊢
  exact ⟨hp.1, hp.2.trans h⟩

/-! ## The first position whose running count exceeds `q` -/

/-- If `P` is a position below `n` at which the running count exceeds `q` for the first time,
then the positions with running count at most `q` are exactly `0 … P - 1`, so `pos f n q = P`. -/
theorem pos_eq_of (f : ℕ → Bool) {n q P : ℕ} (hPn : P < n) (hlt : ∀ p, p < P → cnt f p ≤ q)
    (hP : q < cnt f P) : pos f n q = P := by
  rw [pos_eq_card]
  have hseg : ((Finset.range n).filter fun p => cnt f p ≤ q) = Finset.range P := by
    ext p
    simp only [Finset.mem_filter, Finset.mem_range]
    constructor
    · rintro ⟨_, hq⟩
      by_contra hge
      have hmono := cnt_mono f (Nat.le_of_not_lt hge)
      omega
    · intro hp
      exact ⟨Nat.lt_trans hp hPn, hlt p hp⟩
  rw [hseg, Finset.card_range]

/-- Below the total number of set flags such a first position exists. -/
theorem exists_first (f : ℕ → Bool) {n q : ℕ} (h : q < total f n) :
    ∃ P, P < n ∧ (∀ p, p < P → cnt f p ≤ q) ∧ q < cnt f P := by
  have hn : 0 < n := by
    rcases Nat.eq_zero_or_pos n with rfl | hn
    · rw [total_zero] at h
      exact absurd h (Nat.not_lt_zero _)
    · exact hn
  have hlast : q < cnt f (n - 1) := by
    rw [cnt_eq_total, Nat.sub_add_cancel hn]
    exact h
  have hex : ∃ p, q < cnt f p := ⟨n - 1, hlast⟩
  refine ⟨Nat.find hex, ?_, ?_, Nat.find_spec hex⟩
  · have hle := Nat.find_min' hex hlast
    omega
  · intro p hp
    have hmin := Nat.find_min hex hp
    omega

/-- At the first position whose running count exceeds `q` the count is exactly `q + 1` and
the flag is set: the count grows by at most one per position, and only at a set flag. -/
theorem first_spec (f : ℕ → Bool) {q P : ℕ} (hlt : ∀ p, p < P → cnt f p ≤ q)
    (hP : q < cnt f P) : f P = true ∧ cnt f P = q + 1 := by
  cases P with
  | zero =>
    rw [cnt_zero] at hP ⊢
    by_cases h0 : f 0 = true
    · rw [if_pos h0] at hP ⊢
      exact ⟨h0, by omega⟩
    · rw [if_neg h0] at hP
      exact absurd hP (Nat.not_lt_zero _)
  | succ P =>
    have h1 := hlt P (Nat.lt_succ_self P)
    rw [cnt_succ] at hP ⊢
    by_cases h0 : f (P + 1) = true
    · rw [if_pos h0] at hP ⊢
      exact ⟨h0, by omega⟩
    · rw [if_neg h0] at hP
      omega

theorem pos_lt (f : ℕ → Bool) {n q : ℕ} (h : q < total f n) : pos f n q < n := by
  obtain ⟨P, hPn, hlt, hP⟩ := exists_first f h
  rw [pos_eq_of f hPn hlt hP]
  exact hPn

theorem pos_set (f : ℕ → Bool) {n q : ℕ} (h : q < total f n) : f (pos f n q) = true := by
  obtain ⟨P, hPn, hlt, hP⟩ := exists_first f h
  rw [pos_eq_of f hPn hlt hP]
  exact (first_spec f hlt hP).1

theorem cnt_pos (f : ℕ → Bool) {n q : ℕ} (h : q < total f n) : cnt f (pos f n q) = q + 1 := by
  obtain ⟨P, hPn, hlt, hP⟩ := exists_first f h
  rw [pos_eq_of f hPn hlt hP]
  exact (first_spec f hlt hP).2

theorem cnt_pred_lt_total (f : ℕ → Bool) {n p : ℕ} (hp : p < n) (hf : f p = true) :
    cnt f p - 1 < total f n := by
  have h1 := cnt_le_total f hp
  have h2 := cnt_pos_of_set f hf
  omega

/-- A set flag at position `p` with running count `c` is the `c`-th set flag. -/
theorem pos_cnt (f : ℕ → Bool) {n p : ℕ} (hp : p < n) (hf : f p = true) :
    pos f n (cnt f p - 1) = p := by
  apply pos_eq_of f hp
  · intro p' hp'
    cases p with
    | zero => exact absurd hp' (Nat.not_lt_zero _)
    | succ p =>
      have h1 := cnt_mono f (Nat.lt_succ_iff.mp hp')
      rw [cnt_succ, if_pos hf]
      omega
  · have h2 := cnt_pos_of_set f hf
    omega

/-! ## The flag `i < j` on the row-major `N × N` grid -/

/-- Splitting the positions below `a + b` at `a`. -/
theorem total_add (f : ℕ → Bool) (a b : ℕ) :
    total f (a + b) = total f a + total (fun j => f (a + j)) b := by
  induction b with
  | zero => rw [total_zero, Nat.add_zero, Nat.add_zero]
  | succ b ih => rw [← Nat.add_assoc, total_succ, total_succ, ih, Nat.add_assoc]

/-- On row `k`, column `j`, the flag says `k < j`. -/
theorem tri_row (N k j : ℕ) (hj : j < N) : tri N (N * k + j) = decide (k < j) := by
  unfold tri
  have hN : 0 < N := Nat.lt_of_le_of_lt (Nat.zero_le j) hj
  rw [Nat.mul_add_div hN, Nat.mul_add_mod, Nat.div_eq_of_lt hj, Nat.mod_eq_of_lt hj, Nat.add_zero]

/-- Row `k` holds `N - 1 - k` set flags: the columns `k + 1 … N - 1`. -/
theorem total_tri_row (N k : ℕ) : total (fun j => tri N (N * k + j)) N = N - 1 - k := by
  unfold total
  have hIco : ((Finset.range N).filter fun j => tri N (N * k + j) = true) =
      Finset.Ico (k + 1) N := by
    ext j
    simp only [Finset.mem_filter, Finset.mem_range, Finset.mem_Ico]
    constructor
    · rintro ⟨hj, h⟩
      rw [tri_row N k j hj] at h
      have hkj : k < j := of_decide_eq_true h
      omega
    · rintro ⟨h1, h2⟩
      refine ⟨h2, ?_⟩
      rw [tri_row N k j h2]
      exact decide_eq_true (by omega)
  rw [hIco, Nat.card_Ico]
  omega

/-- The first `k` rows hold `Σ_{i<k} (N - 1 - i)` set flags. -/
theorem total_tri_rows (N k : ℕ) :
    total (tri N) (N * k) = ∑ i ∈ Finset.range k, (N - 1 - i) := by
  induction k with
  | zero => rw [Nat.mul_zero, total_zero, Finset.sum_range_zero]
  | succ k ih => rw [Nat.mul_succ, total_add, ih, Finset.sum_range_succ, total_tri_row]

/-- The whole grid holds `N (N - 1) / 2` set flags. -/
theorem total_tri (N : ℕ) : total (tri N) (N * N) = N * (N - 1) / 2 := by
  rw [total_tri_rows]
  exact (Finset.sum_range_reflect (fun i : ℕ => i) N).trans (Finset.sum_range_id N)

theorem total_tri_of (N M K : ℕ) (hM : M = N * N) (hK : K = N * (N - 1) / 2) :
    total (tri N) M = K := by
  subst hM hK
  exact total_tri N

theorem total_tri_4096 : total (tri 4096) 16777216 = 8386560 :=
  total_tri_of 4096 16777216 8386560 (by norm_num) (by norm_num)

/-! ## The enumeration of the pairs `i < j` -/

section Enum

variable (N : ℕ)

/-- Position `N * i + j` of the grid, for `i, j < N`, lies below `N * N`. -/
theorem grid_lt {i j : ℕ} (hi : i < N) (hj : j < N) : N * i + j < N * N := by
  calc N * i + j < N * i + N := Nat.add_lt_add_left hj _
    _ = N * (i + 1) := (Nat.mul_succ N i).symm
    _ ≤ N * N := Nat.mul_le_mul_left N hi

theorem grid_div {i j : ℕ} (hj : j < N) : (N * i + j) / N = i := by
  have hN : 0 < N := Nat.lt_of_le_of_lt (Nat.zero_le j) hj
  rw [Nat.mul_add_div hN, Nat.div_eq_of_lt hj, Nat.add_zero]

theorem grid_mod {i j : ℕ} (hj : j < N) : (N * i + j) % N = j := by
  rw [Nat.mul_add_mod, Nat.mod_eq_of_lt hj]

/-- The pair listed at place `q`: row and column of the `(q+1)`-th set flag. -/
def pairAt (hN : 0 < N) (q : Fin (total (tri N) (N * N))) :
    {p : Fin N × Fin N // p.1 < p.2} :=
  ⟨(⟨pos (tri N) (N * N) q.val / N, Nat.div_lt_of_lt_mul (pos_lt (tri N) q.isLt)⟩,
    ⟨pos (tri N) (N * N) q.val % N, Nat.mod_lt _ hN⟩),
   of_decide_eq_true (pos_set (tri N) q.isLt)⟩

theorem pairAt_row (hN : 0 < N) (q : Fin (total (tri N) (N * N))) :
    (pairAt N hN q).1.1.val = pos (tri N) (N * N) q.val / N := rfl

theorem pairAt_col (hN : 0 < N) (q : Fin (total (tri N) (N * N))) :
    (pairAt N hN q).1.2.val = pos (tri N) (N * N) q.val % N := rfl

theorem pairAt_pos (hN : 0 < N) (q : Fin (total (tri N) (N * N))) :
    pos (tri N) (N * N) q.val = (pairAt N hN q).1.1.val * N + (pairAt N hN q).1.2.val := by
  rw [pairAt_row, pairAt_col, Nat.div_add_mod']

/-- Distinct places list distinct pairs: the running count at the listed position is the place
plus one. -/
theorem pairAt_injective (hN : 0 < N) : Function.Injective (pairAt N hN) := by
  intro q q' h
  have hpos : pos (tri N) (N * N) q.val = pos (tri N) (N * N) q'.val := by
    rw [pairAt_pos N hN q, pairAt_pos N hN q', h]
  have h1 := cnt_pos (tri N) q.isLt
  have h2 := cnt_pos (tri N) q'.isLt
  rw [hpos] at h1
  apply Fin.ext
  omega

/-- Every pair `i < j` is listed: at the place given by the running count at `N * i + j`. -/
theorem pairAt_surjective (hN : 0 < N) : Function.Surjective (pairAt N hN) := by
  rintro ⟨⟨i, j⟩, hij⟩
  have hij' : i.val < j.val := hij
  have hp : N * i.val + j.val < N * N := grid_lt N i.isLt j.isLt
  have hf : tri N (N * i.val + j.val) = true := by
    rw [tri_row N i.val j.val j.isLt]
    exact decide_eq_true hij'
  refine ⟨⟨cnt (tri N) (N * i.val + j.val) - 1, cnt_pred_lt_total (tri N) hp hf⟩, ?_⟩
  apply Subtype.ext
  apply Prod.ext
  · apply Fin.ext
    rw [pairAt_row]
    show pos (tri N) (N * N) (cnt (tri N) (N * i.val + j.val) - 1) / N = i.val
    rw [pos_cnt (tri N) hp hf, grid_div N j.isLt]
  · apply Fin.ext
    rw [pairAt_col]
    show pos (tri N) (N * N) (cnt (tri N) (N * i.val + j.val) - 1) % N = j.val
    rw [pos_cnt (tri N) hp hf, grid_mod N j.isLt]

/-- The listing is a bijection between the places `q < K` and the pairs `i < j`. -/
theorem triu_enum_of (K M : ℕ) (hN : 0 < N) (hM : M = N * N) (hK : total (tri N) M = K) :
    ∃ e : Fin K ≃ {p : Fin N × Fin N // p.1 < p.2},
      ∀ q : Fin K, pos (tri N) M q.val = (e q).1.1.val * N + (e q).1.2.val := by
  subst hM
  subst hK
  exact ⟨Equiv.ofBijective (pairAt N hN) ⟨pairAt_injective N hN, pairAt_surjective N hN⟩,
    fun q => pairAt_pos N hN q⟩

end Enum

theorem triu_enum : ∃ e : Fin 8386560 ≃ {p : Fin 4096 × Fin 4096 // p.1 < p.2},
    ∀ q : Fin 8386560, pos (tri 4096) 16777216 q.val = (e q).1.1.val * 4096 + (e q).1.2.val :=
  triu_enum_of 4096 8386560 16777216 (by norm_num) (by norm_num) total_tri_4096

end Cert.KthSet
-- ==== Proof.IdxWordsFlag.lean ====
/-
  The upper-triangle flag of the grid, read at a cell.

  The row and column numbers of a cell, as 32-bit words below 4096, compare signed as the numbers do; the selection
  keeps the constant one strictly above the diagonal and puts zero elsewhere; and the comparison of that value with
  zero, on the extended reals, is set exactly where the value is one.
-/
import proofs.«154192_g34583076667753_cont_8to1_b_861_5_alg».proof.Proof.RefTerm
import Idealize.ShloMosaic.Lib.ValueIdx
import Idealize.ShloMosaic.PureOps.Ideal.Laws

namespace Cert.ReferenceIdeal.IdxWords

open Idealize.ShloMosaic Cert.ReferenceIdeal

variable [Cert.ReferenceIdeal.Facts]

/-- The word 0x3F800000 denotes one. -/
theorem ofBits_one_f32 : Ideal.ofBits .f32 0x3F800000#32 = 1 := by
  simp [Ideal.ofBits, Ideal.ieee, -EReal.coe_mul]; norm_num

/-- Two words below 2^31 compare signed as their unsigned readings do. -/
theorem sle_ofNat (a b : Nat) (ha : a < 4096) (hb : b < 4096) :
    (BitVec.ofNat 32 a).sle (BitVec.ofNat 32 b) = decide (a ≤ b) := by
  have h1 : (BitVec.ofNat 32 a).toInt = a := by
    rw [BitVec.toInt_eq_toNat_of_lt (by rw [BitVec.toNat_ofNat]; omega), BitVec.toNat_ofNat]; omega
  have h2 : (BitVec.ofNat 32 b).toInt = b := by
    rw [BitVec.toInt_eq_toNat_of_lt (by rw [BitVec.toNat_ofNat]; omega), BitVec.toNat_ofNat]; omega
  rw [BitVec.sle_eq_decide, h1, h2]
  simp

theorem flag_apply (i j : Fin 4096) :
    RefTerm.flag (F := Ideal) (ValueIdx.ix2 i j) = if i.val < j.val then 1#1 else 0#1 := by
  unfold RefTerm.flag RefTerm.triuF
  show FloatOps.cmpf (F := Ideal) .une
      (Scalar.select (IntOp.cmpi .sge (IntOp.addi (BitVec.ofNat 32 i.val) 0#32) (BitVec.ofNat 32 j.val))
        (Ideal.ofBits .f32 0x00000000#32) (Ideal.ofBits .f32 0x3F800000#32))
      (Ideal.ofBits .f32 0x00000000#32) = _
  rw [Ideal.ofBits_zero_f32, ofBits_one_f32]
  have hc : IntOp.cmpi .sge (IntOp.addi (BitVec.ofNat 32 i.val) 0#32) (BitVec.ofNat 32 j.val)
      = if i.val < j.val then 0#1 else 1#1 := by
    show BitVec.ofBool ((BitVec.ofNat 32 j.val).sle (BitVec.ofNat 32 i.val + 0#32)) = _
    rw [BitVec.add_zero, sle_ofNat j.val i.val j.isLt i.isLt]
    by_cases h : i.val < j.val
    · rw [if_pos h, decide_eq_false (by omega)]; rfl
    · rw [if_neg h, decide_eq_true (by omega)]; rfl
  rw [hc]
  by_cases h : i.val < j.val
  · rw [if_pos h, if_pos h, ValueIdx.select_zero]
    show Ideal.cmp .une (1 : EReal) 0 = 1#1
    simp [Ideal.cmp]
  · rw [if_neg h, if_neg h, ValueIdx.select_one]
    show Ideal.cmp .une (0 : EReal) 0 = 0#1
    simp [Ideal.cmp]

end Cert.ReferenceIdeal.IdxWords
-- ==== Proof.LibWindowSum.lean ====
/-
  Counting ones with 32-bit additions, and the window sum that does it.

  A left fold of 32-bit word addition from an accumulator over terms that are each the word 0 or the word 1 never
  wraps as long as accumulator plus number of terms stays below 2^32: its unsigned reading is the accumulator's plus
  the number of ones.  A window reduction by addition from 0 (a running count along an axis is one) is such a fold
  over the window's positions, each reading an operand element or, in the padding, the initial 0.  So when the
  operand holds only 0s and 1s the result is at most the window's size, and at least 1 as soon as one position of
  the window reads a 1.
-/
import Idealize.ShloMosaic.PureOps.Contract

namespace SegPool

open Idealize.ShloMosaic

/-! ## Sums of naturals that are 0 or 1 -/

/-- Naturals each at most one sum to at most their number. -/
theorem sum_map_le_length {ι : Type} (f : ι → ℕ) (hf : ∀ n, f n ≤ 1) : ∀ l : List ι, (l.map f).sum ≤ l.length
  | [] => Nat.le_refl 0
  | a :: l => by
    have h1 := sum_map_le_length f hf l
    have h2 := hf a
    simp only [List.map_cons, List.sum_cons, List.length_cons]
    omega

/-- A sum of naturals with a member equal to one is at least one. -/
theorem one_le_sum_map {ι : Type} (f : ι → ℕ) : ∀ (l : List ι) (n : ι), n ∈ l → f n = 1 → 1 ≤ (l.map f).sum
  | [], _, h, _ => nomatch h
  | a :: l, n, h, hn => by
    simp only [List.map_cons, List.sum_cons]
    rcases List.mem_cons.1 h with rfl | h
    · omega
    · have := one_le_sum_map f l n h hn; omega

/-! ## The fold -/

/-- A left fold of word addition over terms that read 0 or 1 adds their number of ones to the accumulator, as long as
    accumulator plus length stays below 2^32 (no addition wraps). -/
theorem toNat_foldl_add {ι : Type} (g : ι → BitVec 32) (hg : ∀ n, (g n).toNat ≤ 1) :
    ∀ (l : List ι) (acc : BitVec 32), acc.toNat + l.length < 2 ^ 32 →
      (l.foldl (fun r n => r + g n) acc).toNat = acc.toNat + (l.map fun n => (g n).toNat).sum
  | [], acc, _ => by simp
  | a :: l, acc, h => by
    have ha := hg a
    simp only [List.length_cons] at h
    have e : (acc + g a).toNat = acc.toNat + (g a).toNat := by
      rw [BitVec.toNat_add]; exact Nat.mod_eq_of_lt (by omega)
    rw [List.foldl_cons, toNat_foldl_add g hg l (acc + g a) (by rw [e]; omega), e]
    simp only [List.map_cons, List.sum_cons]
    omega

/-! ## A window reduction by addition -/

section Window
variable {s t u : Shape} {α : Type}

/-- What position `n` of the window at result index `j` reads: the operand where the position falls inside it, the
    initial value in the padding. -/
def windowTerm (window strides lo : Fin s.rank → Nat) (x : s.Idx → α) (v : α) (hr : t.rank = s.rank) (j : t.Idx)
    (n : Fin (⟨s.rank, window⟩ : Shape).numel) : α :=
  if hin : ∀ a, lo a ≤ (j (a.cast hr.symm)).val * strides a + ((⟨s.rank, window⟩ : Shape).rowMajor.symm n a).val ∧
      (j (a.cast hr.symm)).val * strides a + ((⟨s.rank, window⟩ : Shape).rowMajor.symm n a).val - lo a < s.size a then
    x (fun a => ⟨(j (a.cast hr.symm)).val * strides a + ((⟨s.rank, window⟩ : Shape).rowMajor.symm n a).val - lo a, (hin a).2⟩)
  else v

/-- The window reduction is the left fold of its body over the window's positions. -/
theorem reduceWindow_eq_foldl (f : α → α → α) (window strides lo hi : Fin s.rank → Nat) (x : s.Idx → α) (init : u.Idx → α)
    (h : s.ReduceWindows window strides lo hi t) (hu : 0 < u.numel) (j : t.Idx) :
    Host.reduceWindow f window strides lo hi x init h hu j
      = (List.finRange (⟨s.rank, window⟩ : Shape).numel).foldl
          (fun r n => f r (windowTerm window strides lo x (init (Shape.Idx.first hu)) h.1 j n)) (init (Shape.Idx.first hu)) := rfl

/-- A window position that falls on the operand index `k` reads `x k`. -/
theorem windowTerm_of_inside (window strides lo : Fin s.rank → Nat) (x : s.Idx → α) (v : α) (hr : t.rank = s.rank) (j : t.Idx)
    (n : Fin (⟨s.rank, window⟩ : Shape).numel) (k : s.Idx)
    (hk : ∀ a, (k a).val + lo a = (j (a.cast hr.symm)).val * strides a + ((⟨s.rank, window⟩ : Shape).rowMajor.symm n a).val) :
    windowTerm window strides lo x v hr j n = x k := by
  unfold windowTerm
  have hin : ∀ a, lo a ≤ (j (a.cast hr.symm)).val * strides a + ((⟨s.rank, window⟩ : Shape).rowMajor.symm n a).val ∧
      (j (a.cast hr.symm)).val * strides a + ((⟨s.rank, window⟩ : Shape).rowMajor.symm n a).val - lo a < s.size a := fun a => by
    have := hk a; have := (k a).isLt; omega
  rw [dif_pos hin]
  exact congrArg x (funext fun a => Fin.ext (by have := hk a; show _ - _ = _; omega))

/-- Every window position of an operand of 0s and 1s, padded with 0, reads 0 or 1. -/
theorem windowTerm_toNat_le (window strides lo : Fin s.rank → Nat) (x : s.Idx → BitVec 32) (hr : t.rank = s.rank) (j : t.Idx)
    (hx : ∀ i, (x i).toNat ≤ 1) (n : Fin (⟨s.rank, window⟩ : Shape).numel) :
    (windowTerm window strides lo x 0#32 hr j n).toNat ≤ 1 := by
  unfold windowTerm
  split
  · exact hx _
  · decide

/-- The running count: a window reduction by addition from 0 of an operand of 0s and 1s reads, unsigned, the number of
    1s its window positions meet. -/
theorem toNat_reduceWindow_addi (window strides lo hi : Fin s.rank → Nat) (x : s.Idx → BitVec 32) (init : u.Idx → BitVec 32)
    (h : s.ReduceWindows window strides lo hi t) (hu : 0 < u.numel) (hx : ∀ i, (x i).toNat ≤ 1)
    (h0 : init (Shape.Idx.first hu) = 0#32) (hW : (⟨s.rank, window⟩ : Shape).numel < 2 ^ 32) (j : t.Idx) :
    (Host.reduceWindow IntOp.addi window strides lo hi x init h hu j).toNat
      = ((List.finRange (⟨s.rank, window⟩ : Shape).numel).map fun n => (windowTerm window strides lo x 0#32 h.1 j n).toNat).sum := by
  rw [reduceWindow_eq_foldl, h0]
  refine (toNat_foldl_add (fun n => windowTerm window strides lo x 0#32 h.1 j n)
    (windowTerm_toNat_le window strides lo x h.1 j hx) _ 0#32 ?_).trans ?_
  · rw [List.length_finRange]; show 0 + _ < _; omega
  · show 0 + _ = _; omega

/-- It is at most the number of window positions … -/
theorem reduceWindow_addi_le (window strides lo hi : Fin s.rank → Nat) (x : s.Idx → BitVec 32) (init : u.Idx → BitVec 32)
    (h : s.ReduceWindows window strides lo hi t) (hu : 0 < u.numel) (hx : ∀ i, (x i).toNat ≤ 1)
    (h0 : init (Shape.Idx.first hu) = 0#32) (hW : (⟨s.rank, window⟩ : Shape).numel < 2 ^ 32) (j : t.Idx) :
    (Host.reduceWindow IntOp.addi window strides lo hi x init h hu j).toNat ≤ (⟨s.rank, window⟩ : Shape).numel := by
  rw [toNat_reduceWindow_addi window strides lo hi x init h hu hx h0 hW j]
  refine (sum_map_le_length _ (windowTerm_toNat_le window strides lo x h.1 j hx) _).trans ?_
  rw [List.length_finRange]

/-- … and at least one when the window position `w` falls on an operand index `k` holding a 1. -/
theorem one_le_reduceWindow_addi (window strides lo hi : Fin s.rank → Nat) (x : s.Idx → BitVec 32) (init : u.Idx → BitVec 32)
    (h : s.ReduceWindows window strides lo hi t) (hu : 0 < u.numel) (hx : ∀ i, (x i).toNat ≤ 1)
    (h0 : init (Shape.Idx.first hu) = 0#32) (hW : (⟨s.rank, window⟩ : Shape).numel < 2 ^ 32) (j : t.Idx)
    (w : (⟨s.rank, window⟩ : Shape).Idx) (k : s.Idx)
    (hk : ∀ a, (k a).val + lo a = (j (a.cast h.1.symm)).val * strides a + (w a).val) (hk1 : x k = 1#32) :
    1 ≤ (Host.reduceWindow IntOp.addi window strides lo hi x init h hu j).toNat := by
  rw [toNat_reduceWindow_addi window strides lo hi x init h hu hx h0 hW j]
  refine one_le_sum_map _ _ ((⟨s.rank, window⟩ : Shape).rowMajor w) (List.mem_finRange _) ?_
  rw [windowTerm_of_inside window strides lo x 0#32 h.1 j _ k (fun a => by rw [Equiv.symm_apply_apply]; exact hk a), hk1]
  rfl

end Window

end SegPool
-- ==== Proof.IdxWordsFold.lean ====
/-
  Word sums that do not wrap, a running sum along one axis, and a scatter of additions read at one index.

  A left fold of 32-bit additions over arbitrary words reads, unsigned, the accumulator plus the natural sum of the
  words, as long as that sum stays below 2^32.  The window reduction by addition whose window is the whole axis,
  padded below by the axis length minus one, is the inclusive running sum: its window at result p covers the
  operand's elements 0 … p, the positions before them falling in the padding.  A scatter by a function f reads at an
  index the fold of f over the updates that land on that index, in the updates' order.
-/
import proofs.«154192_g34583076667753_cont_8to1_b_861_5_alg».proof.Proof.LibWindowSum
import Idealize.ShloMosaic.Lib.ValueIdx
import Mathlib.Algebra.BigOperators.Intervals
import Mathlib.Algebra.BigOperators.Fin

namespace Cert.ReferenceIdeal.IdxWords

open Idealize.ShloMosaic

/-! ## The fold -/

/-- A left fold of word addition adds the natural sum of the terms to the accumulator, as long as the total stays
    below 2^32 (no addition wraps). -/
theorem toNat_foldl_add_of_sum_lt {ι : Type} (g : ι → BitVec 32) :
    ∀ (l : List ι) (acc : BitVec 32), acc.toNat + (l.map fun n => (g n).toNat).sum < 2 ^ 32 →
      (l.foldl (fun r n => r + g n) acc).toNat = acc.toNat + (l.map fun n => (g n).toNat).sum
  | [], acc, _ => by simp
  | a :: l, acc, h => by
    simp only [List.map_cons, List.sum_cons] at h
    have e : (acc + g a).toNat = acc.toNat + (g a).toNat := by
      rw [BitVec.toNat_add]; exact Nat.mod_eq_of_lt (by omega)
    rw [List.foldl_cons, toNat_foldl_add_of_sum_lt g l (acc + g a) (by rw [e]; omega), e]
    simp only [List.map_cons, List.sum_cons]
    omega

/-! ## A shifted sum -/

/-- The sum over the window positions n of the element p + n − M where that is not negative, with M + 1 positions,
    is the sum of the elements 0 … p. -/
theorem sum_window_shift (N M p : ℕ) (hM : M + 1 = N) (hp : p < N) (F : ℕ → ℕ) :
    ∑ n ∈ Finset.range N, (if M ≤ p + n then F (p + n - M) else 0) = ∑ k ∈ Finset.range (p + 1), F k := by
  have hN : N = (M - p) + (p + 1) := by omega
  rw [hN, Finset.sum_range_add]
  have h1 : ∑ x ∈ Finset.range (M - p), (if M ≤ p + x then F (p + x - M) else 0) = 0 :=
    Finset.sum_eq_zero fun x hx => by
      have := Finset.mem_range.1 hx
      rw [if_neg (by omega)]
  rw [h1, Nat.zero_add]
  refine Finset.sum_congr rfl fun x hx => ?_
  have := Finset.mem_range.1 hx
  rw [if_pos (by omega)]
  exact congrArg F (by omega)

/-! ## The running sum along one axis -/

section Running
variable {u : Shape}

/-- The one-axis window shape has as many positions as the window is long. -/
theorem numel_one (N : ℕ) : (⟨1, ![N]⟩ : Shape).numel = N := by
  simp [Shape.numel]

/-- A window position's coordinate is its number. -/
theorem rowMajor_symm_one (N : ℕ) (n : Fin (⟨1, ![N]⟩ : Shape).numel) :
    ((⟨1, ![N]⟩ : Shape).rowMajor.symm n 0).val = n.val := by
  have := Shape.rowMajor_val_one ((⟨1, ![N]⟩ : Shape).rowMajor.symm n)
  rw [Equiv.apply_symm_apply] at this
  exact this.symm

/-- What window position n of result p reads, unsigned: element p + n − M, nothing in the padding. -/
theorem windowTerm_running (N M : ℕ) (hM : M + 1 = N) (x : IVec ⟨1, ![N]⟩ 32) (F : ℕ → ℕ)
    (hx : ∀ k : Fin N, (x (ValueIdx.ix1 k)).toNat = F k.val) (p : Fin N) (hr : (⟨1, ![N]⟩ : Shape).rank = (⟨1, ![N]⟩ : Shape).rank)
    (n : Fin (⟨1, ![N]⟩ : Shape).numel) :
    (SegPool.windowTerm (s := ⟨1, ![N]⟩) (t := ⟨1, ![N]⟩) ![N] ![1] ![M] x 0#32 hr (ValueIdx.ix1 p) n).toNat
      = if M ≤ p.val + n.val then F (p.val + n.val - M) else 0 := by
  have hn : n.val < N := lt_of_lt_of_eq n.isLt (numel_one N)
  have hp := p.isLt
  have hc := rowMajor_symm_one N n
  by_cases h : M ≤ p.val + n.val
  · rw [if_pos h]
    rw [SegPool.windowTerm_of_inside ![N] ![1] ![M] x 0#32 hr (ValueIdx.ix1 p) n (ValueIdx.ix1 ⟨p.val + n.val - M, by omega⟩)
      (fun a => by
        match a with
        | ⟨0, _⟩ =>
          show (p.val + n.val - M) + M = p.val * 1 + ((⟨1, ![N]⟩ : Shape).rowMajor.symm n 0).val
          rw [hc]; omega)]
    exact hx _
  · rw [if_neg h]
    unfold SegPool.windowTerm
    rw [dif_neg (fun hin => h (by
      have := (hin 0).1
      have e : M ≤ p.val * 1 + ((⟨1, ![N]⟩ : Shape).rowMajor.symm n 0).val := this
      rw [hc] at e; omega))]
    rfl

/-- The inclusive running sum: the window reduction by addition from 0 over the whole axis, padded below by the axis
    length minus one, reads at p the sum of the operand's elements 0 … p, when that sum is below 2^32. -/
theorem runningSum_apply (N M : ℕ) (hM : M + 1 = N) (x : IVec ⟨1, ![N]⟩ 32) (init : IVec u 32)
    (h : (⟨1, ![N]⟩ : Shape).ReduceWindows (![N] : Fin 1 → ℕ) ![1] ![M] ![0] ⟨1, ![N]⟩) (hu : 0 < u.numel)
    (h0 : init (Shape.Idx.first hu) = 0#32) (F : ℕ → ℕ)
    (hx : ∀ k : Fin N, (x (ValueIdx.ix1 k)).toNat = F k.val) (p : Fin N)
    (hlt : ∑ k ∈ Finset.range (p.val + 1), F k < 2 ^ 32) :
    Host.reduceWindow IntOp.addi (![N] : Fin 1 → ℕ) ![1] ![M] ![0] x init h hu (ValueIdx.ix1 p)
      = BitVec.ofNat 32 (∑ k ∈ Finset.range (p.val + 1), F k) := by
  have hsum : ((List.finRange (⟨1, ![N]⟩ : Shape).numel).map fun n =>
      (SegPool.windowTerm (s := ⟨1, ![N]⟩) (t := ⟨1, ![N]⟩) ![N] ![1] ![M] x 0#32 h.1 (ValueIdx.ix1 p) n).toNat).sum
      = ∑ k ∈ Finset.range (p.val + 1), F k := by
    rw [← sum_window_shift N M p.val hM p.isLt F]
    have e : (fun n : Fin (⟨1, ![N]⟩ : Shape).numel =>
        (SegPool.windowTerm (s := ⟨1, ![N]⟩) (t := ⟨1, ![N]⟩) ![N] ![1] ![M] x 0#32 h.1 (ValueIdx.ix1 p) n).toNat)
        = fun n => (fun m : ℕ => if M ≤ p.val + m then F (p.val + m - M) else 0) n.val :=
      funext fun n => windowTerm_running N M hM x F hx p h.1 n
    rw [e, ← Fin.sum_univ_def, Fin.sum_univ_eq_sum_range (fun m : ℕ => if M ≤ p.val + m then F (p.val + m - M) else 0), numel_one]
  apply BitVec.eq_of_toNat_eq
  rw [BitVec.toNat_ofNat, Nat.mod_eq_of_lt hlt, SegPool.reduceWindow_eq_foldl, h0]
  refine (toNat_foldl_add_of_sum_lt
    (fun n => SegPool.windowTerm (s := ⟨1, ![N]⟩) (t := ⟨1, ![N]⟩) ![N] ![1] ![M] x 0#32 h.1 (ValueIdx.ix1 p) n) _ 0#32 ?_).trans ?_
  · rw [hsum]; show 0 + _ < _; omega
  · rw [hsum]; show 0 + _ = _; omega

end Running

end Cert.ReferenceIdeal.IdxWords
-- ==== Proof.IdxWordsCsum.lean ====
/-
  The running count of the flags over the flattened grid.

  The flattened position k is the cell in row k / 4096 and column k % 4096, so the flag there, widened to 32 bits,
  reads 1 where k / 4096 < k % 4096 and 0 elsewhere; the running sum of these is the number of set flags among the
  positions 0 … p, at most p + 1.
-/
import proofs.«154192_g34583076667753_cont_8to1_b_861_5_alg».proof.Proof.IdxWordsFlag
import proofs.«154192_g34583076667753_cont_8to1_b_861_5_alg».proof.Proof.IdxWordsFold
import proofs.«154192_g34583076667753_cont_8to1_b_861_5_alg».proof.Proof.KthSet
import Idealize.ShloMosaic.Lib.Pipeline.Value

namespace Cert.ReferenceIdeal.IdxWords

open Idealize.ShloMosaic Cert.ReferenceIdeal
open Cert.ReferenceIdeal.Facts₀ Cert.ReferenceIdeal.Facts

variable [Cert.ReferenceIdeal.Facts]

/-- The flag as a natural number. -/
def flagNat (k : ℕ) : ℕ := if Cert.KthSet.tri 4096 k = true then 1 else 0

/-- The sum of the flags as numbers over the positions 0 … p is their running count. -/
theorem sum_flagNat (p : ℕ) : ∑ k ∈ Finset.range (p + 1), flagNat k = Cert.KthSet.cnt (Cert.KthSet.tri 4096) p := by
  unfold Cert.KthSet.cnt flagNat
  rw [Finset.card_filter]

/-- The widened flag at the flattened position k. -/
theorem flagWord_apply (k : Fin 16777216) :
    (extui 32 (shapeCast S16777216 (RefTerm.flag (F := Ideal)) shapeCasts_S4096x4096_S16777216) natLt_1_32 (ValueIdx.ix1 k)).toNat
      = flagNat k.val := by
  have hk := k.isLt
  rw [ValueIdx.extui_apply,
    shapeCast_apply (RefTerm.flag (F := Ideal)) shapeCasts_S4096x4096_S16777216 (ValueIdx.ix1 k)
      (ValueIdx.ix2 (⟨k.val / 4096, by omega⟩ : Fin 4096) (⟨k.val % 4096, Nat.mod_lt _ (by decide)⟩ : Fin 4096))
      (by
        rw [Shape.rowMajor_val_two, Shape.rowMajor_val_one]
        show k.val / 4096 * 4096 + k.val % 4096 = k.val
        omega),
    flag_apply]
  unfold flagNat Cert.KthSet.tri
  by_cases h : k.val / 4096 < k.val % 4096
  · rw [if_pos h, if_pos (decide_eq_true h)]; rfl
  · rw [if_neg h, if_neg (by rw [decide_eq_false h]; exact Bool.false_ne_true)]; rfl

theorem csum_apply (p : Fin 16777216) :
    RefTerm.csum (F := Ideal) (ValueIdx.ix1 p) = BitVec.ofNat 32 (Cert.KthSet.cnt (Cert.KthSet.tri 4096) p.val) := by
  unfold RefTerm.csum
  rw [← sum_flagNat]
  refine runningSum_apply 16777216 16777215 rfl _ _ _ h_S_ rfl flagNat flagWord_apply p ?_
  rw [sum_flagNat]
  have := Cert.KthSet.cnt_le (Cert.KthSet.tri 4096) p.val
  have := p.isLt
  omega

end Cert.ReferenceIdeal.IdxWords
-- ==== Proof.IdxWordsScatter.lean ====
/-
  A scatter read at one index.

  The scatter folds over the updates in order, each replacing the element at the index it lands on by the body
  applied to that element and the update; read at one index i, only the updates landing on i matter, so the value is
  the fold of the body over those updates from the operand's element at i.  With the body an addition, the operand
  zero and every update one, that is the number of updates landing on i.
-/
import proofs.«154192_g34583076667753_cont_8to1_b_861_5_alg».proof.Proof.LibWindowSum
import Idealize.ShloMosaic.Lib.ValueIdx
import Mathlib.Algebra.BigOperators.Fin

namespace Cert.ReferenceIdeal.IdxWords

open Idealize.ShloMosaic

section Scatter
variable {s si u : Shape} {w : ℕ} {α : Type}

/-- The scatter at the index i is the fold of the body over the updates whose result index is i. -/
theorem scatter_apply_foldl (d : ScatterDims s si u) (f : α → α → α) (x : s.Idx → α) (idx : IVec si w) (upd : u.Idx → α)
    (i : s.Idx) :
    Host.scatter d f x idx upd i
      = (List.finRange u.numel).foldl
          (fun r n => if d.resultIdx? (u.rowMajor.symm n) idx = some i then f r (upd (u.rowMajor.symm n)) else r) (x i) := by
  unfold Host.scatter
  generalize List.finRange u.numel = l
  induction l generalizing x with
  | nil => rfl
  | cons a l ih =>
    rw [List.foldl_cons, List.foldl_cons, ih]
    congr 1
    cases hres : d.resultIdx? (u.rowMajor.symm a) idx with
    | none => simp
    | some i0 =>
      by_cases h : i = i0
      · subst h; simp
      · have h' : ¬ i0 = i := fun e => h e.symm
        simp [h, h']

/-- Additions of one into zero: the number of updates landing on i, while the number of updates is below 2^32. -/
theorem scatter_addi_ones_apply (d : ScatterDims s si u) (x : IVec s 32) (idx : IVec si w) (upd : IVec u 32) (i : s.Idx)
    (hx : x i = 0#32) (hupd : ∀ j, upd j = 1#32) (hN : u.numel < 2 ^ 32) :
    Host.scatter d IntOp.addi x idx upd i
      = BitVec.ofNat 32 (∑ n : Fin u.numel, if d.resultIdx? (u.rowMajor.symm n) idx = some i then 1 else 0) := by
  rw [scatter_apply_foldl, hx]
  have hf : (fun (r : BitVec 32) (n : Fin u.numel) =>
        if d.resultIdx? (u.rowMajor.symm n) idx = some i then IntOp.addi r (upd (u.rowMajor.symm n)) else r)
      = fun r n => r + (if d.resultIdx? (u.rowMajor.symm n) idx = some i then 1#32 else 0#32) := by
    funext r n
    split
    · rw [hupd]; rfl
    · rw [BitVec.add_zero]
  rw [hf]
  have hle : (∑ n : Fin u.numel, if d.resultIdx? (u.rowMajor.symm n) idx = some i then 1 else 0) ≤ u.numel := by
    refine (Finset.sum_le_sum (g := fun _ => 1) fun n _ => by split <;> omega).trans ?_
    simp
  apply BitVec.eq_of_toNat_eq
  rw [BitVec.toNat_ofNat, Nat.mod_eq_of_lt (by omega)]
  have hg : ∀ n : Fin u.numel, (if d.resultIdx? (u.rowMajor.symm n) idx = some i then 1#32 else 0#32).toNat ≤ 1 := fun n => by
    split <;> decide
  rw [SegPool.toNat_foldl_add _ hg _ 0#32 (by rw [List.length_finRange]; show 0 + _ < _; omega)]
  have hm : (fun n : Fin u.numel => (if d.resultIdx? (u.rowMajor.symm n) idx = some i then 1#32 else 0#32).toNat)
      = fun n => if d.resultIdx? (u.rowMajor.symm n) idx = some i then 1 else 0 := by
    funext n; split <;> rfl
  rw [hm, ← Fin.sum_univ_def]
  show 0 + _ = _
  omega

end Scatter

end Cert.ReferenceIdeal.IdxWords
-- ==== Proof.IdxWordsBins.lean ====
/-
  The histogram of the running count.

  The running count at a grid position is between 0 and the number of set flags, 8386560, so neither the clip at
  zero nor the wrap of negative positions changes it, and the scatter position of grid position k is its running
  count.  The scatter has one scalar index per update and no window: update k lands on the histogram element whose
  number is its position read signed, when that is below the histogram's length, and is dropped otherwise.  So
  element v counts the grid positions whose running count is v.
-/
import proofs.«154192_g34583076667753_cont_8to1_b_861_5_alg».proof.Proof.IdxWordsCsum
import proofs.«154192_g34583076667753_cont_8to1_b_861_5_alg».proof.Proof.IdxWordsScatter

namespace Cert.ReferenceIdeal.IdxWords

open Idealize.ShloMosaic Cert.ReferenceIdeal
open Cert.ReferenceIdeal.Facts₀ Cert.ReferenceIdeal.Facts

variable [Cert.ReferenceIdeal.Facts]

/-- The running count is at most the number of set flags. -/
theorem cnt_tri_le (k : Fin 16777216) : Cert.KthSet.cnt (Cert.KthSet.tri 4096) k.val ≤ 8386560 := by
  have := Cert.KthSet.cnt_le_total (Cert.KthSet.tri 4096) k.isLt
  rwa [Cert.KthSet.total_tri_4096] at this

/-- A word below 2^31 is not negative. -/
theorem slt_zero_ofNat (c : ℕ) (hc : c ≤ 8386560) : (BitVec.ofNat 32 c).slt 0#32 = false := by
  have h1 : (BitVec.ofNat 32 c).toInt = c := by
    rw [BitVec.toInt_eq_toNat_of_lt (by rw [BitVec.toNat_ofNat]; omega), BitVec.toNat_ofNat]; omega
  rw [BitVec.slt_eq_decide, h1]
  simp

/-- The clipped running count is the running count. -/
theorem csumClip_apply (k : Fin 16777216) :
    RefTerm.csumClip (F := Ideal) (ValueIdx.ix1 k) = BitVec.ofNat 32 (Cert.KthSet.cnt (Cert.KthSet.tri 4096) k.val) := by
  unfold RefTerm.csumClip
  show IntOp.maxsi 0#32 (RefTerm.csum (F := Ideal) (ValueIdx.ix1 k)) = _
  rw [csum_apply]
  unfold IntOp.maxsi
  rw [slt_zero_ofNat _ (cnt_tri_le k)]
  rfl

/-- The scatter position of grid position k is its running count. -/
theorem binPos_apply (k : Fin 16777216) :
    RefTerm.binPos (F := Ideal) (ValueIdx.ix2 k (0 : Fin 1)) = BitVec.ofNat 32 (Cert.KthSet.cnt (Cert.KthSet.tri 4096) k.val) := by
  unfold RefTerm.binPos
  rw [broadcastInDim_apply _ _ _ (ValueIdx.ix2 k (0 : Fin 1)) (ValueIdx.ix1 k) (fun a => by
    match a with
    | ⟨0, _⟩ => rfl)]
  rw [ValueIdx.select_apply]
  show Scalar.select (IntOp.cmpi .slt (RefTerm.csumClip (F := Ideal) (ValueIdx.ix1 k)) 0#32)
    (IntOp.addi (RefTerm.csumClip (F := Ideal) (ValueIdx.ix1 k)) 8386560#32) (RefTerm.csumClip (F := Ideal) (ValueIdx.ix1 k)) = _
  rw [csumClip_apply]
  have hc : IntOp.cmpi .slt (BitVec.ofNat 32 (Cert.KthSet.cnt (Cert.KthSet.tri 4096) k.val)) 0#32 = 0#1 := by
    show BitVec.ofBool ((BitVec.ofNat 32 (Cert.KthSet.cnt (Cert.KthSet.tri 4096) k.val)).slt 0#32) = _
    rw [slt_zero_ofNat _ (cnt_tri_le k)]; rfl
  rw [hc, ValueIdx.select_zero]

/-- The scatter's start on the histogram's axis for update k: its position word read signed. -/
theorem bins_start (k : Fin 16777216) (idx : IVec S16777216x1 32) :
    scatter_S8386560_S16777216x1_S16777216_n_0_0_1.start (ValueIdx.ix1 k) idx (0 : Fin 1)
      = (idx (ValueIdx.ix2 k (0 : Fin 1))).toInt := by
  unfold ScatterDims.start
  have hmem : (0 : Fin S8386560.rank) ∈ scatter_S8386560_S16777216x1_S16777216_n_0_0_1.scatterDimsToOperandDims :=
    show (0 : Fin 1) ∈ ([0] : List (Fin 1)) from List.mem_singleton.2 rfl
  rw [dif_pos hmem]
  refine congrArg (fun i => (idx i).toInt) (funext fun b => ?_)
  match b with
  | ⟨0, _⟩ => rfl
  | ⟨1, _⟩ => rfl

/-- The scatter has no window: the window coordinate is 0. -/
theorem bins_window (k : Fin 16777216) :
    scatter_S8386560_S16777216x1_S16777216_n_0_0_1.window (ValueIdx.ix1 k) (0 : Fin 1) = 0 := by
  unfold ScatterDims.window
  have hmem : (0 : Fin S8386560.rank) ∉ scatter_S8386560_S16777216x1_S16777216_n_0_0_1.sKept :=
    show (0 : Fin 1) ∉ ([] : List (Fin 1)) from List.not_mem_nil
  rw [dif_neg hmem]

/-- Update k lands on the histogram element whose number is its position word read signed, when that is in range. -/
theorem bins_resultIdx_eq (k : Fin 16777216) (idx : IVec S16777216x1 32) :
    scatter_S8386560_S16777216x1_S16777216_n_0_0_1.resultIdx? (ValueIdx.ix1 k) idx
      = if h : 0 ≤ (idx (ValueIdx.ix2 k (0 : Fin 1))).toInt ∧ (idx (ValueIdx.ix2 k (0 : Fin 1))).toInt < 8386560 then
          some (ValueIdx.ix1 (⟨(idx (ValueIdx.ix2 k (0 : Fin 1))).toInt.toNat, by omega⟩ : Fin 8386560))
        else none := by
  unfold ScatterDims.resultIdx?
  by_cases h : 0 ≤ (idx (ValueIdx.ix2 k (0 : Fin 1))).toInt ∧ (idx (ValueIdx.ix2 k (0 : Fin 1))).toInt < 8386560
  · rw [dif_pos h, dif_pos (fun a => by
      match a with
      | ⟨0, _⟩ =>
        show 0 ≤ scatter_S8386560_S16777216x1_S16777216_n_0_0_1.start (ValueIdx.ix1 k) idx (0 : Fin 1)
              + (scatter_S8386560_S16777216x1_S16777216_n_0_0_1.window (ValueIdx.ix1 k) (0 : Fin 1) : Int) ∧
            scatter_S8386560_S16777216x1_S16777216_n_0_0_1.start (ValueIdx.ix1 k) idx (0 : Fin 1)
              + (scatter_S8386560_S16777216x1_S16777216_n_0_0_1.window (ValueIdx.ix1 k) (0 : Fin 1) : Int) < (8386560 : Int)
        rw [bins_start, bins_window]
        omega)]
    refine congrArg some (funext fun a => ?_)
    match a with
    | ⟨0, _⟩ =>
      refine Fin.ext ?_
      show (scatter_S8386560_S16777216x1_S16777216_n_0_0_1.start (ValueIdx.ix1 k) idx (0 : Fin 1)
              + (scatter_S8386560_S16777216x1_S16777216_n_0_0_1.window (ValueIdx.ix1 k) (0 : Fin 1) : Int)).toNat
            = (idx (ValueIdx.ix2 k (0 : Fin 1))).toInt.toNat
      rw [bins_start, bins_window]
      omega
  · rw [dif_neg h, dif_neg (fun hall => h (by
      have h0 : 0 ≤ scatter_S8386560_S16777216x1_S16777216_n_0_0_1.start (ValueIdx.ix1 k) idx (0 : Fin 1)
              + (scatter_S8386560_S16777216x1_S16777216_n_0_0_1.window (ValueIdx.ix1 k) (0 : Fin 1) : Int) ∧
            scatter_S8386560_S16777216x1_S16777216_n_0_0_1.start (ValueIdx.ix1 k) idx (0 : Fin 1)
              + (scatter_S8386560_S16777216x1_S16777216_n_0_0_1.window (ValueIdx.ix1 k) (0 : Fin 1) : Int) < (8386560 : Int) := hall 0
      rw [bins_start, bins_window] at h0
      omega))]

/-- Update k lands on histogram element v exactly when its position word, read signed, is v. -/
theorem bins_resultIdx_iff (k : Fin 16777216) (idx : IVec S16777216x1 32) (v : Fin 8386560) :
    scatter_S8386560_S16777216x1_S16777216_n_0_0_1.resultIdx? (ValueIdx.ix1 k) idx = some (ValueIdx.ix1 v)
      ↔ (idx (ValueIdx.ix2 k (0 : Fin 1))).toInt = (v.val : Int) := by
  rw [bins_resultIdx_eq]
  have hv := v.isLt
  by_cases h : 0 ≤ (idx (ValueIdx.ix2 k (0 : Fin 1))).toInt ∧ (idx (ValueIdx.ix2 k (0 : Fin 1))).toInt < 8386560
  · rw [dif_pos h]
    constructor
    · intro e
      have e1 := congrFun (Option.some.inj e) (0 : Fin 1)
      have e2 : (idx (ValueIdx.ix2 k (0 : Fin 1))).toInt.toNat = v.val := congrArg Fin.val e1
      omega
    · intro e
      refine congrArg (fun i : Fin 8386560 => some (ValueIdx.ix1 i)) (Fin.ext ?_)
      show (idx (ValueIdx.ix2 k (0 : Fin 1))).toInt.toNat = v.val
      omega
  · rw [dif_neg h]
    constructor
    · intro e; cases e
    · intro e; exact absurd (by omega) h

/-- A count up to the number of set flags, as a word, reads signed as itself. -/
theorem toInt_ofNat_count (c : ℕ) (hc : c ≤ 8386560) : (BitVec.ofNat 32 c).toInt = (c : Int) := by
  rw [BitVec.toInt_eq_toNat_of_lt (by rw [BitVec.toNat_ofNat]; omega), BitVec.toNat_ofNat]; omega

/-- The index at a flattened position is the position's number. -/
theorem rowMajor_symm_eq_ix1 (N : ℕ) (n : Fin (⟨1, ![N]⟩ : Shape).numel) :
    (⟨1, ![N]⟩ : Shape).rowMajor.symm n = ValueIdx.ix1 (⟨n.val, lt_of_lt_of_eq n.isLt (numel_one N)⟩ : Fin N) :=
  funext fun a => match a with
    | ⟨0, _⟩ => Fin.ext (rowMajor_symm_one N n)

theorem bins_apply (v : Fin 8386560) :
    RefTerm.bins (F := Ideal) (ValueIdx.ix1 v)
      = BitVec.ofNat 32 (Cert.KthSet.hist (Cert.KthSet.tri 4096) 16777216 v.val) := by
  unfold RefTerm.bins
  rw [scatter_addi_ones_apply scatter_S8386560_S16777216x1_S16777216_n_0_0_1 (RefTerm.splatK 0#32) (RefTerm.binPos (F := Ideal))
    (RefTerm.splatT 1#32) (ValueIdx.ix1 v) rfl (fun _ => rfl)
    (lt_of_eq_of_lt (numel_one 16777216) (by norm_num))]
  refine congrArg (BitVec.ofNat 32) ?_
  have e : (fun n : Fin S16777216.numel =>
        if scatter_S8386560_S16777216x1_S16777216_n_0_0_1.resultIdx? (S16777216.rowMajor.symm n) (RefTerm.binPos (F := Ideal))
            = some (ValueIdx.ix1 v) then 1 else 0)
      = fun n => (fun m : ℕ => if Cert.KthSet.cnt (Cert.KthSet.tri 4096) m = v.val then 1 else 0) n.val := by
    funext n
    rw [rowMajor_symm_eq_ix1 16777216 n]
    refine if_congr ?_ rfl rfl
    rw [bins_resultIdx_iff, binPos_apply, toInt_ofNat_count _ (cnt_tri_le _)]
    exact Nat.cast_inj
  rw [e, Fin.sum_univ_eq_sum_range (fun m : ℕ => if Cert.KthSet.cnt (Cert.KthSet.tri 4096) m = v.val then 1 else 0), numel_one]
  unfold Cert.KthSet.hist
  rw [Finset.card_filter]

end Cert.ReferenceIdeal.IdxWords
-- ==== Proof.IdxWordsFlat.lean ====
/-
  The running count of the histogram.

  Each histogram element is at most the number of grid positions, and the sum of the elements 0 … q is the number of
  grid positions whose running count is at most q, again at most the number of grid positions, 16777216: the running
  sum never wraps.
-/
import proofs.«154192_g34583076667753_cont_8to1_b_861_5_alg».proof.Proof.IdxWordsBins

namespace Cert.ReferenceIdeal.IdxWords

open Idealize.ShloMosaic Cert.ReferenceIdeal
open Cert.ReferenceIdeal.Facts₀ Cert.ReferenceIdeal.Facts

variable [Cert.ReferenceIdeal.Facts]

/-- A histogram element read unsigned. -/
theorem bins_toNat (v : Fin 8386560) :
    (RefTerm.bins (F := Ideal) (ValueIdx.ix1 v)).toNat = Cert.KthSet.hist (Cert.KthSet.tri 4096) 16777216 v.val := by
  rw [bins_apply, BitVec.toNat_ofNat]
  have := Cert.KthSet.hist_le (Cert.KthSet.tri 4096) 16777216 v.val
  exact Nat.mod_eq_of_lt (by omega)

theorem flat_apply (q : Fin 8386560) :
    RefTerm.flat (F := Ideal) (ValueIdx.ix1 q)
      = BitVec.ofNat 32 (Cert.KthSet.pos (Cert.KthSet.tri 4096) 16777216 q.val) := by
  unfold RefTerm.flat
  refine runningSum_apply 8386560 8386559 rfl _ _ _ h_S_ rfl
    (fun v => Cert.KthSet.hist (Cert.KthSet.tri 4096) 16777216 v) bins_toNat q ?_
  have := Cert.KthSet.pos_le (Cert.KthSet.tri 4096) 16777216 q.val
  show Cert.KthSet.pos (Cert.KthSet.tri 4096) 16777216 q.val < 2 ^ 32
  omega

end Cert.ReferenceIdeal.IdxWords
-- ==== Proof.IdxWords.lean ====
/-
  The reference's 32-bit integer pipeline as natural-number counts: the upper-triangle flag of a grid cell, the
  running count of the flags over the flattened grid, the histogram of the running count, and the histogram's
  running count, each read at an index.
-/
import proofs.«154192_g34583076667753_cont_8to1_b_861_5_alg».proof.Proof.IdxWordsFlag
import proofs.«154192_g34583076667753_cont_8to1_b_861_5_alg».proof.Proof.IdxWordsCsum
import proofs.«154192_g34583076667753_cont_8to1_b_861_5_alg».proof.Proof.IdxWordsBins
import proofs.«154192_g34583076667753_cont_8to1_b_861_5_alg».proof.Proof.IdxWordsFlat
-- ==== Proof.PairsEnum.lean ====
/-
  The index pairs the reference gathers are exactly the pairs i < j below 4096, each once.

  The q-th word of the reference's flattened position list is the number P(q), the position on the 4096 x 4096 grid
  (row-major) of the q-th cell above the diagonal. The reference takes its row as (P / 4096) rounded down and then
  reduced modulo 4096, its column as (P / 1) reduced modulo 4096, and wraps negative indices by 4096. Since
  P = i * 4096 + j with i < j < 4096, P is below 4096 * 4096 < 2^31, the word operations are the natural numbers'
  (the word lemmas on division, remainder and wrap), (i * 4096 + j) / 4096 = i and (i * 4096 + j) % 4096 = j, and the
  enumeration q -> (i, j) of the pairs i < j is the one that orders the cells above the diagonal by position.
-/
import proofs.«154192_g34583076667753_cont_8to1_b_861_5_alg».proof.Proof.DivRemWords
import proofs.«154192_g34583076667753_cont_8to1_b_861_5_alg».proof.Proof.KthSet
import proofs.«154192_g34583076667753_cont_8to1_b_861_5_alg».proof.Proof.IdxWords

namespace Cert.ReferenceIdeal.PairsEnum

open Idealize.ShloMosaic Cert.ReferenceIdeal
open Cert.ReferenceIdeal.Facts₀ Cert.ReferenceIdeal.Facts

/-- The position of the q-th cell above the diagonal lies on the grid: it is i * 4096 + j with i, j < 4096. -/
theorem pos_lt_grid (q : Fin 8386560) : Cert.KthSet.pos (Cert.KthSet.tri 4096) 16777216 q.val < 16777216 := by
  obtain ⟨e, he⟩ := Cert.KthSet.triu_enum
  rw [he q]
  have h1 := (e q).1.1.isLt
  have h2 := (e q).1.2.isLt
  omega

variable [Cert.ReferenceIdeal.Facts]

/-! ## From the position list: the statements over any list whose q-th word is the q-th position -/

section
variable (hflat : ∀ q : Fin 8386560,
  RefTerm.flat (F := Ideal) (ValueIdx.ix1 q) = BitVec.ofNat 32 (Cert.KthSet.pos (Cert.KthSet.tri 4096) 16777216 q.val))
include hflat

/-- The first index of the q-th pair is the row of the q-th position: (P / 4096) % 4096 = P / 4096 as P < 4096 * 4096. -/
theorem idxI_apply_of (q : Fin 8386560) :
    RefTerm.idxI (F := Ideal) (ValueIdx.ix1 q) = BitVec.ofNat 32 (Cert.KthSet.pos (Cert.KthSet.tri 4096) 16777216 q.val / 4096) := by
  have hP := pos_lt_grid q
  have h1 := DivRemWords.floorDivF_4096_apply (RefTerm.flat (F := Ideal)) q _ (by omega) (hflat q)
  have h2 := DivRemWords.remF_4096_apply _ q _ (by omega) h1
  rw [Nat.mod_eq_of_lt (by omega)] at h2
  unfold RefTerm.idxI RefTerm.rowRaw
  exact DivRemWords.wrap_apply _ q _ (by omega) h2

/-- The second index of the q-th pair is the column of the q-th position: (P / 1) % 4096 = P % 4096. -/
theorem idxJ_apply_of (q : Fin 8386560) :
    RefTerm.idxJ (F := Ideal) (ValueIdx.ix1 q) = BitVec.ofNat 32 (Cert.KthSet.pos (Cert.KthSet.tri 4096) 16777216 q.val % 4096) := by
  have hP := pos_lt_grid q
  have h1 := DivRemWords.floorDivF_1_apply (RefTerm.flat (F := Ideal)) q _ (by omega) (hflat q)
  have h2 := DivRemWords.remF_4096_apply _ q _ (by omega) h1
  unfold RefTerm.idxJ RefTerm.colRaw
  exact DivRemWords.wrap_apply _ q _ (Nat.mod_lt _ (by omega)) h2

/-- The two index lists enumerate the pairs i < j below 4096: with P(q) = i * 4096 + j, j < 4096, the row is i and the
column is j. -/
theorem pairs_enum_of : ∃ e : Fin 8386560 ≃ {p : Fin 4096 × Fin 4096 // p.1 < p.2}, ∀ q : Fin 8386560,
    RefTerm.idxI (F := Ideal) (ValueIdx.ix1 q) = BitVec.ofNat 32 (e q).1.1.val ∧ RefTerm.idxJ (F := Ideal) (ValueIdx.ix1 q) = BitVec.ofNat 32 (e q).1.2.val := by
  obtain ⟨e, he⟩ := Cert.KthSet.triu_enum
  refine ⟨e, fun q => ?_⟩
  have h2 := (e q).1.2.isLt
  rw [idxI_apply_of hflat q, idxJ_apply_of hflat q, he q]
  exact ⟨congrArg (BitVec.ofNat 32) (by omega), congrArg (BitVec.ofNat 32) (by omega)⟩

end

/-! ## With the position list read: the q-th word of the reference's flattened position list is the q-th position -/

/-- The first index of the q-th pair is the row P(q) / 4096 of the q-th cell above the diagonal. -/
theorem idxI_apply (q : Fin 8386560) :
    RefTerm.idxI (F := Ideal) (ValueIdx.ix1 q) = BitVec.ofNat 32 (Cert.KthSet.pos (Cert.KthSet.tri 4096) 16777216 q.val / 4096) :=
  idxI_apply_of IdxWords.flat_apply q

/-- The second index of the q-th pair is the column P(q) % 4096 of the q-th cell above the diagonal. -/
theorem idxJ_apply (q : Fin 8386560) :
    RefTerm.idxJ (F := Ideal) (ValueIdx.ix1 q) = BitVec.ofNat 32 (Cert.KthSet.pos (Cert.KthSet.tri 4096) 16777216 q.val % 4096) :=
  idxJ_apply_of IdxWords.flat_apply q

/-- The index pairs the reference gathers are exactly the pairs i < j below 4096, each once. -/
theorem pairs_enum : ∃ e : Fin 8386560 ≃ {p : Fin 4096 × Fin 4096 // p.1 < p.2}, ∀ q : Fin 8386560,
    RefTerm.idxI (F := Ideal) (ValueIdx.ix1 q) = BitVec.ofNat 32 (e q).1.1.val ∧ RefTerm.idxJ (F := Ideal) (ValueIdx.ix1 q) = BitVec.ofNat 32 (e q).1.2.val :=
  pairs_enum_of IdxWords.flat_apply

end Cert.ReferenceIdeal.PairsEnum
-- ==== Proof.RefRead.lean ====
/-
  The reference's float side read at an index.

  The reference gathers, for each pair q of the list, the two points x[b, I q, :] and x[b, J q, :] and the two mask bits
  mask[b, I q], mask[b, J q] (a gather along axis 1 by a one-column matrix of start indices: result (b, q, d) is the
  operand at (b, clamp (index q), d), and the clamp of a number below 4096 to [0, 4095] is the number), takes the
  root of the sum over the three coordinates of the squared differences plus a softening constant, raises
  exp(s) / r to the power 2 / k with k = 1 / (1 + exp(-kr)), keeps that where both mask bits are set and zero elsewhere,
  sums over the pairs and negates. At the ideal values every operation is elementwise or an exact sum over one axis,
  so the result at batch b is minus (the initial value plus the sum over q of that term). The sums are never evaluated:
  they are only rewritten term by term.
-/
import proofs.«154192_g34583076667753_cont_8to1_b_861_5_alg».proof.Proof.RefTerm
import Idealize.ShloMosaic.Lib.ValueIdx
import Idealize.ShloMosaic.Lib.WordArith
import Idealize.ShloMosaic.Lib.Pipeline.Value
import Idealize.ShloMosaic.PureOps.Ideal.Laws

namespace Cert.ReferenceIdeal.RefRead

open Idealize.ShloMosaic Cert.ReferenceIdeal
open Cert.ReferenceIdeal.Facts₀ Cert.ReferenceIdeal.Facts

variable [Cert.ReferenceIdeal.Facts]

/-! ## Layout: the index column, the spread of a one-element vector, the two gathers, the two reduced axes -/

/-- The one-column index matrix at (q, 0) is the list at q. -/
theorem col1_apply (a : IVec S8386560 32) (q : Fin 8386560) (c : Fin 1) :
    RefTerm.col1 a (ValueIdx.ix2 q c) = a (ValueIdx.ix1 q) := by
  unfold RefTerm.col1 broadcastInDim
  refine congrArg a (funext fun d => ?_)
  match d with
  | ⟨0, _⟩ => rfl

/-- A one-element vector spread over the batches and pairs reads its one element everywhere. -/
theorem spread_apply (v : FVec Ideal S1 .f32) (j : S2x8386560.Idx) :
    RefTerm.spread (F := Ideal) v j = v (ValueIdx.ix1 (0 : Fin 1)) := by
  unfold RefTerm.spread broadcastInDim
  refine congrArg v (funext fun d => ?_)
  match d with
  | ⟨0, _⟩ => rfl

/-- The operand index of the gather of points: result (b, q, k) reads (b, clamp (index q), k); axes 0 and 2 are offset
axes, axis 1 is collapsed and is the one the start index names. -/
theorem gather3_idx (idx : IVec S8386560x1 32) (b : Fin 2) (q : Fin 8386560) (k : Fin 3) :
    gather_S2x4096x3_S8386560x1_S2x8386560x3_02_1_n_n_1_1_213.operandIdx (ValueIdx.ix3 b q k) idx
      = ValueIdx.ix3 b ⟨min (idx (ValueIdx.ix2 q (0 : Fin 1))).toInt.toNat (4096 - 1), by omega⟩ k := by
  funext a
  refine Fin.ext ?_
  match a with
  | ⟨0, _⟩ =>
    show 0 + 0 + b.val = b.val
    omega
  | ⟨1, _⟩ =>
    have hsi : gather_S2x4096x3_S8386560x1_S2x8386560x3_02_1_n_n_1_1_213.siIdx (ValueIdx.ix3 b q k) ⟨0, Nat.zero_lt_one⟩ = ValueIdx.ix2 q (0 : Fin 1) := by
      funext b'; refine Fin.ext ?_
      match b' with
      | ⟨0, _⟩ => rfl
      | ⟨1, _⟩ => rfl
    show min (idx (gather_S2x4096x3_S8386560x1_S2x8386560x3_02_1_n_n_1_1_213.siIdx (ValueIdx.ix3 b q k) ⟨0, Nat.zero_lt_one⟩)).toInt.toNat (4096 - 1) + 0 + 0 = _
    rw [hsi]
    rfl
  | ⟨2, _⟩ =>
    show 0 + 0 + k.val = k.val
    omega

/-- The operand index of the gather of mask bits: result (b, q) reads (b, clamp (index q)). -/
theorem gather2_idx (idx : IVec S8386560x1 32) (b : Fin 2) (q : Fin 8386560) :
    gather_S2x4096_S8386560x1_S2x8386560_0_1_n_n_1_1_21.operandIdx (ValueIdx.ix2 b q) idx
      = ValueIdx.ix2 b ⟨min (idx (ValueIdx.ix2 q (0 : Fin 1))).toInt.toNat (4096 - 1), by omega⟩ := by
  funext a
  refine Fin.ext ?_
  match a with
  | ⟨0, _⟩ =>
    show 0 + 0 + b.val = b.val
    omega
  | ⟨1, _⟩ =>
    have hsi : gather_S2x4096_S8386560x1_S2x8386560_0_1_n_n_1_1_21.siIdx (ValueIdx.ix2 b q) ⟨0, Nat.zero_lt_one⟩ = ValueIdx.ix2 q (0 : Fin 1) := by
      funext b'; refine Fin.ext ?_
      match b' with
      | ⟨0, _⟩ => rfl
      | ⟨1, _⟩ => rfl
    show min (idx (gather_S2x4096_S8386560x1_S2x8386560_0_1_n_n_1_1_21.siIdx (ValueIdx.ix2 b q) ⟨0, Nat.zero_lt_one⟩)).toInt.toNat (4096 - 1) + 0 + 0 = _
    rw [hsi]
    rfl

/-- The clamp of a start index that is a number below 4096 is the number. -/
theorem clamp_eq (a : IVec S8386560 32) (q : Fin 8386560) (n : Fin 4096) (ha : a (ValueIdx.ix1 q) = BitVec.ofNat 32 n.val) :
    (⟨min ((RefTerm.col1 a) (ValueIdx.ix2 q (0 : Fin 1))).toInt.toNat (4096 - 1), by omega⟩ : Fin 4096) = n := by
  refine Fin.ext ?_
  show min ((RefTerm.col1 a) (ValueIdx.ix2 q (0 : Fin 1))).toInt.toNat (4096 - 1) = n.val
  have hn := n.isLt
  rw [col1_apply, ha, WordArith.toInt_ofNat_small _ (by omega), Int.toNat_natCast]
  omega

/-- The gather of points by an index list whose q-th word is a number n below 4096 reads point n. -/
theorem gather3_apply (x : FVec Ideal S2x4096x3 .f32) (a : IVec S8386560 32) (b : Fin 2) (q : Fin 8386560) (k : Fin 3) (n : Fin 4096)
    (ha : a (ValueIdx.ix1 q) = BitVec.ofNat 32 n.val) :
    Host.gather gather_S2x4096x3_S8386560x1_S2x8386560x3_02_1_n_n_1_1_213 x (RefTerm.col1 a) (ValueIdx.ix3 b q k) = x (ValueIdx.ix3 b n k) := by
  unfold Host.gather
  rw [gather3_idx, clamp_eq a q n ha]

/-- The gather of mask bits by an index list whose q-th word is a number n below 4096 reads bit n. -/
theorem gather2_apply (mask : IVec S2x4096 1) (a : IVec S8386560 32) (b : Fin 2) (q : Fin 8386560) (n : Fin 4096)
    (ha : a (ValueIdx.ix1 q) = BitVec.ofNat 32 n.val) :
    Host.gather gather_S2x4096_S8386560x1_S2x8386560_0_1_n_n_1_1_21 mask (RefTerm.col1 a) (ValueIdx.ix2 b q) = mask (ValueIdx.ix2 b n) := by
  unfold Host.gather
  rw [gather2_idx, clamp_eq a q n ha]

/-- Batch b with pair q inserted on the reduced axis 1 is the index (b, q). -/
theorem lift2 (h : S2x8386560.Reduces [1] S2) (b : Fin 2) (q : Fin 8386560) : h.lift (ValueIdx.ix1 b) q = ValueIdx.ix2 b q := by
  funext c; refine Fin.ext ?_
  match c with
  | ⟨0, _⟩ => rfl
  | ⟨1, _⟩ => rfl

/-- (b, q) with coordinate k inserted on the reduced axis 2 is the index (b, q, k). -/
theorem lift3 (h : S2x8386560x3.Reduces [2] S2x8386560) (b : Fin 2) (q : Fin 8386560) (k : Fin 3) :
    h.lift (ValueIdx.ix2 b q) k = ValueIdx.ix3 b q k := by
  funext c; refine Fin.ext ?_
  match c with
  | ⟨0, _⟩ => rfl
  | ⟨1, _⟩ => rfl
  | ⟨2, _⟩ => rfl

/-! ## The host's elementwise and reducing operations at an index, at the ideal values -/

section Apply
variable {s : Shape} {φ : FTy}
theorem hsqrt_apply (y : FVec Ideal s φ) (i : s.Idx) : Host.sqrt y i = Ideal.sqrt (y i) := rfl
theorem hexp_apply (y : FVec Ideal s φ) (i : s.Idx) : Host.exp y i = Ideal.exp (y i) := rfl
theorem hnegf_apply (y : FVec Ideal s φ) (i : s.Idx) : Host.negf y i = -(y i) := rfl
theorem hdivf_apply (y z : FVec Ideal s φ) (i : s.Idx) : Host.divf y z i = Ideal.div (y i) (z i) := rfl
theorem hpowf_apply (y z : FVec Ideal s φ) (i : s.Idx) : Host.powf y z i = Ideal.pow (y i) (z i) := rfl
theorem andi_apply {w : Nat} (y z : IVec s w) (i : s.Idx) : andi y z i = IntOp.andi (y i) (z i) := rfl
theorem reduceAdd_apply {axes : List (Fin s.rank)} {t u : Shape} (X : FVec Ideal s φ) (init : u.Idx → Ideal φ)
    (h : s.ReducesTo axes t) (hu : 0 < u.numel) (j : t.Idx) :
    Host.reduceAdd X init h hu j = Ideal.hostReduceAdd h X (init (Shape.Idx.first hu)) j := rfl
theorem bcast_scalar_apply (t : Shape) (h : S_.BroadcastsInDim t (![] : Fin 0 → Fin t.rank)) (c : BitVec φ.bits) (j : t.Idx) :
    broadcastInDim t ![] h (constant (F := Ideal) S_ φ c) j = Ideal.ofBits φ c := rfl
end Apply

/-! ## The reference's float terms at an index, for index lists that are the words of I and J -/

section
variable (I J : Fin 8386560 → Fin 4096)
  (hI : ∀ q : Fin 8386560, RefTerm.idxI (F := Ideal) (ValueIdx.ix1 q) = BitVec.ofNat 32 (I q).val)
  (hJ : ∀ q : Fin 8386560, RefTerm.idxJ (F := Ideal) (ValueIdx.ix1 q) = BitVec.ofNat 32 (J q).val)
include hI hJ

omit hI hJ in
/-- The distance term, its intermediate arrays written out. -/
theorem dist_eq (x : FVec Ideal S2x4096x3 .f32) :
    RefTerm.dist (F := Ideal) x
      = Host.sqrt (addf (Host.reduceAdd
          (mulf (subf (Host.gather gather_S2x4096x3_S8386560x1_S2x8386560x3_02_1_n_n_1_1_213 x (RefTerm.col1 (RefTerm.idxI (F := Ideal))))
                      (Host.gather gather_S2x4096x3_S8386560x1_S2x8386560x3_02_1_n_n_1_1_213 x (RefTerm.col1 (RefTerm.idxJ (F := Ideal)))))
                (subf (Host.gather gather_S2x4096x3_S8386560x1_S2x8386560x3_02_1_n_n_1_1_213 x (RefTerm.col1 (RefTerm.idxI (F := Ideal))))
                      (Host.gather gather_S2x4096x3_S8386560x1_S2x8386560x3_02_1_n_n_1_1_213 x (RefTerm.col1 (RefTerm.idxJ (F := Ideal))))))
          (constant (F := Ideal) S_ .f32 0x00000000#32) reducesTo_S2x8386560x3_S2x8386560_d2 h_S_)
        (broadcastInDim S2x8386560 ![] bcast_S_S2x8386560 (constant (F := Ideal) S_ .f32 0x2EDBE6FF#32))) := rfl

/-- The softened distance of the q-th pair's two points in batch b. -/
theorem dist_apply (x : FVec Ideal S2x4096x3 .f32) (b : Fin 2) (q : Fin 8386560) :
    RefTerm.dist (F := Ideal) x (ValueIdx.ix2 b q)
      = Ideal.sqrt ((Ideal.ofBits .f32 0x00000000#32 + ∑ d : Fin 3, (x (ValueIdx.ix3 b (I q) d) - x (ValueIdx.ix3 b (J q) d)) * (x (ValueIdx.ix3 b (I q) d) - x (ValueIdx.ix3 b (J q) d)))
          + Ideal.ofBits .f32 0x2EDBE6FF#32) := by
  have h3 : S2x8386560x3.Reduces [2] S2x8386560 :=
    ⟨reducesTo_S2x8386560x3_S2x8386560_d2.1, Nat.zero_lt_two, reducesTo_S2x8386560x3_S2x8386560_d2.2⟩
  rw [dist_eq, hsqrt_apply, ValueIdx.addf_apply, reduceAdd_apply, bcast_scalar_apply, ValueIdx.constant_apply]
  rw [Ideal.hostReduceAdd_single _ h3]
  refine congrArg (fun z => Ideal.sqrt ((Ideal.ofBits .f32 0x00000000#32 + z) + Ideal.ofBits .f32 0x2EDBE6FF#32)) ?_
  refine Finset.sum_congr rfl fun k _ => ?_
  rw [lift3 h3 b q k, ValueIdx.mulf_apply, ValueIdx.subf_apply,
    gather3_apply x _ b q k (I q) (hI q), gather3_apply x _ b q k (J q) (hJ q)]

/-- Both mask bits of the q-th pair in batch b. -/
theorem pairMask_apply (mask : IVec S2x4096 1) (b : Fin 2) (q : Fin 8386560) :
    RefTerm.pairMask (F := Ideal) mask (ValueIdx.ix2 b q) = IntOp.andi (mask (ValueIdx.ix2 b (I q))) (mask (ValueIdx.ix2 b (J q))) := by
  unfold RefTerm.pairMask
  rw [andi_apply, gather2_apply mask _ b q (I q) (hI q), gather2_apply mask _ b q (J q) (hJ q)]

omit hI hJ in
/-- The logistic function of the raw shape parameter: 1 / (1 + exp(-kr)). -/
theorem kOf_apply (kr : FVec Ideal S1 .f32) (i : S1.Idx) :
    RefTerm.kOf (F := Ideal) kr i
      = Ideal.div (Ideal.ofBits .f32 0x3F800000#32) (Ideal.ofBits .f32 0x3F800000#32 + Ideal.exp (-(kr i))) := by
  unfold RefTerm.kOf
  rw [hdivf_apply, bcast_scalar_apply, ValueIdx.addf_apply, bcast_scalar_apply, hexp_apply, hnegf_apply]

/-- The pair potential (exp s / r) ^ (2 / k) of the q-th pair in batch b. -/
theorem phi_apply (x : FVec Ideal S2x4096x3 .f32) (s kr : FVec Ideal S1 .f32) (b : Fin 2) (q : Fin 8386560) :
    RefTerm.phi (F := Ideal) x s kr (ValueIdx.ix2 b q)
      = Ideal.pow
          (Ideal.div (Ideal.exp (s (ValueIdx.ix1 (0 : Fin 1))))
            (Ideal.sqrt ((Ideal.ofBits .f32 0x00000000#32 + ∑ d : Fin 3, (x (ValueIdx.ix3 b (I q) d) - x (ValueIdx.ix3 b (J q) d)) * (x (ValueIdx.ix3 b (I q) d) - x (ValueIdx.ix3 b (J q) d)))
              + Ideal.ofBits .f32 0x2EDBE6FF#32)))
          (Ideal.div (Ideal.ofBits .f32 0x40000000#32)
            (Ideal.div (Ideal.ofBits .f32 0x3F800000#32) (Ideal.ofBits .f32 0x3F800000#32 + Ideal.exp (-(kr (ValueIdx.ix1 (0 : Fin 1))))))) := by
  unfold RefTerm.phi
  rw [hpowf_apply, hdivf_apply, spread_apply, spread_apply, hexp_apply, hdivf_apply, bcast_scalar_apply, kOf_apply,
    dist_apply I J hI hJ x b q]

/-- The reference's result at batch b, the index functions given first. -/
theorem out_apply_of (x : FVec Ideal S2x4096x3 .f32) (mask : IVec S2x4096 1) (s kr : FVec Ideal S1 .f32) (b : Fin 2) :
    RefTerm.out (F := Ideal) x mask s kr (ValueIdx.ix1 b)
      = -(Ideal.ofBits .f32 0x00000000#32 + ∑ q : Fin 8386560,
           Scalar.select (IntOp.andi (mask (ValueIdx.ix2 b (I q))) (mask (ValueIdx.ix2 b (J q))))
             (Ideal.pow
               (Ideal.div (Ideal.exp (s (ValueIdx.ix1 (0 : Fin 1))))
                 (Ideal.sqrt ((Ideal.ofBits .f32 0x00000000#32 + ∑ d : Fin 3, (x (ValueIdx.ix3 b (I q) d) - x (ValueIdx.ix3 b (J q) d)) * (x (ValueIdx.ix3 b (I q) d) - x (ValueIdx.ix3 b (J q) d)))
                    + Ideal.ofBits .f32 0x2EDBE6FF#32)))
               (Ideal.div (Ideal.ofBits .f32 0x40000000#32)
                 (Ideal.div (Ideal.ofBits .f32 0x3F800000#32) (Ideal.ofBits .f32 0x3F800000#32 + Ideal.exp (-(kr (ValueIdx.ix1 (0 : Fin 1))))))))
             (Ideal.ofBits .f32 0x00000000#32)) := by
  have h2 : S2x8386560.Reduces [1] S2 := ⟨reducesTo_S2x8386560_S2_d1.1, Nat.zero_lt_one, reducesTo_S2x8386560_S2_d1.2⟩
  unfold RefTerm.out
  rw [hnegf_apply, reduceAdd_apply, ValueIdx.constant_apply, Ideal.hostReduceAdd_single _ h2]
  refine congrArg (fun z => -(Ideal.ofBits .f32 0x00000000#32 + z)) ?_
  refine Finset.sum_congr rfl fun q _ => ?_
  rw [lift2 h2 b q, ValueIdx.select_apply, pairMask_apply I J hI hJ mask b q, phi_apply I J hI hJ x s kr b q, bcast_scalar_apply]

end

/-- THE REFERENCE'S RESULT AT BATCH b: minus (zero plus the sum over the pairs q of the potential of the pair
(I q, J q) where both its mask bits are set, zero elsewhere), for any index functions I, J that the two index lists
are the words of. -/
theorem out_apply (x : FVec Ideal S2x4096x3 .f32) (mask : IVec S2x4096 1) (s kr : FVec Ideal S1 .f32) (I J : Fin 8386560 → Fin 4096)
    (hI : ∀ q : Fin 8386560, RefTerm.idxI (F := Ideal) (ValueIdx.ix1 q) = BitVec.ofNat 32 (I q).val)
    (hJ : ∀ q : Fin 8386560, RefTerm.idxJ (F := Ideal) (ValueIdx.ix1 q) = BitVec.ofNat 32 (J q).val) (b : Fin 2) :
    RefTerm.out (F := Ideal) x mask s kr (ValueIdx.ix1 b)
      = -(Ideal.ofBits .f32 0x00000000#32 + ∑ q : Fin 8386560,
           Scalar.select (IntOp.andi (mask (ValueIdx.ix2 b (I q))) (mask (ValueIdx.ix2 b (J q))))
             (Ideal.pow
               (Ideal.div (Ideal.exp (s (ValueIdx.ix1 (0 : Fin 1))))
                 (Ideal.sqrt ((Ideal.ofBits .f32 0x00000000#32 + ∑ d : Fin 3, (x (ValueIdx.ix3 b (I q) d) - x (ValueIdx.ix3 b (J q) d)) * (x (ValueIdx.ix3 b (I q) d) - x (ValueIdx.ix3 b (J q) d)))
                    + Ideal.ofBits .f32 0x2EDBE6FF#32)))
               (Ideal.div (Ideal.ofBits .f32 0x40000000#32)
                 (Ideal.div (Ideal.ofBits .f32 0x3F800000#32) (Ideal.ofBits .f32 0x3F800000#32 + Ideal.exp (-(kr (ValueIdx.ix1 (0 : Fin 1))))))))
             (Ideal.ofBits .f32 0x00000000#32)) :=
  out_apply_of I J hI hJ x mask s kr b

end Cert.ReferenceIdeal.RefRead
-- ==== Proof.RefResult.lean ====
/-
  The reference's result is the common closed form.

  Read at batch b, the reference's result is minus the sum, over the list of index pairs, of the masked pair
  potential of the pair's two points.  The list of pairs is an enumeration, each once, of the pairs i < j below
  4096, so the sum is the sum over those pairs; and where the arguments are real numbers every term is the real
  masked potential, so the result is the real energy of the batch, read back as an extended real.
-/
import proofs.«154192_g34583076667753_cont_8to1_b_861_5_alg».proof.Proof.Bridge
import proofs.«154192_g34583076667753_cont_8to1_b_861_5_alg».proof.Proof.PairsEnum
import proofs.«154192_g34583076667753_cont_8to1_b_861_5_alg».proof.Proof.RefTerm
import proofs.«154192_g34583076667753_cont_8to1_b_861_5_alg».proof.Proof.RefRead

noncomputable section

namespace Cert.ReferenceIdeal.RefRes

open Idealize.ShloMosaic Idealize.ShloMosaic.ValueIdx Cert.ReferenceIdeal

variable [Cert.ReferenceIdeal.Facts]

/-- The reference's result read at batch `b`, given the two index lists as functions into the points: minus the sum
    over the list of the masked pair potential. -/
def ReadsAsPairSum : Prop :=
  ∀ (x : FVec Ideal S2x4096x3 .f32) (mask : IVec S2x4096 1) (s kr : FVec Ideal S1 .f32)
    (I J : Fin 8386560 → Fin 4096)
    (hI : ∀ q, RefTerm.idxI (F := Ideal) (ix1 q) = BitVec.ofNat 32 (I q).val)
    (hJ : ∀ q, RefTerm.idxJ (F := Ideal) (ix1 q) = BitVec.ofNat 32 (J q).val) (b : Fin 2),
    RefTerm.out (F := Ideal) x mask s kr (ix1 b)
      = -(Ideal.ofBits .f32 0x00000000#32 + ∑ q : Fin 8386560,
          Cert.Softcore.refTerm (s (ix1 (0 : Fin 1))) (kr (ix1 (0 : Fin 1))) (fun i d => x (ix3 b i d))
            (fun i => mask (ix2 b i)) (I q) (J q))

/-- The same reading with the masked pair potential spelt out operation by operation. -/
def ReadsAsPairSumSpelt : Prop :=
  ∀ (x : FVec Ideal S2x4096x3 .f32) (mask : IVec S2x4096 1) (s kr : FVec Ideal S1 .f32)
    (I J : Fin 8386560 → Fin 4096)
    (hI : ∀ q, RefTerm.idxI (F := Ideal) (ix1 q) = BitVec.ofNat 32 (I q).val)
    (hJ : ∀ q, RefTerm.idxJ (F := Ideal) (ix1 q) = BitVec.ofNat 32 (J q).val) (b : Fin 2),
    RefTerm.out (F := Ideal) x mask s kr (ix1 b)
      = -(Ideal.ofBits .f32 0x00000000#32 + ∑ q : Fin 8386560,
          Scalar.select (IntOp.andi (mask (ix2 b (I q))) (mask (ix2 b (J q))))
            (Ideal.pow
              (Ideal.div (Ideal.exp (s (ix1 (0 : Fin 1))))
                (Ideal.sqrt ((Ideal.ofBits .f32 0x00000000#32
                    + ∑ d : Fin 3, (x (ix3 b (I q) d) - x (ix3 b (J q) d)) * (x (ix3 b (I q) d) - x (ix3 b (J q) d)))
                  + Ideal.ofBits .f32 0x2EDBE6FF#32)))
              (Ideal.div (Ideal.ofBits .f32 0x40000000#32)
                (Ideal.div (Ideal.ofBits .f32 0x3F800000#32)
                  (Ideal.ofBits .f32 0x3F800000#32 + Ideal.exp (-(kr (ix1 (0 : Fin 1))))))))
            (Ideal.ofBits .f32 0x00000000#32))

/-- The spelt-out summand is the masked pair potential, term by term. -/
theorem readsAsPairSum_of_spelt (h : ReadsAsPairSumSpelt) : ReadsAsPairSum := fun x mask s kr I J hI hJ b =>
  (h x mask s kr I J hI hJ b).trans
    (congrArg (fun z : EReal => -(Ideal.ofBits .f32 0x00000000#32 + z)) (Finset.sum_congr rfl fun q _ => rfl))

/-- With the result read as the sum over the list of pairs, the reference's result is the common closed form:
    the list enumerates the pairs `i < j`, and on real arguments each term is the real masked potential. -/
theorem out_eq_result_of (hread : ReadsAsPairSum)
    (x : FVec Ideal S2x4096x3 .f32) (mask : IVec S2x4096 1) (s kr : FVec Ideal S1 .f32)
    (hx : ∀ i, ∃ r : ℝ, x i = (r : EReal)) (hs : ∃ r : ℝ, s (ix1 (0 : Fin 1)) = (r : EReal))
    (hk : ∃ r : ℝ, kr (ix1 (0 : Fin 1)) = (r : EReal)) :
    RefTerm.out (F := Ideal) x mask s kr = Cert.Softcore.result x mask s kr := by
  funext i
  obtain ⟨b, rfl⟩ : ∃ b : Fin 2, i = ix1 b := ⟨i 0, eq_ix1 i⟩
  obtain ⟨e, he⟩ := PairsEnum.pairs_enum
  rw [hread x mask s kr (fun q => (e q).1.1) (fun q => (e q).1.2) (fun q => (he q).1) (fun q => (he q).2) b]
  have hε := Cert.Softcore.eps_toReal
  rw [Cert.Softcore.ref_eq (s (ix1 (0 : Fin 1))).toReal (kr (ix1 (0 : Fin 1))).toReal
    (Ideal.ofBits .f32 0x2EDBE6FF#32).toReal hε.1 hε.2 (fun p d => (x (ix3 b p d)).toReal) (fun i => mask (ix2 b i))
    (s (ix1 (0 : Fin 1))) (kr (ix1 (0 : Fin 1))) (fun i d => x (ix3 b i d))
    (Cert.Softcore.coe_toReal_of_real hs) (Cert.Softcore.coe_toReal_of_real hk)
    (fun p d => Cert.Softcore.coe_toReal_of_real (hx _)) (fun q => (e q).1.1) (fun q => (e q).1.2) e
    (fun q => rfl) (fun q => rfl)]
  rfl

/-- The reference's result, read, is the sum over the list of pairs of the masked pair potential. -/
theorem readsAsPairSum : ReadsAsPairSum :=
  readsAsPairSum_of_spelt fun x mask s kr I J hI hJ b => RefRead.out_apply x mask s kr I J hI hJ b

/-- The reference's result is the common closed form of the four arguments, where they are real numbers. -/
theorem out_eq_result (x : FVec Ideal S2x4096x3 .f32) (mask : IVec S2x4096 1) (s kr : FVec Ideal S1 .f32)
    (hx : ∀ i, ∃ r : ℝ, x i = (r : EReal)) (hs : ∃ r : ℝ, s (ValueIdx.ix1 (0 : Fin 1)) = (r : EReal))
    (hk : ∃ r : ℝ, kr (ValueIdx.ix1 (0 : Fin 1)) = (r : EReal)) :
    RefTerm.out (F := Ideal) x mask s kr = Cert.Softcore.result x mask s kr :=
  out_eq_result_of readsAsPairSum x mask s kr hx hs hk

end Cert.ReferenceIdeal.RefRes

end
-- ==== Proof.Finite.lean ====
/-
  What the precondition says of the float arguments: every entry is a real number.

  The precondition is the conjunction of three tests "every |entry| < +inf", each a reduction by "and" from 1 of the
  entrywise comparisons.  When it holds, every comparison holds; the word 0x7F800000 denotes the top element, and an
  extended real x with max x (−x) below the top is neither the bottom (whose negation is the top) nor the top.
-/
import proofs.«154192_g34583076667753_cont_8to1_b_861_5_alg».proof.Pre_finite_inputs
import Idealize.ShloMosaic.Lib.ReduceAll
import Idealize.ShloMosaic.Lib.ValueIdx

namespace Cert.Pre_finite_inputs.Finite

open Idealize.ShloMosaic Cert.Pre_finite_inputs
open Cert.Pre_finite_inputs.Facts

variable [Cert.Pre_finite_inputs.Facts]

/-- The rank-zero shape has one index. -/
instance : Subsingleton S_.Idx := ⟨fun a b => funext fun d => d.elim0⟩

/-- The word 0x7F800000 denotes the top element. -/
theorem ofBits_inf_f32 : Ideal.ofBits .f32 0x7F800000#32 = ⊤ := by simp [Ideal.ofBits, Ideal.ieee]

/-- An extended real whose absolute value compares below the top is a real. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One entrywise test, read back. -/
theorem real_of_test {sh : Shape} (v : FVec Ideal sh .f32) (hb : S_.BroadcastsInDim sh (![] : Fin 0 → Fin sh.rank)) (i : sh.Idx)
    (h : cmpf .olt (Host.absf v) (broadcastInDim sh ![] hb (constant (F := Ideal) S_ .f32 0x7F800000#32)) i = 1#1) :
    ∃ r : ℝ, v i = (r : EReal) := by
  refine real_of_abs_lt_top (v i) ?_
  rw [← ofBits_inf_f32]
  exact h

theorem real_of_pre (x : FVec Ideal S2x4096x3 .f32) (mask : IVec S2x4096 1) (s kr : FVec Ideal S1 .f32)
    (h : Cert.Pre_finite_inputs.fn (F := Ideal) x mask s kr = fun _ => 1#1) :
    (∀ i : S2x4096x3.Idx, ∃ r : ℝ, x i = (r : EReal)) ∧ (∃ r : ℝ, s (ValueIdx.ix1 (0 : Fin 1)) = (r : EReal)) ∧
      (∃ r : ℝ, kr (ValueIdx.ix1 (0 : Fin 1)) = (r : EReal)) := by
  have h0 := congrFun h ValueIdx.ix0
  dsimp only [fn] at h0
  obtain ⟨h12, h3⟩ := IntOp.andi_eq_one.1 h0
  obtain ⟨h1, h2⟩ := IntOp.andi_eq_one.1 h12
  refine ⟨fun i => ?_, ?_, ?_⟩
  · exact real_of_test x bcast_S_S2x4096x3 i
      (Host.reduce_andi_all _ _ reducesTo_S2x4096x3_S_d0_1_2 h_S_ ValueIdx.ix0 h1 i)
  · exact real_of_test s bcast_S_S1 (ValueIdx.ix1 (0 : Fin 1))
      (Host.reduce_andi_all _ _ reducesTo_S1_S_d0 h_S_ ValueIdx.ix0 h2 (ValueIdx.ix1 (0 : Fin 1)))
  · exact real_of_test kr bcast_S_S1 (ValueIdx.ix1 (0 : Fin 1))
      (Host.reduce_andi_all _ _ reducesTo_S1_S_d0 h_S_ ValueIdx.ix0 h3 (ValueIdx.ix1 (0 : Fin 1)))

end Cert.Pre_finite_inputs.Finite
-- ==== Proof.lean ====
/-
  Pair energy of a soft-core point process: the kernel against its reference, on the extended reals.

  For each batch the reference sums, over the pairs of points i < j with both mask bits set, the potential
  (σ / r_ij)^(2/k), where r_ij² = |x_i − x_j|² + ε, σ = e^s and k is the logistic function of kr, and negates the sum;
  it lists the pairs by ranking the set cells of an upper-triangle flag (running count, histogram, running count,
  quotient and remainder). The kernel computes the whole matrix of exp (c0 − (1/k)·log r_ij²), c0 = (1/k)·2·s, masked
  by the product of the mask bits and with the diagonal zeroed, tile by tile into one accumulator per batch, and
  returns −1/2 of it. The two agree because the base σ / r_ij is positive (so its power is the exponential of the
  exponent times its logarithm), the potential is symmetric in (i, j), and the ranked cells are exactly the pairs
  i < j, each once.

  The modules: the kernel's run with its output array named and read back as the tile sums; the reference's run read
  back as one pure term, its integer part as natural-number counts and its float part at an index; the real-number
  identity and the halving of a symmetric sum; finiteness of the float inputs from the precondition.
-/
import proofs.«154192_g34583076667753_cont_8to1_b_861_5_alg».proof.Defs
import proofs.«154192_g34583076667753_cont_8to1_b_861_5_alg».proof.Proof.Gen.Kernel
import proofs.«154192_g34583076667753_cont_8to1_b_861_5_alg».proof.Proof.Gen.KernelIdeal
import proofs.«154192_g34583076667753_cont_8to1_b_861_5_alg».proof.Proof.Gen.ReferenceIdeal
import proofs.«154192_g34583076667753_cont_8to1_b_861_5_alg».proof.Proof.Gen.Pre_finite_inputs
import proofs.«154192_g34583076667753_cont_8to1_b_861_5_alg».proof.Proof.KFrameBits
import proofs.«154192_g34583076667753_cont_8to1_b_861_5_alg».proof.Proof.KFrameIdeal
import proofs.«154192_g34583076667753_cont_8to1_b_861_5_alg».proof.Proof.KResult
import proofs.«154192_g34583076667753_cont_8to1_b_861_5_alg».proof.Proof.RefRun
import proofs.«154192_g34583076667753_cont_8to1_b_861_5_alg».proof.Proof.RefResult
import proofs.«154192_g34583076667753_cont_8to1_b_861_5_alg».proof.Proof.Finite
import proofs.«154192_g34583076667753_cont_8to1_b_861_5_alg».proof.Proof.Bridge
import Idealize.ShloMosaic.Adequacy
import Idealize.ShloMosaic.Init

noncomputable section

namespace Cert.Proof

open Idealize.ShloMosaic Idealize.SL.Sem

/-- The kernel as printed runs to the end, faults nowhere and leaves its arguments unchanged. -/
theorem frame_k : Cert.frame_Kernel := fun m ρ _ => Cert.Kernel.KF.frame m ρ

/-- So does its reading on the extended reals. -/
theorem frame_ki : Cert.frame_KernelIdeal := fun m ρ _ => Cert.KernelIdeal.KF.frame m ρ

/-- The reference runs to the end and leaves its arguments unchanged: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end with the energy of each batch, a function of the four argument arrays alone. -/
theorem algebraic : Cert.algebraic_KernelIdeal_ReferenceIdeal := by
  intro m ρ m' ρ' hpre hagree
  have hfin := fun c => Cert.Pre_finite_inputs.Finite.real_of_pre _ _ _ _ (hpre c)
  refine ⟨fun c => Cert.Softcore.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KRes.run_result m ρ hfin, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact Cert.ReferenceIdeal.RefRes.out_eq_result _ _ _ _ (hfin c).1 (hfin c).2.1 (hfin c).2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
